-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x64 .f32) (main_arg3 : FVec F S64 .f32) (main_arg4 : FVec F S64x2 .f32) (main_arg5 : FVec F S2 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x2 .f32 := Host.absf main_arg4
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S4000x512 : Shape := ⟨2, ![4000, 512]⟩
abbrev S4000x1 : Shape := ⟨2, ![4000, 1]⟩
abbrev S4000x64 : Shape := ⟨2, ![4000, 64]⟩
abbrev S1700000x64 : Shape := ⟨2, ![1700000, 64]⟩
abbrev S1x64 : Shape := ⟨2, ![1, 64]⟩
abbrev S100000x2 : Shape := ⟨2, ![100000, 2]⟩
abbrev S10000x64 : Shape := ⟨2, ![10000, 64]⟩
abbrev S10000x1 : Shape := ⟨2, ![10000, 1]⟩
abbrev S10000x2 : Shape := ⟨2, ![10000, 2]⟩
abbrev S1700000x2 : Shape := ⟨2, ![1700000, 2]⟩
abbrev S1x2 : Shape := ⟨2, ![1, 2]⟩
abbrev S5000x2 : Shape := ⟨2, ![5000, 2]⟩
abbrev S5000x1 : Shape := ⟨2, ![5000, 1]⟩
abbrev S5000 : Shape := ⟨1, ![5000]⟩

abbrev nBuf : Space → Nat
  | .hbm => 59
  | .vmem => 22
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x64, .f32⟩
  | .hbm, ⟨38, _⟩ => ⟨S_, .f32⟩
  | .hbm, ⟨39, _⟩ => ⟨S100000x64, .f32⟩
  | .hbm, ⟨40, _⟩ => ⟨S1700000x1, .i32⟩
  | .hbm, ⟨41, _⟩ => ⟨S100000x64, .f32⟩
  | .hbm, ⟨42, _⟩ => ⟨S1x64, .f32⟩
  | .hbm, ⟨43, _⟩ => ⟨S100000x2, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x2, .f32⟩
  | .hbm, ⟨53, _⟩ => ⟨S_, .f32⟩
  | .hbm, ⟨54, _⟩ => ⟨S100000x2, .f32⟩
  | .hbm, ⟨55, _⟩ => ⟨S1700000x1, .i32⟩
  | .hbm, ⟨56, _⟩ => ⟨S100000x2, .f32⟩
  | .hbm, ⟨57, _⟩ => ⟨S1x2, .f32⟩
  | .hbm, ⟨58, _⟩ => ⟨S100000x2, .f32⟩
  | .local _ .vmem, ⟨0, _⟩ => ⟨S4000x512, .f32⟩
  | .local _ .vmem, ⟨1, _⟩ => ⟨S4000x512, .f32⟩
  | .local _ .vmem, ⟨2, _⟩ => ⟨S512x64, .f32⟩
  | .local _ .vmem, ⟨3, _⟩ => ⟨S4000x1, .f32⟩
  | .local _ .vmem, ⟨4, _⟩ => ⟨S4000x1, .f32⟩
  | .local _ .vmem, ⟨5, _⟩ => ⟨S4000x64, .f32⟩
  | .local _ .vmem, ⟨6, _⟩ => ⟨S4000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S64x2, .f32⟩
  | .local _ .vmem, ⟨13, _⟩ => ⟨S10000x2, .f32⟩
  | .local _ .vmem, ⟨14, _⟩ => ⟨S10000x2, .f32⟩
  | .local _ .vmem, ⟨15, _⟩ => ⟨S5000x2, .f32⟩
  | .local _ .vmem, ⟨16, _⟩ => ⟨S5000x2, .f32⟩
  | .local _ .vmem, ⟨17, _⟩ => ⟨S5000x1, .f32⟩
  | .local _ .vmem, ⟨18, _⟩ => ⟨S5000x1, .f32⟩
  | .local _ .vmem, ⟨19, _⟩ => ⟨S1x2, .f32⟩
  | .local _ .vmem, ⟨20, _⟩ => ⟨S5000x2, .f32⟩
  | .local _ .vmem, ⟨21, _⟩ => ⟨S5000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x2_S64x2_0_0 : ∀ a, (![0, 0] : Fin 2 → Nat) a + S64x2.size a ≤ S64x2.size a
  h_S64x2 : 0 < S64x2.numel
  broadcasts_S10000x1_S10000x2 : S10000x1.Broadcasts S10000x2
  inb_S10000x2_S10000x2_0_0 : ∀ a, (![0, 0] : Fin 2 → Nat) a + S10000x2.size a ≤ S10000x2.size a
  h_S10000x2 : 0 < S10000x2.numel
  bcast_S_S100000x2 : S_.BroadcastsInDim S100000x2 (![] : Fin 0 → Fin S100000x2.rank)
  shapeCasts_S2_S1x2 : S2.ShapeCasts S1x2
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x2 : S5000x1.Broadcasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  scatter_S100000_S1700000x1_S1700000_n_0_0_1_wf : ScatterDims.WF S100000 S1700000x1 S1700000 [] [0] [0] 1
  dot_S4000x512_S512x64_S4000x64_1_0_0_1_n_n_wf : DotDims.WF S4000x512 S512x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x2_S10000x2_1_0_0_1_n_n_wf : DotDims.WF S10000x64 S64x2 S10000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x2.size a ≤ S64x2.size a
  hwx1_3 : ∀ i : grid1.Coords, EltTy.bits .f32 = 32 ∨ (Rect.block (s := S64x2) S64x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x2.size a ≤ S100000x2.size a
  hwx1_4 : ∀ i : grid1.Coords, EltTy.bits .f32 = 32 ∨ (Rect.block (s := S100000x2) S10000x2.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x2.size a ≤ S100000x2.size a
  hwx2_0 : ∀ i : grid2.Coords, EltTy.bits .f32 = 32 ∨ (Rect.block (s := S100000x2) S5000x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x2.size a ≤ S100000x2.size a
  hwx2_3 : ∀ i : grid2.Coords, EltTy.bits .f32 = 32 ∨ (Rect.block (s := S100000x2) S5000x2.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x512_S512x64_S4000x64_1_0_0_1_n_n : DotDims S4000x512 S512x64 S4000x64 where
  lhsContracting := [1]
  rhsContracting := [0]
  lhsNonContracting := [0]
  rhsNonContracting := [1]
  lhsBatch := []
  rhsBatch := []
  wf := dot_S4000x512_S512x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S10000x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x2 : Shape := ⟨2, ![100000, 2]⟩
abbrev S1700000x2 : Shape := ⟨2, ![1700000, 2]⟩
abbrev S1x2 : Shape := ⟨2, ![1, 2]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x512, .f32⟩
  | 1 => ⟨S2x1600000, .i32⟩
  | 2 => ⟨S512x64, .f32⟩
  | 3 => ⟨S64, .f32⟩
  | 4 => ⟨S64x2, .f32⟩
  | 5 => ⟨S2, .f32⟩
  | 6 => ⟨S1x1600000, .i32⟩
  | 7 => ⟨S1600000, .i32⟩
  | 8 => ⟨S1x1600000, .i32⟩
  | 9 => ⟨S1600000, .i32⟩
  | 10 => ⟨S100000x64, .f32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x2, .f32⟩
  | 70 => ⟨S100000, .i32⟩
  | 71 => ⟨S1700000, .i32⟩
  | 72 => ⟨S1700000, .i32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x2, .f32⟩
  | 115 => ⟨S1700000x1, .f32⟩
  | 116 => ⟨S1700000x2, .f32⟩
  | 117 => ⟨S1700000x2, .f32⟩
  | 118 => ⟨S_, .f32⟩
  | 119 => ⟨S100000x2, .f32⟩
  | 120 => ⟨S1700000x1, .i32⟩
  | 121 => ⟨S100000x2, .f32⟩
  | 122 => ⟨S1x2, .f32⟩
  | 123 => ⟨S100000x2, .f32⟩
  | 124 => ⟨S100000x2, .f32⟩
  | 125 => ⟨S_, .f32⟩
  | 126 => ⟨S100000, .f32⟩
  | 127 => ⟨S_, .f32⟩
  | _ => ⟨S100000x512, .f32⟩

abbrev hbmTy0_1 (i : Nat) : BufTy := match i % 128 with
  | 0 => ⟨S100000, .f32⟩
  | 1 => ⟨S100000, .f32⟩
  | 2 => ⟨S100000x1, .f32⟩
  | 3 => ⟨S100000x2, .f32⟩
  | 4 => ⟨S100000x2, .f32⟩
  | 5 => ⟨S100000x2, .f32⟩
  | 6 => ⟨S_, .f32⟩
  | 7 => ⟨S100000, .f32⟩
  | 8 => ⟨S100000x1, .f32⟩
  | 9 => ⟨S100000x1, .f32⟩
  | 10 => ⟨S100000x2, .f32⟩
  | 11 => ⟨S100000x2, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  dot_S100000x512_S512x64_S100000x64_1_0_0_1_n_n_wf : DotDims.WF S100000x512 S512x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x2_S100000x2_1_0_0_1_n_n_wf : DotDims.WF S100000x64 S64x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

class Facts : Prop extends Facts₀ where

variable [Facts]
-- ==== Proof.KernelRun.lean ====
/-
  The idealized kernel's run with its result named. The program is three dense row-wise stages (each a grid of row
  blocks) among host operations; its frame is known, and the same launch also gives what the result buffer holds at
  the end: the contents the last stage's write-backs leave, as the chain of boundary contents names them.
-/
import proofs.«132974_j3470333575753_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the argument arrays end as launched. -/
theorem run_value : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«132974_j3470333575753_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«132974_j3470333575753_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«132974_j3470333575753_2_alg».proof.Proof.LibBlockReads
import proofs.«132974_j3470333575753_2_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibDenseLayers.lean ====
/-
  Dense layers on the extended reals, as functions of whole arrays.

  A layer takes an r×k array X, a k×n array W and a vector b of n entries to the r×n array whose entry (p, q) is the
  sum over c of X(p, c) · W(c, q), plus b(q) — `affine` — or the maximum of that and zero — `dense`. An entry of a
  layer's result depends on one row of X, one column of W and one entry of b, so a layer applied to some rows of X
  (and to some columns of W with the matching entries of b) gives those rows (and columns) of the layer applied to
  the whole arrays: `dense_rows`, `affine_rows`, `affine_block`, with the row and column maps as variables. The two
  spellings of the bias are read once — a kernel body's (the vector re-shaped to a 1×n row, broadcast down the rows,
  added: `body_bias`, and with the maximum with a splat of the zero word: `body_bias_max`) and a host program's (the
  vector broadcast into a 1×n row and that into the r×n array, added: `host_bias`; with the maximum it is
  `Cert.Lib.BiasRelu.host_eq`) — and `max_biasAdd` takes the maximum of an already-read bias with the zero splat
  (the form a rewriting pass meets, since it reads the inner sum first). Sums and maxima on the extended reals need no
  finiteness here: nothing is distributed or cancelled. Nothing here mentions a program.
-/
import Idealize.ShloMosaic.PureOps.Ideal.Laws
import Idealize.ShloMosaic.Lib.ValueIdx
import Idealize.ShloMosaic.Lib.Pipeline.Value
import proofs.«132974_j3470333575753_2_alg».proof.Proof.LibMatProd
import proofs.«132974_j3470333575753_2_alg».proof.Proof.LibBiasRelu
import proofs.«132974_j3470333575753_2_alg».proof.Proof.LibRowVector
import proofs.«132974_j3470333575753_2_alg».proof.Proof.LibBlockReads

open scoped BigOperators

noncomputable section

namespace Cert.Layers

open Idealize.ShloMosaic Idealize.ShloMosaic.ValueIdx Cert.Lib.MatProd Cert.Lib.BiasRelu Cert.Lib.RowVector

variable {r r' k n n' : Nat}

/-- Entry (p, q) is X(p, q) + b(0, q). -/
def biasAdd (X : (⟨2, ![r, n]⟩ : Shape).Idx → EReal) (b : (⟨2, ![1, n]⟩ : Shape).Idx → EReal) :
    (⟨2, ![r, n]⟩ : Shape).Idx → EReal :=
  fun i => X i + b (ix2 (0 : Fin 1) (⟨(i 1).val, idx2_lt1 i⟩ : Fin n))

theorem biasAdd_apply (X : (⟨2, ![r, n]⟩ : Shape).Idx → EReal) (b : (⟨2, ![1, n]⟩ : Shape).Idx → EReal)
    (p : Fin r) (q : Fin n) : biasAdd X b (ix2 p q) = X (ix2 p q) + b (ix2 0 q) := rfl

/-- A layer with the maximum: entry (p, q) is max (∑ c, X(p, c) · W(c, q) + b(q)) 0. -/
def dense (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasRelu (matProd X W) (asRow b)

/-- A layer without it: entry (p, q) is ∑ c, X(p, c) · W(c, q) + b(q). -/
def affine (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasAdd (matProd X W) (asRow b)

/-- If row p of X' is row ρ p of X, row p of `dense X' W b` is row ρ p of `dense X W b`. -/
theorem dense_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    dense X' W b (ix2 p q) = dense X W b (ix2 (ρ p) q) :=
  biasRelu_rows _ _ _ p (ρ p) q (matProd_block X X' W W p q (ρ p) q (h p) fun _ => rfl)

/-- The same for a layer without the maximum, a block of columns of W and the matching entries of b taken as well:
    if also column q of W' is column γ q of W and entry q of b' is entry γ q of b, entry (p, q) of
    `affine X' W' b'` is entry (ρ p, γ q) of `affine X W b`. -/
theorem affine_block (X : (⟨2, ![r, k]⟩ : Shape).Idx → EReal) (X' : (⟨2, ![r', k]⟩ : Shape).Idx → EReal)
    (W : (⟨2, ![k, n]⟩ : Shape).Idx → EReal) (W' : (⟨2, ![k, n']⟩ : Shape).Idx → EReal)
    (b : (⟨1, ![n]⟩ : Shape).Idx → EReal) (b' : (⟨1, ![n']⟩ : Shape).Idx → EReal)
    (ρ : Fin r' → Fin r) (γ : Fin n' → Fin n)
    (hX : ∀ (p : Fin r') (c : Fin k), X' (ix2 p c) = X (ix2 (ρ p) c))
    (hW : ∀ (c : Fin k) (q : Fin n'), W' (ix2 c q) = W (ix2 c (γ q)))
    (hb : ∀ q : Fin n', b' (ix1 q) = b (ix1 (γ q))) (p : Fin r') (q : Fin n') :
    affine X' W' b' (ix2 p q) = affine X W b (ix2 (ρ p) (γ q)) := by
  unfold affine
  rw [biasAdd_apply, biasAdd_apply, asRow_apply, asRow_apply, hb q,
    matProd_block X X' W W' p q (ρ p) (γ q) (hX p) fun c => hW c q]

theorem affine_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    affine X' W b (ix2 p q) = affine X W b (ix2 (ρ p) q) :=
  affine_block X X' W W b b ρ id h (fun _ _ => rfl) (fun _ => rfl) p q

/-! ## The two spellings of a layer's bias and maximum -/

/-- The kernel body's bias: the vector re-shaped to a 1×n row and broadcast down the rows, then added. -/
theorem body_bias (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    addf M (broadcastTo ⟨2, ![r, n]⟩ (shapeCast ⟨2, ![1, n]⟩ v h) hb) = biasAdd M (asRow v) := by
  funext i
  obtain ⟨p, q, rfl⟩ : ∃ (p : Fin r) (q : Fin n), i = ix2 p q := ⟨i 0, i 1, eq_ix2 i⟩
  rw [addf_apply, Cert.Lib.BlockReads.broadcast_row_apply, shapeCast_eq_asRow]
  rfl

/-- The kernel body's bias and maximum with a splat of the zero word. -/
theorem body_bias_max (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    maximumf (addf M (broadcastTo ⟨2, ![r, n]⟩ (shapeCast ⟨2, ![1, n]⟩ v h) hb))
      (broadcast ⟨2, ![r, n]⟩ (Scalar.ofBits (F := Ideal) .f32 0x00000000#32)) = biasRelu M (asRow v) := by
  funext i
  obtain ⟨p, q, rfl⟩ : ∃ (p : Fin r) (q : Fin n), i = ix2 p q := ⟨i 0, i 1, eq_ix2 i⟩
  rw [maximumf_apply, addf_apply, Cert.Lib.BlockReads.broadcast_row_apply, shapeCast_eq_asRow]
  rfl

/-- The reference's bias: the vector broadcast into a 1×n row and that into the r×n array, then added. -/
theorem host_bias (M : FVec Ideal ⟨2, ![r, n]⟩ .f32) (v : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf M (broadcastInDim ⟨2, ![r, n]⟩ ![0, 1] h2 (broadcastInDim ⟨2, ![1, n]⟩ ![1] h1 v)) = biasAdd M (asRow v) := by
  funext i
  obtain ⟨p, q, rfl⟩ : ∃ (p : Fin r) (q : Fin n), i = ix2 p q := ⟨i 0, i 1, eq_ix2 i⟩
  rw [addf_apply, bcastInDim_rows_apply, bcastInDim_eq_asRow]
  rfl

/-- The maximum of a biased matrix with a splat of the zero word is the bias and maximum in one. -/
theorem max_biasAdd (M : (⟨2, ![r, n]⟩ : Shape).Idx → EReal) (b : (⟨2, ![1, n]⟩ : Shape).Idx → EReal) :
    maximumf (F := Ideal) (s := ⟨2, ![r, n]⟩) (φ := .f32) (biasAdd M b)
      (broadcast ⟨2, ![r, n]⟩ (FloatOps.ofBits (F := Ideal) .f32 0x00000000#32)) = biasRelu M b := by
  funext i
  rw [maximumf_apply]
  rfl

end Cert.Layers

end
-- ==== Proof.LibIdealSums.lean ====
/-
  Sums and quotients of extended reals, as the ideal reading of a float program meets them: the coercion from the
  reals through finite sums, a product with a reciprocal against a quotient, a sum over a zero-padded index range,
  a sum regrouped or split, and the logistic function written out. Nothing here mentions a program.
-/
import Mathlib.Algebra.BigOperators.Fin
import Mathlib.Data.EReal.Inv
import Idealize.ShloMosaic.PureOps.Ideal
import Idealize.ShloMosaic.PureOps.Ideal.Laws
import Idealize.ShloMosaic.Lib.ValueIdx

open scoped BigOperators

namespace Cert.Lib.IdealSums

open Idealize.ShloMosaic

/-! ## The coercion of the reals through finite sums and products -/

/-- The extended real of a finite sum of reals is the sum of their extended reals: the coercion is additive,
    by induction on the index set. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum_univ {ι : Type*} [Fintype ι] (f : ι → ℝ) :
    ((∑ i, f i : ℝ) : EReal) = ∑ i, (f i : EReal) :=
  coe_sum Finset.univ f

/-- The extended real of a finite sum of products of reals is the sum of the products of their extended reals:
    the coercion is additive and multiplicative. -/
theorem coe_sum_mul {ι : Type*} (s : Finset ι) (f g : ι → ℝ) :
    ((∑ i ∈ s, f i * g i : ℝ) : EReal) = ∑ i ∈ s, (f i : EReal) * (g i : EReal) := by
  rw [coe_sum]
  exact Finset.sum_congr rfl fun i _ => EReal.coe_mul _ _

/-- A real times a finite sum of reals, in the extended reals: the product distributes before or after the coercion. -/
theorem coe_mul_sum {ι : Type*} (s : Finset ι) (c : ℝ) (f : ι → ℝ) :
    (c : EReal) * ∑ i ∈ s, (f i : EReal) = ∑ i ∈ s, (c : EReal) * (f i : EReal) := by
  rw [← coe_sum, ← EReal.coe_mul, Finset.mul_sum, coe_sum]
  exact Finset.sum_congr rfl fun i _ => EReal.coe_mul _ _

/-- A finite sum of reals is neither infinity in the extended reals. -/
theorem sum_coe_ne_top {ι : Type*} (s : Finset ι) (f : ι → ℝ) : ∑ i ∈ s, (f i : EReal) ≠ ⊤ := by
  rw [← coe_sum]; exact EReal.coe_ne_top _
theorem sum_coe_ne_bot {ι : Type*} (s : Finset ι) (f : ι → ℝ) : ∑ i ∈ s, (f i : EReal) ≠ ⊥ := by
  rw [← coe_sum]; exact EReal.coe_ne_bot _

/-- A nonempty finite sum of positive reals is positive in the extended reals (a softmax denominator: a sum of
    exponentials), hence not zero. -/
theorem sum_coe_pos {ι : Type*} (s : Finset ι) (hs : s.Nonempty) (f : ι → ℝ) (hf : ∀ i ∈ s, 0 < f i) :
    (0 : EReal) < ∑ i ∈ s, (f i : EReal) := by
  rw [← coe_sum]
  exact_mod_cast Finset.sum_pos hf hs
theorem sum_coe_ne_zero {ι : Type*} (s : Finset ι) (hs : s.Nonempty) (f : ι → ℝ) (hf : ∀ i ∈ s, 0 < f i) :
    ∑ i ∈ s, (f i : EReal) ≠ 0 :=
  (sum_coe_pos s hs f hf).ne'

/-! ## A product with the reciprocal against the quotient -/

/-- Multiplying by the reciprocal is dividing, whenever the divisor or the dividend is not zero. Off zero the
    quotient is the product with the inverse and `1 · s⁻¹ = s⁻¹`; by zero the reciprocal is `+∞` and `p · +∞` is the
    infinity of `p`'s sign, which is the quotient's value there. (At `p = s = 0` the two differ: `0 · +∞ = 0` but
    `0 / 0` is `-∞`.) -/
theorem mul_div_one {p s : EReal} (h : s ≠ 0 ∨ p ≠ 0) : p * Ideal.div 1 s = Ideal.div p s := by
  by_cases hs : s = 0
  · subst hs
    have hp : p ≠ 0 := h.resolve_left fun h0 => h0 rfl
    unfold Ideal.div
    rw [if_pos rfl, if_pos rfl, if_pos (show (0 : EReal) < 1 from zero_lt_one)]
    by_cases h0 : 0 < p
    · rw [if_pos h0, EReal.mul_top_of_pos h0]
    · rw [if_neg h0, EReal.mul_top_of_neg (lt_of_le_of_ne (not_lt.mp h0) hp)]
  · unfold Ideal.div
    rw [if_neg hs, if_neg hs, one_mul]

/-- The case a normalisation uses: the divisor is not zero. -/
theorem mul_div_one_of_ne_zero (p : EReal) {s : EReal} (hs : s ≠ 0) : p * Ideal.div 1 s = Ideal.div p s :=
  mul_div_one (Or.inl hs)

/-- The same in the float operations' spelling at the ideal values: a kernel's product with a reciprocal is the
    host's quotient. -/
theorem mulf_divf_one {φ : FTy} (p s : Ideal φ) (hs : s ≠ 0) :
    FloatOps.mulf p (FloatOps.divf (1 : Ideal φ) s) = FloatOps.hostDivf p s :=
  mul_div_one_of_ne_zero p hs
theorem mulf_divf_one_f32 (p s : Ideal .f32) (hs : s ≠ 0) :
    FloatOps.mulf p (FloatOps.divf (1 : Ideal .f32) s) = FloatOps.hostDivf p s :=
  mulf_divf_one p s hs
/-- With the reciprocal taken by the kernel's reciprocal operation. -/
theorem mulf_reciprocal {φ : FTy} (approx : Bool) (p s : Ideal φ) (hs : s ≠ 0) :
    FloatOps.mulf p (FloatOps.reciprocal approx s) = FloatOps.hostDivf p s :=
  mul_div_one_of_ne_zero p hs

/-! ## Sums over a zero-padded range -/

/-- A sum over `N` indices of a function that vanishes from `n` on is the sum over the first `n`: the tail adds zeros. -/
theorem sum_fin_pad {M : Type*} [AddCommMonoid M] {n N : ℕ} (hnN : n ≤ N) (f : Fin N → M)
    (h : ∀ k : Fin N, n ≤ k.val → f k = 0) :
    ∑ k : Fin N, f k = ∑ k : Fin n, f (Fin.castLE hnN k) := by
  obtain ⟨m, rfl⟩ := Nat.exists_eq_add_of_le hnN
  rw [Fin.sum_univ_add, Fintype.sum_eq_zero _ (fun j : Fin m => h (Fin.natAdd n j) (Nat.le_add_right n j.val)), add_zero]
  rfl

/-- A 128-wide sum whose last 28 terms are zero is the 100-wide sum (a table padded with zero columns adds nothing). -/
theorem sum_fin128_pad {M : Type*} [AddCommMonoid M] (f : Fin 128 → M) (h : ∀ k : Fin 128, 100 ≤ k.val → f k = 0) :
    ∑ k : Fin 128, f k = ∑ k : Fin 100, f (Fin.castLE (by decide) k) :=
  sum_fin_pad (by decide) f h

/-! ## Regrouping and splitting -/

/-- Inside a sum a triple product may be regrouped: the multiplication of extended reals is commutative and
    associative with no finiteness condition. -/
theorem sum_mul_right_comm {ι : Type*} (s : Finset ι) (h a g : ι → EReal) :
    ∑ d ∈ s, (h d * a d) * g d = ∑ d ∈ s, (h d * g d) * a d :=
  Finset.sum_congr rfl fun d _ => mul_right_comm (h d) (a d) (g d)
theorem sum_univ_mul_right_comm {ι : Type*} [Fintype ι] (h a g : ι → EReal) :
    ∑ d, (h d * a d) * g d = ∑ d, (h d * g d) * a d :=
  sum_mul_right_comm Finset.univ h a g

/-- A sum over `m + n` indices is the sum over the first `m` plus the sum over the last `n`. -/
theorem sum_fin_split {M : Type*} [AddCommMonoid M] {m n N : ℕ} (hN : N = m + n) (f : Fin N → M) :
    ∑ k : Fin N, f k
      = ∑ k : Fin m, f ⟨k.val, by omega⟩ + ∑ k : Fin n, f ⟨m + k.val, by omega⟩ := by
  subst hN
  exact Fin.sum_univ_add f

/-- A 200-wide sum is the sum of its two 100-wide halves (two 100-wide inputs side by side against one 200-wide weight). -/
theorem sum_fin200_split {M : Type*} [AddCommMonoid M] (f : Fin 200 → M) :
    ∑ k : Fin 200, f k = ∑ k : Fin 100, f ⟨k.val, by omega⟩ + ∑ k : Fin 100, f ⟨100 + k.val, by omega⟩ :=
  sum_fin_split (m := 100) (n := 100) rfl f

/-! ## The logistic function written out -/

/-- The logistic function is `1 / (1 + e^(-x))`, by definition, at every extended real (`-∞ ↦ 0`, `+∞ ↦ 1`). -/
theorem logistic_eq (x : EReal) : Ideal.logistic x = Ideal.div 1 (1 + Ideal.exp (-x)) := rfl

/-- At the ideal values the one-operation logistic is the host's expansion of it: negate, exponential, add one, divide. -/
theorem logistic_eq_host {φ : FTy} (x : Ideal φ) :
    FloatOps.logistic x
      = FloatOps.hostDivf (1 : Ideal φ) (FloatOps.addf 1 (FloatOps.hostUnary .exp (FloatOps.hostNegf x))) := rfl
theorem logistic_eq_host_f32 (x : Ideal .f32) :
    FloatOps.logistic x
      = FloatOps.hostDivf (1 : Ideal .f32) (FloatOps.addf 1 (FloatOps.hostUnary .exp (FloatOps.hostNegf x))) := rfl
/-- and the same expression in a kernel's operations, and the host's one-operation logistic. -/
theorem logistic_eq_kernel {φ : FTy} (x : Ideal φ) :
    FloatOps.logistic x = FloatOps.divf (1 : Ideal φ) (FloatOps.addf 1 (FloatOps.exp (FloatOps.negf x))) := rfl
theorem logistic_eq_hostUnary {φ : FTy} (x : Ideal φ) : FloatOps.logistic x = FloatOps.hostUnary .logistic x := rfl

/-! ## Values that are reals

The input check makes every float argument finite, and the operations of a program keep finite values finite (sums,
products, exponentials, quotients by a nonzero value): such a value is the coercion of a real, and equations between
them are equations between reals. -/

/-- An extended real that is a real. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A real is neither infinity, and an extended real that is neither infinity is a real. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := (isReal_iff.1 h).1
theorem IsReal.ne_bot {x : EReal} (h : IsReal x) : x ≠ ⊥ := (isReal_iff.1 h).2

/-- Sums, differences, negations and products of reals are reals. -/
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem IsReal.sum {ι : Type*} (s : Finset ι) {f : ι → EReal} (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The exponential, the hyperbolic tangent and the logistic function of a real are reals. -/
theorem IsReal.exp {x : EReal} (hx : IsReal x) : IsReal (Ideal.exp x) := by
  obtain ⟨a, rfl⟩ := hx; exact ⟨Real.exp a, rfl⟩
theorem IsReal.tanh {x : EReal} (hx : IsReal x) : IsReal (Ideal.tanh x) := by
  obtain ⟨a, rfl⟩ := hx; exact ⟨Real.tanh a, rfl⟩
theorem IsReal.logistic {x : EReal} (hx : IsReal x) : IsReal (Ideal.logistic x) := by
  obtain ⟨a, rfl⟩ := hx; exact ⟨(1 + Real.exp (-a))⁻¹, Ideal.logistic_coe a⟩

/-- The exponential of a real is a positive real; the exponential of any extended real is not negative. -/
theorem exp_coe_pos (r : ℝ) : (0 : EReal) < Ideal.exp (r : EReal) := by
  rw [Ideal.exp_coe]; exact_mod_cast Real.exp_pos r
theorem exp_nonneg (x : EReal) : 0 ≤ Ideal.exp x := by
  induction x using EReal.rec with
  | bot => rw [Ideal.exp_bot]
  | coe r => exact (exp_coe_pos r).le
  | top => rw [Ideal.exp_top]; exact le_top

/-- The quotient of two reals with a nonzero divisor is their real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  exact ⟨a / b, div_coe_coe a (by exact_mod_cast h0)⟩

/-- The bit pattern of `+∞` in the 32-bit format denotes `+∞`. -/
theorem ofBits_inf_f32 : Ideal.ofBits .f32 0x7F800000#32 = ⊤ := by simp [Ideal.ofBits, Ideal.ieee]

/-- An extended real whose absolute value is below `+∞` is a real: it is not `+∞`, and it is not `-∞` since then
    its negation would be. -/
theorem isReal_of_abs_lt_top {x : EReal} (h : max x (-x) < ⊤) : IsReal x := by
  refine isReal_iff.2 ⟨fun e => ?_, fun e => ?_⟩
  · subst e; exact absurd h (by simp)
  · subst e; exact absurd h (by simp)

/-- The input check's element fact, `|x| < +∞` as the float comparison computes it, says that `x` is a real. -/
theorem isReal_of_cmpf_abs (x : Ideal .f32)
    (h : FloatOps.cmpf .olt (FloatOps.hostAbsf x) (FloatOps.ofBits (F := Ideal) .f32 0x7F800000#32) = 1#1) : IsReal x := by
  have h' : Ideal.cmp .olt (max x (-x)) (Ideal.ofBits .f32 0x7F800000#32) = 1#1 := h
  rw [ofBits_inf_f32] at h'
  unfold Ideal.cmp at h'
  by_cases hlt : max x (-x) < ⊤
  · exact isReal_of_abs_lt_top hlt
  · simp [hlt] at h'

/-! ## The softmax aggregation, normalised before or after the sum -/

/-- For real weights `e k`, real values `v k` and a nonzero real total `S`: normalising each weight and then
    summing the weighted values is summing them and then normalising (a quotient by a real distributes over a finite
    sum of reals, which it would not over infinities). -/
theorem sum_div_mul_coe {ι : Type*} (s : Finset ι) (e v : ι → ℝ) {S : ℝ} (hS : S ≠ 0) :
    ∑ k ∈ s, Ideal.div (e k : EReal) (S : EReal) * (v k : EReal)
      = Ideal.div (∑ k ∈ s, (e k : EReal) * (v k : EReal)) (S : EReal) := by
  rw [← coe_sum_mul, div_coe_coe _ hS, Finset.sum_div, coe_sum]
  refine Finset.sum_congr rfl fun k _ => ?_
  rw [div_coe_coe _ hS, ← EReal.coe_mul, div_mul_eq_mul_div]

/-- The same with the kernel's normalisation, a product with the reciprocal of the total. -/
theorem sum_mul_recip_coe {ι : Type*} (s : Finset ι) (e v : ι → ℝ) {S : ℝ} (hS : S ≠ 0) :
    (∑ k ∈ s, (e k : EReal) * (v k : EReal)) * Ideal.div 1 (S : EReal)
      = ∑ k ∈ s, Ideal.div (e k : EReal) (S : EReal) * (v k : EReal) := by
  rw [sum_div_mul_coe s e v hS]
  exact mul_div_one_of_ne_zero _ (by exact_mod_cast hS)

end Cert.Lib.IdealSums
-- ==== Proof.LibHostRows.lean ====
/-
  The reference's sum along each row of an a×b array, on the extended reals, read at an index: the initial value plus
  the sum over the row's entries. Nothing here mentions a program.
-/
import Idealize.ShloMosaic.PureOps.Ideal
import Idealize.ShloMosaic.PureOps.Ideal.Laws
import Idealize.ShloMosaic.Lib.ValueIdx
import proofs.«132974_j3470333575753_2_alg».proof.Proof.LibRowReductions

open scoped BigOperators

namespace Cert.Lib.HostRows

open Idealize.ShloMosaic Idealize.ShloMosaic.ValueIdx

variable {a b : Nat}

/-- The reference's one-operand reduce with an add body along each row of an a×b array is at p the initial value's
    element plus the sum over k of the array at (p, k). -/
theorem host_rowsum_apply {u : Shape} (x : FVec Ideal ⟨2, ![a, b]⟩ .f32) (init : u.Idx → Ideal .f32)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  simp only [Host.reduceAdd, Ideal.hostReduceAdd_def]
  rw [Ideal.hostReduceAdd_single h' h]
  exact congrArg (_ + ·) (Finset.sum_congr rfl fun k _ => congrArg x (Cert.Lib.RowReductions.lift_row h p k))

end Cert.Lib.HostRows
-- ==== Proof.LibLogSoftmaxRows.lean ====
/-
  The logarithm of the softmax along each row of an a×b array, on the extended reals.

  For a row p write top(p) for its largest entry joined with −∞, and lse(p) for the logarithm of the sum over k of
  e^(x(p, k) − top(p)). The reference groups the result as (x(p, q) − top(p)) − lse(p); a kernel body may group it as
  x(p, q) − (top(p) + lse(p)). The two agree whenever top(p) is a real — subtracting a sum is subtracting its terms
  one after the other as long as the first term is not an infinity — and top(p) is a real as soon as the row is not
  empty and holds reals. Both spellings are read here once at an index (the kernel body's: lane maximum with a −∞
  accumulator, re-shaped [a]→[a,1], broadcast, subtract, exponential, lane sum, logarithm, add, broadcast, subtract;
  the reference's: max-reduce from −∞ joined with a −∞ splat, two broadcasts, subtract, exponential, sum-reduce from
  zero, broadcast, logarithm, broadcast, subtract), and an entry of the result depends on one row only.
  Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«132974_j3470333575753_2_alg».proof.Proof.LibIdealSums
import proofs.«132974_j3470333575753_2_alg».proof.Proof.LibRowReductions
import proofs.«132974_j3470333575753_2_alg».proof.Proof.LibRowVector
import proofs.«132974_j3470333575753_2_alg».proof.Proof.LibHostRows

open scoped BigOperators

noncomputable section

namespace Cert.Lib.LogSoftmaxRows

open Idealize.ShloMosaic Idealize.ShloMosaic.ValueIdx Cert.Lib.IdealSums Cert.Lib.RowReductions

variable {a a' b : Nat}

/-- The largest entry of row p, joined with −∞. -/
def rowTop (x : (⟨2, ![a, b]⟩ : Shape).Idx → EReal) (p : Fin a) : EReal :=
  (Finset.univ : Finset (Fin b)).fold max ⊥ (fun k => x (ix2 p k))

/-- The logarithm of the sum of the exponentials of row p's entries, each less the row's top. -/
def rowLogSum (x : (⟨2, ![a, b]⟩ : Shape).Idx → EReal) (p : Fin a) : EReal :=
  Ideal.log (∑ k : Fin b, Ideal.exp (x (ix2 p k) - rowTop x p))

/-- The logarithm of the softmax along each row, grouped as the reference does: (x − top) − lse. -/
def logSoftmax (x : (⟨2, ![a, b]⟩ : Shape).Idx → EReal) : (⟨2, ![a, b]⟩ : Shape).Idx → EReal :=
  fun i => (x i - rowTop x ⟨(i 0).val, idx2_lt0 i⟩) - rowLogSum x ⟨(i 0).val, idx2_lt0 i⟩

/-- The same grouped as x − (top + lse). -/
def logSoftmaxK (x : (⟨2, ![a, b]⟩ : Shape).Idx → EReal) : (⟨2, ![a, b]⟩ : Shape).Idx → EReal :=
  fun i => x i - (rowTop x ⟨(i 0).val, idx2_lt0 i⟩ + rowLogSum x ⟨(i 0).val, idx2_lt0 i⟩)

theorem logSoftmax_apply (x : (⟨2, ![a, b]⟩ : Shape).Idx → EReal) (p : Fin a) (q : Fin b) :
    logSoftmax x (ix2 p q) = (x (ix2 p q) - rowTop x p) - rowLogSum x p := rfl

theorem logSoftmaxK_apply (x : (⟨2, ![a, b]⟩ : Shape).Idx → EReal) (p : Fin a) (q : Fin b) :
    logSoftmaxK x (ix2 p q) = x (ix2 p q) - (rowTop x p + rowLogSum x p) := rfl

/-! ## The two groupings agree over reals -/

/-- Subtracting a sum whose first term is a real is subtracting its terms one after the other. -/
theorem sub_add_of_isReal (x m l : EReal) (hm : IsReal m) : x - (m + l) = (x - m) - l := by
  obtain ⟨r, rfl⟩ := hm
  rw [sub_eq_add_neg, sub_eq_add_neg, sub_eq_add_neg,
    EReal.neg_add (Or.inl (EReal.coe_ne_bot r)) (Or.inl (EReal.coe_ne_top r)), sub_eq_add_neg, add_assoc]

/-- The top of a row of reals that is not empty is a real: it is below +∞ since every entry is, and above −∞ since
    some entry is. -/
theorem rowTop_isReal (x : (⟨2, ![a, b]⟩ : Shape).Idx → EReal) (p : Fin a) (hb : 0 < b)
    (h : ∀ k : Fin b, IsReal (x (ix2 p k))) : IsReal (rowTop x p) := by
  refine isReal_iff.2 ⟨ne_of_lt ?_, ne_of_gt ?_⟩
  · exact (Finset.fold_max_lt (c := (⊤ : EReal))).2 ⟨bot_lt_top, fun k _ => lt_top_iff_ne_top.2 (h k).ne_top⟩
  · exact (Finset.lt_fold_max (c := (⊥ : EReal))).2 (Or.inr ⟨⟨0, hb⟩, Finset.mem_univ _, bot_lt_iff_ne_bot.2 (h _).ne_bot⟩)

/-- Over an array of reals with rows that are not empty the two groupings are one function. -/
theorem logSoftmaxK_eq (x : (⟨2, ![a, b]⟩ : Shape).Idx → EReal) (hb : 0 < b) (h : ∀ i, IsReal (x i)) :
    logSoftmaxK x = logSoftmax x := by
  funext i
  obtain ⟨p, q, rfl⟩ : ∃ (p : Fin a) (q : Fin b), i = ix2 p q := ⟨i 0, i 1, eq_ix2 i⟩
  rw [logSoftmaxK_apply, logSoftmax_apply]
  exact sub_add_of_isReal _ _ _ (rowTop_isReal x p hb fun k => h _)

/-! ## An entry depends on one row -/

theorem rowTop_congr (x : (⟨2, ![a, b]⟩ : Shape).Idx → EReal) (x' : (⟨2, ![a', b]⟩ : Shape).Idx → EReal)
    (p' : Fin a') (p : Fin a) (h : ∀ k : Fin b, x' (ix2 p' k) = x (ix2 p k)) : rowTop x' p' = rowTop x p := by
  unfold rowTop
  exact congrArg (fun f => Finset.fold max ⊥ f (Finset.univ : Finset (Fin b))) (funext h)

theorem rowLogSum_congr (x : (⟨2, ![a, b]⟩ : Shape).Idx → EReal) (x' : (⟨2, ![a', b]⟩ : Shape).Idx → EReal)
    (p' : Fin a') (p : Fin a) (h : ∀ k : Fin b, x' (ix2 p' k) = x (ix2 p k)) : rowLogSum x' p' = rowLogSum x p := by
  unfold rowLogSum
  rw [rowTop_congr x x' p' p h]
  exact congrArg Ideal.log (Finset.sum_congr rfl fun k _ => by rw [h k])

/-- If row (y 0) of x' is row (i 0) of x and y, i have the same column, the result of x' at y is that of x at i. -/
theorem logSoftmaxK_rows (x : (⟨2, ![a, b]⟩ : Shape).Idx → EReal) (x' : (⟨2, ![a', b]⟩ : Shape).Idx → EReal)
    (y : (⟨2, ![a', b]⟩ : Shape).Idx) (i : (⟨2, ![a, b]⟩ : Shape).Idx)
    (h : ∀ k : Fin b, x' (ix2 (⟨(y 0).val, idx2_lt0 y⟩ : Fin a') k) = x (ix2 (⟨(i 0).val, idx2_lt0 i⟩ : Fin a) k))
    (hcol : (y 1).val = (i 1).val) : logSoftmaxK x' y = logSoftmaxK x i := by
  obtain ⟨p', q', rfl⟩ : ∃ (p' : Fin a') (q' : Fin b), y = ix2 p' q' := ⟨y 0, y 1, eq_ix2 y⟩
  obtain ⟨p, q, rfl⟩ : ∃ (p : Fin a) (q : Fin b), i = ix2 p q := ⟨i 0, i 1, eq_ix2 i⟩
  have hq : q' = q := Fin.ext hcol
  subst hq
  rw [logSoftmaxK_apply, logSoftmaxK_apply, rowTop_congr x x' p' p h, rowLogSum_congr x x' p' p h]
  exact congrArg (· - _) (h q')

/-! ## The kernel body's spelling -/

/-- Lane maximum into a −∞ accumulator, re-shaped to a column, broadcast and subtracted; exponential; lane sum into a
    zero accumulator, re-shaped to a column; logarithm; the two columns added, broadcast and subtracted from the
    block: `logSoftmaxK` of the block. -/
theorem body_eq (x : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec (FTy.bits .f32)) = FKind.maximumf.neutral .f32 hφ)
    (hadd : (0x00000000#32 : BitVec (FTy.bits .f32)) = FKind.add.neutral .f32 hφ) :
    subf x (broadcastTo ⟨2, ![a, b]⟩
      (addf (shapeCast ⟨2, ![a, 1]⟩ (multiReduction .maximumf [1] ⟨1, ![a]⟩ x 0xFF800000#32 hr hφ hmax) hc)
        (log (shapeCast ⟨2, ![a, 1]⟩ (multiReduction .add [1] ⟨1, ![a]⟩
          (exp (subf x (broadcastTo ⟨2, ![a, b]⟩
            (shapeCast ⟨2, ![a, 1]⟩ (multiReduction .maximumf [1] ⟨1, ![a]⟩ x 0xFF800000#32 hr hφ hmax) hc) hb)))
          0x00000000#32 hr hφ hadd) hc))) hb)
      = logSoftmaxK x := by
  have top : ∀ p : Fin a,
      shapeCast ⟨2, ![a, 1]⟩ (multiReduction .maximumf [1] ⟨1, ![a]⟩ x 0xFF800000#32 hr hφ hmax) hc (ix2 p 0) = rowTop x p := by
    intro p
    rw [shapeCast_col_apply, rowmax_apply]
    show Finset.fold max (Ideal.ofBits .f32 0xFF800000#32) _ _ = _
    rw [ofBits_neg_inf_f32]
    rfl
  funext i
  obtain ⟨p, q, rfl⟩ : ∃ (p : Fin a) (q : Fin b), i = ix2 p q := ⟨i 0, i 1, eq_ix2 i⟩
  rw [subf_apply, broadcast_col_apply, addf_apply, top, logSoftmaxK_apply]
  refine congrArg (fun z => x (ix2 p q) - (rowTop x p + z)) ?_
  show Ideal.log (shapeCast ⟨2, ![a, 1]⟩ _ hc (ix2 p 0)) = _
  rw [shapeCast_col_apply, rowsum_apply]
  refine congrArg Ideal.log (Finset.sum_congr rfl fun k _ => ?_)
  show Ideal.exp (x (ix2 p k) - broadcastTo ⟨2, ![a, b]⟩ _ hb (ix2 p k)) = _
  rw [broadcast_col_apply, top]

/-! ## The reference's spelling -/

/-- Max-reduce along each row from −∞, joined with a −∞ splat, broadcast [n]→[n,1]→[n,c] and subtracted; exponential;
    sum-reduce from zero, broadcast [n]→[n,1]; logarithm; broadcast to [n,c] and subtracted: `logSoftmax`. -/
theorem host_eq {n c : Nat} (L : FVec Ideal ⟨2, ![n, c]⟩ .f32)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, c]⟩ ![0, 1])
    (hr : (⟨2, ![n, c]⟩ : Shape).ReducesTo [1] ⟨1, ![n]⟩) (hu : 0 < (⟨0, ![]⟩ : Shape).numel) :
    subf (subf L (broadcastInDim ⟨2, ![n, c]⟩ ![0, 1] h2 (broadcastInDim ⟨2, ![n, 1]⟩ ![0] h1
        (maximumf (broadcastInDim ⟨1, ![n]⟩ ![] h0 (constant (F := Ideal) ⟨0, ![]⟩ .f32 0xFF800000#32))
          (Host.reduce FloatOps.maximumf L (constant (F := Ideal) ⟨0, ![]⟩ .f32 0xFF800000#32) hr hu)))))
      (broadcastInDim ⟨2, ![n, c]⟩ ![0, 1] h2 (Host.log (broadcastInDim ⟨2, ![n, 1]⟩ ![0] h1
        (Host.reduceAdd (Host.exp (subf L (broadcastInDim ⟨2, ![n, c]⟩ ![0, 1] h2 (broadcastInDim ⟨2, ![n, 1]⟩ ![0] h1
          (maximumf (broadcastInDim ⟨1, ![n]⟩ ![] h0 (constant (F := Ideal) ⟨0, ![]⟩ .f32 0xFF800000#32))
            (Host.reduce FloatOps.maximumf L (constant (F := Ideal) ⟨0, ![]⟩ .f32 0xFF800000#32) hr hu))))))
          (constant (F := Ideal) ⟨0, ![]⟩ .f32 0x00000000#32) hr hu))))
      = logSoftmax L := by
  have top : ∀ p : Fin n,
      maximumf (broadcastInDim ⟨1, ![n]⟩ ![] h0 (constant (F := Ideal) ⟨0, ![]⟩ .f32 0xFF800000#32))
        (Host.reduce FloatOps.maximumf L (constant (F := Ideal) ⟨0, ![]⟩ .f32 0xFF800000#32) hr hu) (ix1 p) = rowTop L p := by
    intro p
    rw [maximumf_apply, Cert.Lib.RowVector.bcastInDim_scalar_apply, host_rowmax_apply]
    show max (Ideal.ofBits .f32 0xFF800000#32) (Finset.fold max (Ideal.ofBits .f32 0xFF800000#32) _ _) = _
    rw [ofBits_neg_inf_f32, fold_max_bot]
    rfl
  funext i
  obtain ⟨p, q, rfl⟩ : ∃ (p : Fin n) (q : Fin c), i = ix2 p q := ⟨i 0, i 1, eq_ix2 i⟩
  rw [subf_apply, subf_apply, bcastInDim_cols_apply, bcastInDim_col_apply, top, bcastInDim_cols_apply, logSoftmax_apply]
  refine congrArg (fun z => (L (ix2 p q) - rowTop L p) - z) ?_
  show Ideal.log _ = _
  rw [bcastInDim_col_apply, Cert.Lib.HostRows.host_rowsum_apply]
  show Ideal.log (Ideal.ofBits .f32 0x00000000#32 + _) = _
  rw [Ideal.ofBits_zero_f32, zero_add]
  refine congrArg Ideal.log (Finset.sum_congr rfl fun k _ => ?_)
  show Ideal.exp (L (ix2 p k) - _) = _
  rw [bcastInDim_cols_apply, bcastInDim_col_apply, top]

end Cert.Lib.LogSoftmaxRows

end
-- ==== Proof.Spec.lean ====
/-
  A two-layer graph convolution with symmetric normalisation, on the extended reals, cut where the computation
  is cut into dense row-wise stages. Write c for the column of per-node scales (one entry per row). The three dense
  stages are
    layer1 X W c       : every row p of the product X·W, times c(p);
    layer2 A c b W     : row p of A times c(p), plus the bias row b, joined with zero, times W, times c(p) again;
    layer3 A c b       : row p of A times c(p), plus the bias row b, then the logarithm of the softmax along the row.
  Every stage computes row p of its result from row p of its row-wise operands alone.
-/
import Idealize.ShloMosaic.PureOps.Ideal
import Idealize.ShloMosaic.PureOps.Ideal.Laws
import Idealize.ShloMosaic.Lib.ValueIdx
import proofs.«132974_j3470333575753_2_alg».proof.Proof.LibMatProd
import proofs.«132974_j3470333575753_2_alg».proof.Proof.LibBiasRelu
import proofs.«132974_j3470333575753_2_alg».proof.Proof.LibDenseLayers
import proofs.«132974_j3470333575753_2_alg».proof.Proof.LibLogSoftmaxRows

open scoped BigOperators

noncomputable section

namespace Cert.Gcn

open Idealize.ShloMosaic Idealize.ShloMosaic.ValueIdx Cert.Lib.MatProd Cert.Lib.BiasRelu Cert.Layers
  Cert.Lib.LogSoftmaxRows

variable {n n' k d : Nat}

/-- Every entry of row p of T times the column's entry (p, 0). -/
def scaleCol (T : (⟨2, ![n, d]⟩ : Shape).Idx → EReal) (c : (⟨2, ![n, 1]⟩ : Shape).Idx → EReal) :
    (⟨2, ![n, d]⟩ : Shape).Idx → EReal :=
  fun i => T i * c (ix2 (⟨(i 0).val, idx2_lt0 i⟩ : Fin n) (0 : Fin 1))

theorem scaleCol_apply (T : (⟨2, ![n, d]⟩ : Shape).Idx → EReal) (c : (⟨2, ![n, 1]⟩ : Shape).Idx → EReal)
    (p : Fin n) (q : Fin d) : scaleCol T c (ix2 p q) = T (ix2 p q) * c (ix2 p 0) := rfl

/-- The first dense stage: the product X·W with row p scaled by c(p). -/
def layer1 (X : (⟨2, ![n, k]⟩ : Shape).Idx → EReal) (W : (⟨2, ![k, d]⟩ : Shape).Idx → EReal)
    (c : (⟨2, ![n, 1]⟩ : Shape).Idx → EReal) : (⟨2, ![n, d]⟩ : Shape).Idx → EReal :=
  scaleCol (matProd X W) c

/-- The second dense stage: A's rows scaled, the bias row added, joined with zero, times W, rows scaled again. -/
def layer2 (A : (⟨2, ![n, k]⟩ : Shape).Idx → EReal) (c : (⟨2, ![n, 1]⟩ : Shape).Idx → EReal)
    (b : (⟨2, ![1, k]⟩ : Shape).Idx → EReal) (W : (⟨2, ![k, d]⟩ : Shape).Idx → EReal) :
    (⟨2, ![n, d]⟩ : Shape).Idx → EReal :=
  scaleCol (matProd (biasRelu (scaleCol A c) b) W) c

/-- The last stage: A's rows scaled, the bias row added, the logarithm of the softmax along each row. -/
def layer3 (A : (⟨2, ![n, d]⟩ : Shape).Idx → EReal) (c : (⟨2, ![n, 1]⟩ : Shape).Idx → EReal)
    (b : (⟨2, ![1, d]⟩ : Shape).Idx → EReal) : (⟨2, ![n, d]⟩ : Shape).Idx → EReal :=
  logSoftmax (biasAdd (scaleCol A c) b)

end Cert.Gcn

end
-- ==== Proof.LibRowBlocks.lean ====
/-
  Blocks of rows of a matrix product. An entry of a product depends on one row of the left operand, so a block of
  consecutive rows of A, multiplied by B, is the same block of rows of the product of A with B. Stated here with the
  two indices as variables: the index y inside the block and the index i of the whole array it sits at.
  Nothing here mentions a program.
-/
import Idealize.ShloMosaic.Lib.ValueIdx
import proofs.«132974_j3470333575753_2_alg».proof.Proof.LibMatProd

open scoped BigOperators

noncomputable section

namespace Cert.Lib.RowBlocks

open Idealize.ShloMosaic Idealize.ShloMosaic.ValueIdx Cert.Lib.MatProd

/-- The zero offset of a rank-2 rectangle, as a constant function. -/
theorem zero_offset2 : (![0, 0] : Fin 2 → Nat) = fun _ => 0 := funext fun a => by fin_cases a <;> rfl

/-- If row (y 0) of A' is row (i 0) of A, and y and i have the same column, the product of A' with B at y is the
    product of A with B at i. -/
theorem matProd_rows {m m' k n : Nat} (A : (⟨2, ![m, k]⟩ : Shape).Idx → EReal) (A' : (⟨2, ![m', k]⟩ : Shape).Idx → EReal)
    (B : (⟨2, ![k, n]⟩ : Shape).Idx → EReal) (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hcol : (y 1).val = (i 1).val) :
    matProd A' B y = matProd A B i := by
  obtain ⟨p, q, rfl⟩ : ∃ (p : Fin m') (q : Fin n), y = ix2 p q := ⟨y 0, y 1, eq_ix2 y⟩
  obtain ⟨r, s, rfl⟩ : ∃ (r : Fin m) (s : Fin n), i = ix2 r s := ⟨i 0, i 1, eq_ix2 i⟩
  have hqs : q = s := Fin.ext hcol
  subst hqs
  exact matProd_block A A' B B p q r q hA (fun _ => rfl)

end Cert.Lib.RowBlocks

end
-- ==== Proof.LibInPlaceBodies.lean ====
/-
  Kernel bodies that re-shape a loaded block in place before using it, read once on the extended reals, and the
  dependence of a biased entry on one entry of the matrix, stated with whole indices.

  A product of two blocks narrowed to a shorter float format and accumulated into zeros is the matrix product of the
  blocks: narrowing a float is the identity on the extended reals. The same holds when the left block is first re-shaped
  to its own shape. A 1×n row re-shaped in place, broadcast down the rows of an r×n block that is itself re-shaped in
  place, and added, is the bias row added to every row. Entry i of a biased (or biased and clamped) matrix depends on
  entry i of the matrix and on the column of i only, so a block whose entry y is entry i of a larger matrix, in the same
  column, gives the larger matrix's biased entry. No finiteness is used: nothing is distributed or cancelled.
  Nothing here mentions a program.
-/
import Idealize.ShloMosaic.PureOps.Ideal.Laws
import Idealize.ShloMosaic.Lib.ValueIdx
import Idealize.ShloMosaic.Lib.Pipeline.Value
import proofs.«132974_j3470333575753_2_alg».proof.Proof.LibBlockReads
import proofs.«132974_j3470333575753_2_alg».proof.Proof.LibMatProd
import proofs.«132974_j3470333575753_2_alg».proof.Proof.LibBiasRelu
import proofs.«132974_j3470333575753_2_alg».proof.Proof.LibDenseLayers

open scoped BigOperators

noncomputable section

namespace Cert.Lib.InPlaceBodies

open Idealize.ShloMosaic Idealize.ShloMosaic.ValueIdx Cert.Lib.MatProd Cert.Lib.BiasRelu Cert.Layers

variable {r r' k n : Nat}

/-- Two blocks narrowed to a shorter float format, multiplied into a zero accumulator: the matrix product of the
    blocks themselves, since narrowing does nothing to an extended real. -/
theorem narrowed_product {ψ φ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (h : ψ.bits < φ.bits)
    (x0 : FVec Ideal ⟨2, ![r, k]⟩ φ) (x1 : FVec Ideal ⟨2, ![k, n]⟩ φ) :
    matmul d prec (truncf ψ x0 h) (truncf ψ x1 h) (constant ⟨2, ![r, n]⟩ .f32 0x00000000#32) = matProd x0 x1 :=
  matmul_zero_eq_matProd d hlc hrc hln hrn hlb hrb prec (truncf ψ x0 h) (truncf ψ x1 h)

/-- The same when the left block is first re-shaped to its own shape. -/
theorem narrowed_product_cast {ψ φ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (h : ψ.bits < φ.bits)
    (hc : (⟨2, ![r, k]⟩ : Shape).ShapeCasts ⟨2, ![r, k]⟩)
    (x0 : FVec Ideal ⟨2, ![r, k]⟩ φ) (x1 : FVec Ideal ⟨2, ![k, n]⟩ φ) :
    matmul d prec (truncf ψ (shapeCast ⟨2, ![r, k]⟩ x0 hc) h) (truncf ψ x1 h) (constant ⟨2, ![r, n]⟩ .f32 0x00000000#32)
      = matProd x0 x1 := by
  rw [shapeCast_self]
  exact narrowed_product d hlc hrc hln hrn hlb hrb prec h x0 x1

/-- A 1×n row re-shaped in place and broadcast down the rows of an r×n block, itself re-shaped in place, then added:
    the bias row added to every row. -/
theorem bias_in_place (x0 : FVec Ideal ⟨2, ![r, n]⟩ .f32) (x2 : FVec Ideal ⟨2, ![1, n]⟩ .f32)
    (h0 : (⟨2, ![r, n]⟩ : Shape).ShapeCasts ⟨2, ![r, n]⟩) (h2 : (⟨2, ![1, n]⟩ : Shape).ShapeCasts ⟨2, ![1, n]⟩)
    (hb : (⟨2, ![1, n]⟩ : Shape).Broadcasts ⟨2, ![r, n]⟩) :
    addf (shapeCast ⟨2, ![r, n]⟩ x0 h0) (broadcastTo ⟨2, ![r, n]⟩ (shapeCast ⟨2, ![1, n]⟩ x2 h2) hb) = biasAdd x0 x2 := by
  funext i
  obtain ⟨p, q, rfl⟩ : ∃ (p : Fin r) (q : Fin n), i = ix2 p q := ⟨i 0, i 1, eq_ix2 i⟩
  rw [addf_apply, shapeCast_self, shapeCast_self, Cert.Lib.BlockReads.broadcast_row_apply]
  rfl

/-- Entry y of a biased block is entry i of the biased matrix when entry y of the block is entry i of the matrix and
    the two indices are in the same column. -/
theorem biasAdd_at (X : (⟨2, ![r, n]⟩ : Shape).Idx → EReal) (X' : (⟨2, ![r', n]⟩ : Shape).Idx → EReal)
    (b : (⟨2, ![1, n]⟩ : Shape).Idx → EReal) (y : (⟨2, ![r', n]⟩ : Shape).Idx) (i : (⟨2, ![r, n]⟩ : Shape).Idx)
    (h : X' y = X i) (hcol : (y 1).val = (i 1).val) : biasAdd X' b y = biasAdd X b i := by
  have e : (⟨(y 1).val, idx2_lt1 y⟩ : Fin n) = ⟨(i 1).val, idx2_lt1 i⟩ := Fin.ext hcol
  show X' y + b (ix2 (0 : Fin 1) (⟨(y 1).val, idx2_lt1 y⟩ : Fin n)) = X i + b (ix2 (0 : Fin 1) (⟨(i 1).val, idx2_lt1 i⟩ : Fin n))
  rw [h, e]

/-- The same for a biased block clamped below at the zero word. -/
theorem biasRelu_at (X : (⟨2, ![r, n]⟩ : Shape).Idx → EReal) (X' : (⟨2, ![r', n]⟩ : Shape).Idx → EReal)
    (b : (⟨2, ![1, n]⟩ : Shape).Idx → EReal) (y : (⟨2, ![r', n]⟩ : Shape).Idx) (i : (⟨2, ![r, n]⟩ : Shape).Idx)
    (h : X' y = X i) (hcol : (y 1).val = (i 1).val) : biasRelu X' b y = biasRelu X b i := by
  have e : (⟨(y 1).val, idx2_lt1 y⟩ : Fin n) = ⟨(i 1).val, idx2_lt1 i⟩ := Fin.ext hcol
  show max (X' y + b (ix2 (0 : Fin 1) (⟨(y 1).val, idx2_lt1 y⟩ : Fin n))) (Ideal.ofBits .f32 0x00000000#32)
     = max (X i + b (ix2 (0 : Fin 1) (⟨(i 1).val, idx2_lt1 i⟩ : Fin n))) (Ideal.ofBits .f32 0x00000000#32)
  rw [h, e]

end Cert.Lib.InPlaceBodies

end
-- ==== Proof.Region0.lean ====
/-
  The first dense stage, block by block. The region walks 25 grid points; at point t it holds rows 4000·t … 4000·t + 3999
  of the feature matrix X (100000×512) and of the column of per-row scales c (100000×1), and the whole weight matrix
  W (512×64), and it writes rows 4000·t … 4000·t + 3999 of its 100000×64 result. What it writes is the product of the
  block of X with W, both narrowed to a shorter float format (the identity on the extended reals) and accumulated into
  zeros, each row then multiplied by that row's scale: `layer1` of the blocks. Row p of `layer1 X W c` depends on row p
  of X and on entry p of c alone, so what point t writes is rows 4000·t … of `layer1` of the whole arrays; the 25
  blocks of rows cover all 100000 rows (row r lies in block r / 4000), so the result array ends holding
  `layer1 X W c`.
-/
import proofs.«132974_j3470333575753_2_alg».proof.Proof.Gen.KernelIdeal.Frame
import proofs.«132974_j3470333575753_2_alg».proof.Proof.Spec
import proofs.«132974_j3470333575753_2_alg».proof.Proof.LibRowBlocks
import proofs.«132974_j3470333575753_2_alg».proof.Proof.LibInPlaceBodies
import proofs.«132974_j3470333575753_2_alg».proof.Proof.LibRowReductions
import Idealize.ShloMosaic.Lib.Pipeline.Value

-- membership in a rectangle of 100000 rows: the structural recursion goes once per coordinate of the long axis
set_option maxRecDepth 16384

noncomputable section

namespace Cert.KernelIdeal.Region0

open Cert.KernelIdeal Cert.KernelIdeal.Gen Cert.Gcn
open Idealize.ShloMosaic Idealize.ShloMosaic.TcCoe Idealize.SL.Sem Idealize.ShloMosaic.ValueIdx
open Idealize.ShloMosaic.Pipeline (Dat)
open Cert.Lib.MatProd Cert.Lib.RowBlocks Cert.Lib.InPlaceBodies Cert.Lib.RowReductions

/-! ## The body's arithmetic on one block -/

/-- On a 4000×512 block x0, the 512×64 weights x1 and a 4000×1 block of scales x2, the body computes `layer1 x0 x1 x2`:
    the narrowed product into zeros is the matrix product, and the column of scales, re-shaped in place and broadcast
    across the 64 columns, multiplies entry (p, q) by x2(p, 0). -/
theorem body_is_layer1 (x0 : FVec Ideal S4000x512 .f32) (x1 : FVec Ideal S512x64 .f32) (x2 : FVec Ideal S4000x1 .f32) :
    k0_pay1 (F := Ideal) x0 x1 x2 = layer1 (n := 4000) (k := 512) (d := 64) x0 x1 x2 := by
  funext i
  obtain ⟨p, q, rfl⟩ : ∃ (p : Fin 4000) (q : Fin 64), i = ix2 p q := ⟨i 0, i 1, eq_ix2 i⟩
  unfold k0_pay1
  show mulf (matmul dot_S4000x512_S512x64_S4000x64_1_0_0_1_n_n none (truncf .bf16 x0 bitsLt_bf16_f32)
        (truncf .bf16 x1 bitsLt_bf16_f32) (constant S4000x64 .f32 0x00000000#32))
      (broadcastTo S4000x64 (shapeCast S4000x1 x2 shapeCasts_S4000x1_S4000x1) broadcasts_S4000x1_S4000x64) (ix2 p q) = _
  rw [mulf_apply,
    narrowed_product (r := 4000) (k := 512) (n := 64) dot_S4000x512_S512x64_S4000x64_1_0_0_1_n_n rfl rfl rfl rfl rfl rfl
      none bitsLt_bf16_f32 x0 x1,
    broadcast_col_apply, shapeCast_self]
  rfl

/-! ## A row of the stage depends on that row of its operands -/

/-- If row (y 0) of X' is row (i 0) of X, entry (y 0) of the scales c' is entry (i 0) of c, the weights agree, and y and
    i are in the same column, then `layer1 X' W' c'` at y is `layer1 X W c` at i. -/
theorem layer1_rows {n n' k d : Nat} (X : (⟨2, ![n, k]⟩ : Shape).Idx → EReal) (X' : (⟨2, ![n', k]⟩ : Shape).Idx → EReal)
    (W W' : (⟨2, ![k, d]⟩ : Shape).Idx → EReal)
    (c : (⟨2, ![n, 1]⟩ : Shape).Idx → EReal) (c' : (⟨2, ![n', 1]⟩ : Shape).Idx → EReal)
    (y : (⟨2, ![n', d]⟩ : Shape).Idx) (i : (⟨2, ![n, d]⟩ : Shape).Idx)
    (hW : W' = W)
    (hX : ∀ j : Fin k, X' (ix2 (⟨(y 0).val, idx2_lt0 y⟩ : Fin n') j) = X (ix2 (⟨(i 0).val, idx2_lt0 i⟩ : Fin n) j))
    (hc : c' (ix2 (⟨(y 0).val, idx2_lt0 y⟩ : Fin n') (0 : Fin 1)) = c (ix2 (⟨(i 0).val, idx2_lt0 i⟩ : Fin n) (0 : Fin 1)))
    (hcol : (y 1).val = (i 1).val) :
    layer1 X' W' c' y = layer1 X W c i := by
  subst hW
  show matProd X' W' y * c' _ = matProd X W' i * c _
  rw [matProd_rows X X' W' y i hX hcol, hc]

/-! ## Where each block sits -/

/-- The block indices at point t: the features, the scales and the result are at row block t, column block 0; the
    weights are at block (0, 0) at every point. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

-- the buffer contents when the region is entered
variable (V : (c : Dev nD) → (b : Ref sig .tc) → Buf (Elt Ideal) ((c : Thread nD τ).loc b))

/-- Entry x of the block of features at point t is entry (4000·t + x 0, x 1) of the feature matrix. -/
theorem feature_block (c : Dev nD) (t : Fin cfg0.N) (x : S4000x512.Idx) (k : S100000x512.Idx)
    (hk0 : (k 0).val = 4000 * t.val + (x 0).val) (hk1 : (k 1).val = (x 1).val) :
    (iblk0 V c 0 t : Vec Ideal S4000x512 .f32) x = (V c main_arg0 : S100000x512.Idx → Elt Ideal .f32) k := by
  obtain ⟨e0, e1, -⟩ := block_indices t
  show V c main_arg0 (((cfg0.win 0).blk t).view.emb x) = V c main_arg0 k
  refine congrArg _ ?_
  funext a; apply Fin.ext
  match a with
  | ⟨0, _⟩ => show win0_0.index t (0 : Fin 2) * 4000 + 1 * (x 0).val = (k 0).val; rw [e0, hk0]; omega
  | ⟨1, _⟩ => show win0_0.index t (1 : Fin 2) * 512 + 1 * (x 1).val = (k 1).val; rw [e1, hk1]; omega

/-- The block of weights at every point is the whole weight matrix. -/
theorem weight_block (c : Dev nD) (t : Fin cfg0.N) :
    (iblk0 V c 1 t : Vec Ideal S512x64 .f32) = (V c main_arg2 : S512x64.Idx → Elt Ideal .f32) := by
  obtain ⟨-, -, e2, e3, -⟩ := block_indices t
  funext x
  show V c main_arg2 (((cfg0.win 1).blk t).view.emb x) = V c main_arg2 x
  refine congrArg _ ?_
  funext a; apply Fin.ext
  match a with
  | ⟨0, _⟩ => show win0_1.index t (0 : Fin 2) * 512 + 1 * (x 0).val = (x 0).val; rw [e2]; omega
  | ⟨1, _⟩ => show win0_1.index t (1 : Fin 2) * 64 + 1 * (x 1).val = (x 1).val; rw [e3]; omega

/-- Entry x of the block of scales at point t is entry (4000·t + x 0, x 1) of the column of scales. -/
theorem scale_block (c : Dev nD) (t : Fin cfg0.N) (x : S4000x1.Idx) (k : S100000x1.Idx)
    (hk0 : (k 0).val = 4000 * t.val + (x 0).val) (hk1 : (k 1).val = (x 1).val) :
    (iblk0 V c 2 t : Vec Ideal S4000x1 .f32) x = (V c main_v15 : S100000x1.Idx → Elt Ideal .f32) k := by
  obtain ⟨-, -, -, -, e4, e5, -⟩ := block_indices t
  show V c main_v15 (((cfg0.win 2).blk t).view.emb x) = V c main_v15 k
  refine congrArg _ ?_
  funext a; apply Fin.ext
  match a with
  | ⟨0, _⟩ => show win0_2.index t (0 : Fin 2) * 4000 + 1 * (x 0).val = (k 0).val; rw [e4, hk0]; omega
  | ⟨1, _⟩ => show win0_2.index t (1 : Fin 2) * 1 + 1 * (x 1).val = (k 1).val; rw [e5, hk1]; omega

/-- Entry y of the result block at point t sits at (4000·t + y 0, y 1) of the result array. -/
theorem result_block (t : Fin cfg0.N) (y : S4000x64.Idx) :
    ((((cfg0.win 3).blk t).view.emb y) 0 : Nat) = 4000 * t.val + (y 0).val
      ∧ ((((cfg0.win 3).blk t).view.emb y) 1 : Nat) = (y 1).val := by
  obtain ⟨-, -, -, -, -, -, e6, e7⟩ := block_indices t
  constructor
  · show win0_3.index t (0 : Fin 2) * 4000 + 1 * (y 0).val = _; rw [e6]; omega
  · show win0_3.index t (1 : Fin 2) * 64 + 1 * (y 1).val = _; rw [e7]; omega

/-! ## What each point writes, and the whole array -/

/-- What point t writes back is rows 4000·t … 4000·t + 3999 of `layer1` of the whole arrays: the body computes
    `layer1` of the blocks, and a row of it depends on that row of the features and of the scales alone. -/
theorem written_back (c : Dev nD) (t : Fin cfg0.N) :
    (dat0 (F := Ideal) V c).flushed 3 t
      = ((cfg0.win 3).blk t).view.read (Elt Ideal) (layer1 (V c main_arg0) (V c main_arg2) (V c main_v15)) := by
  show (cfg0.win 3).cut (grid0.coords t) ((dat0 V c).after 3 t) = _
  rw [after0_3]
  unfold out0_3
  rw [View.canon_unit_zero zero_offset2]
  simp only [View.ld_unit_zero (S := S4000x512) zero_offset2, View.ld_unit_zero (S := S512x64) zero_offset2,
    View.ld_unit_zero (S := S4000x1) zero_offset2]
  rw [body_is_layer1]
  funext y
  obtain ⟨h0, h1⟩ := result_block t y
  show layer1 (n := 4000) (k := 512) (d := 64) (iblk0 V c 0 t) (iblk0 V c 1 t) (iblk0 V c 2 t) y
    = layer1 (n := 100000) (k := 512) (d := 64) (V c main_arg0) (V c main_arg2) (V c main_v15)
        (((cfg0.win 3).blk t).view.emb y)
  refine layer1_rows _ _ _ _ _ _ y _ (weight_block V c t) (fun j => feature_block V c t _ _ ?_ rfl)
    (scale_block V c t _ _ ?_ rfl) h1.symm
  · exact h0
  · exact h0

/-- An index of the result array is in point t's block iff each coordinate is in the block's range on its axis. -/
theorem mem_block (t : Fin cfg0.N) (i : S100000x64.Idx) :
    i ∈ ((cfg0.win 3).blk t).view.set ↔ ∀ a : Fin 2, win0_3.index t a * S4000x64.size a ≤ (i a).val
      ∧ (i a).val < win0_3.index t a * S4000x64.size a + S4000x64.size a := by
  show i ∈ ((View.whole main_v16).slice (win0_3.rect t)).set ↔ _
  rw [View.set_slice_whole, Rect.mem_set_unit]
  exact Iff.rfl

/-- Every row is in some point's block: row r is in block r / 4000, and 100000 = 25 · 4000. -/
theorem rows_covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 4000 :=
    ⟨⟨(i 0).val / 4000, by show _ < grid0.N; rw [N_0]; omega⟩, rfl⟩
  obtain ⟨-, -, -, -, -, -, e6, e7⟩ := block_indices t
  refine ⟨t, flush0_3 t, ?_⟩
  rw [mem_block]
  intro a
  match a with
  | ⟨0, _⟩ =>
    show win0_3.index t (0 : Fin 2) * 4000 ≤ (i 0).val ∧ (i 0).val < win0_3.index t (0 : Fin 2) * 4000 + 4000
    rw [e6, ht]; omega
  | ⟨1, _⟩ =>
    show win0_3.index t (1 : Fin 2) * 64 ≤ (i 1).val ∧ (i 1).val < win0_3.index t (1 : Fin 2) * 64 + 64
    rw [e7]; omega

/-- After the region's 25 points the result array is `layer1` of the feature matrix, the weights and the column of
    scales as the region found them. -/
theorem final (c : Dev nD) :
    (dat0 (F := Ideal) V c).arrAt 3 cfg0.N = layer1 (V c main_arg0) (V c main_arg2) (V c main_v15) :=
  (dat0 V c).arrAt_eq_of_cover 3 (layer1 (V c main_arg0) (V c main_arg2) (V c main_v15))
    (fun t _ => written_back V c t) rows_covered

end Cert.KernelIdeal.Region0

end
-- ==== Proof.Region1.lean ====
/-
  The second dense stage, block by block. The region walks 10 grid points; at point t it holds rows
  10000·t … 10000·t + 9999 of the aggregated matrix A (100000×64) and of the column of per-row scales c (100000×1), and
  the whole bias row b (1×64) and the whole weight matrix W (64×2), and it writes rows 10000·t … 10000·t + 9999 of its
  100000×2 result. What it writes: each row of the block of A multiplied by that row's scale, the bias row added, the
  maximum with zero taken, the result and W narrowed to a shorter float format (the identity on the extended reals)
  and multiplied into zeros, and each row of the product multiplied by that row's scale again — `layer2` of the blocks
  (the body reads the block of scales twice; both reads are the same block). Row p of `layer2 A c b W` depends on row p
  of A and on entry p of c alone, so what point t writes is rows 10000·t … of `layer2` of the whole arrays; the 10
  blocks of rows cover all 100000 rows (row r lies in block r / 10000), so the result array ends holding
  `layer2 A c b W`.
-/
import proofs.«132974_j3470333575753_2_alg».proof.Proof.Gen.KernelIdeal.Frame
import proofs.«132974_j3470333575753_2_alg».proof.Proof.Spec
import proofs.«132974_j3470333575753_2_alg».proof.Proof.LibRowBlocks
import proofs.«132974_j3470333575753_2_alg».proof.Proof.LibInPlaceBodies
import proofs.«132974_j3470333575753_2_alg».proof.Proof.LibRowReductions
import proofs.«132974_j3470333575753_2_alg».proof.Proof.LibBlockReads
import proofs.«132974_j3470333575753_2_alg».proof.Proof.LibBiasRelu
import Idealize.ShloMosaic.Lib.Pipeline.Value

-- membership in a rectangle of 100000 rows: the structural recursion goes once per coordinate of the long axis
set_option maxRecDepth 16384

noncomputable section

namespace Cert.KernelIdeal.Region1

open Cert.KernelIdeal Cert.KernelIdeal.Gen Cert.Gcn
open Idealize.ShloMosaic Idealize.ShloMosaic.TcCoe Idealize.SL.Sem Idealize.ShloMosaic.ValueIdx
open Idealize.ShloMosaic.Pipeline (Dat)
open Cert.Lib.MatProd Cert.Lib.RowBlocks Cert.Lib.InPlaceBodies Cert.Lib.RowReductions Cert.Lib.BiasRelu

/-! ## The body's arithmetic on one block -/

/-- An r×k block re-shaped in place, times an r×1 column re-shaped in place and broadcast across the k columns:
    every row of the block times that row's entry of the column. -/
theorem scaled_block {r k : Nat} (x0 : FVec Ideal ⟨2, ![r, k]⟩ .f32) (x1 : FVec Ideal ⟨2, ![r, 1]⟩ .f32)
    (h0 : (⟨2, ![r, k]⟩ : Shape).ShapeCasts ⟨2, ![r, k]⟩) (h1 : (⟨2, ![r, 1]⟩ : Shape).ShapeCasts ⟨2, ![r, 1]⟩)
    (hb : (⟨2, ![r, 1]⟩ : Shape).Broadcasts ⟨2, ![r, k]⟩) :
    mulf (shapeCast ⟨2, ![r, k]⟩ x0 h0) (broadcastTo ⟨2, ![r, k]⟩ (shapeCast ⟨2, ![r, 1]⟩ x1 h1) hb) = scaleCol x0 x1 := by
  funext i
  obtain ⟨p, q, rfl⟩ : ∃ (p : Fin r) (q : Fin k), i = ix2 p q := ⟨i 0, i 1, eq_ix2 i⟩
  rw [mulf_apply, shapeCast_self, shapeCast_self, broadcast_col_apply]
  rfl

/-- A 1×k row re-shaped in place, broadcast down the r rows of a block and added, then the maximum with a splat of
    the zero word: the bias row added to every row and the result clamped below at zero. -/
theorem bias_relu_block {r k : Nat} (X : FVec Ideal ⟨2, ![r, k]⟩ .f32) (x2 : FVec Ideal ⟨2, ![1, k]⟩ .f32)
    (h2 : (⟨2, ![1, k]⟩ : Shape).ShapeCasts ⟨2, ![1, k]⟩) (hb : (⟨2, ![1, k]⟩ : Shape).Broadcasts ⟨2, ![r, k]⟩) :
    maximumf (addf X (broadcastTo ⟨2, ![r, k]⟩ (shapeCast ⟨2, ![1, k]⟩ x2 h2) hb))
      (broadcast ⟨2, ![r, k]⟩ (Scalar.ofBits (F := Ideal) .f32 0x00000000#32)) = biasRelu X x2 := by
  funext i
  obtain ⟨p, q, rfl⟩ : ∃ (p : Fin r) (q : Fin k), i = ix2 p q := ⟨i 0, i 1, eq_ix2 i⟩
  rw [maximumf_apply, addf_apply, shapeCast_self, Cert.Lib.BlockReads.broadcast_row_apply]
  rfl

/-- On a 10000×64 block x0, a 10000×1 block of scales x1 (read twice), the 1×64 bias row x2 and the 64×2 weights x3,
    the body computes `layer2 x0 x1 x2 x3`. -/
theorem body_is_layer2 (x0 : FVec Ideal S10000x64 .f32) (x1 : FVec Ideal S10000x1 .f32) (x2 : FVec Ideal S1x64 .f32)
    (x3 : FVec Ideal S64x2 .f32) :
    k1_pay1 (F := Ideal) x0 x1 x2 x3 x1 = layer2 (n := 10000) (k := 64) (d := 2) x0 x1 x2 x3 := by
  unfold k1_pay1
  show mulf (matmul dot_S10000x64_S64x2_S10000x2_1_0_0_1_n_n none
        (truncf .bf16 (maximumf (addf (mulf (shapeCast S10000x64 x0 shapeCasts_S10000x64_S10000x64)
              (broadcastTo S10000x64 (shapeCast S10000x1 x1 shapeCasts_S10000x1_S10000x1) broadcasts_S10000x1_S10000x64))
            (broadcastTo S10000x64 (shapeCast S1x64 x2 shapeCasts_S1x64_S1x64) broadcasts_S1x64_S10000x64))
          (broadcast S10000x64 (Scalar.ofBits (F := Ideal) .f32 0x00000000#32))) bitsLt_bf16_f32)
        (truncf .bf16 x3 bitsLt_bf16_f32) (constant S10000x2 .f32 0x00000000#32))
      (broadcastTo S10000x2 (shapeCast S10000x1 x1 shapeCasts_S10000x1_S10000x1) broadcasts_S10000x1_S10000x2) = _
  rw [scaled_block (r := 10000) (k := 64) x0 x1, bias_relu_block (r := 10000) (k := 64) (scaleCol x0 x1) x2,
    narrowed_product (r := 10000) (k := 64) (n := 2) dot_S10000x64_S64x2_S10000x2_1_0_0_1_n_n rfl rfl rfl rfl rfl rfl
      none bitsLt_bf16_f32 (biasRelu (scaleCol x0 x1) x2) x3]
  funext i
  obtain ⟨p, q, rfl⟩ : ∃ (p : Fin 10000) (q : Fin 2), i = ix2 p q := ⟨i 0, i 1, eq_ix2 i⟩
  rw [mulf_apply, broadcast_col_apply, shapeCast_self]
  rfl

/-! ## A row of the stage depends on that row of its operands -/

/-- If row (y 0) of A' is row (i 0) of A, entry (y 0) of the scales c' is entry (i 0) of c, the bias rows and the
    weights agree, and y and i are in the same column, then `layer2 A' c' b' W'` at y is `layer2 A c b W` at i. -/
theorem layer2_rows {n n' k d : Nat} (A : (⟨2, ![n, k]⟩ : Shape).Idx → EReal) (A' : (⟨2, ![n', k]⟩ : Shape).Idx → EReal)
    (c : (⟨2, ![n, 1]⟩ : Shape).Idx → EReal) (c' : (⟨2, ![n', 1]⟩ : Shape).Idx → EReal)
    (b b' : (⟨2, ![1, k]⟩ : Shape).Idx → EReal) (W W' : (⟨2, ![k, d]⟩ : Shape).Idx → EReal)
    (y : (⟨2, ![n', d]⟩ : Shape).Idx) (i : (⟨2, ![n, d]⟩ : Shape).Idx)
    (hb : b' = b) (hW : W' = W)
    (hA : ∀ j : Fin k, A' (ix2 (⟨(y 0).val, idx2_lt0 y⟩ : Fin n') j) = A (ix2 (⟨(i 0).val, idx2_lt0 i⟩ : Fin n) j))
    (hc : c' (ix2 (⟨(y 0).val, idx2_lt0 y⟩ : Fin n') (0 : Fin 1)) = c (ix2 (⟨(i 0).val, idx2_lt0 i⟩ : Fin n) (0 : Fin 1)))
    (hcol : (y 1).val = (i 1).val) :
    layer2 A' c' b' W' y = layer2 A c b W i := by
  subst hb hW
  have hrow : ∀ j : Fin k, biasRelu (scaleCol A' c') b' (ix2 (⟨(y 0).val, idx2_lt0 y⟩ : Fin n') j)
      = biasRelu (scaleCol A c) b' (ix2 (⟨(i 0).val, idx2_lt0 i⟩ : Fin n) j) := fun j =>
    biasRelu_rows _ _ _ _ _ j (by rw [scaleCol_apply, scaleCol_apply, hA j, hc])
  show matProd (biasRelu (scaleCol A' c') b') W' y * c' _ = matProd (biasRelu (scaleCol A c) b') W' i * c _
  rw [matProd_rows (biasRelu (scaleCol A c) b') (biasRelu (scaleCol A' c') b') W' y i hrow hcol, hc]

/-! ## Where each block sits -/

/-- The block indices at point t: the aggregated matrix, the scales and the result are at row block t, column
    block 0; the bias row and the weights are at block (0, 0) at every point. -/
theorem block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

-- the buffer contents when the region is entered
variable (V : (c : Dev nD) → (b : Ref sig .tc) → Buf (Elt Ideal) ((c : Thread nD τ).loc b))

/-- Entry x of the block of the aggregated matrix at point t is its entry (10000·t + x 0, x 1). -/
theorem matrix_block (c : Dev nD) (t : Fin cfg1.N) (x : S10000x64.Idx) (k : S100000x64.Idx)
    (hk0 : (k 0).val = 10000 * t.val + (x 0).val) (hk1 : (k 1).val = (x 1).val) :
    (iblk1 V c 0 t : Vec Ideal S10000x64 .f32) x = (V c main_v26 : S100000x64.Idx → Elt Ideal .f32) k := by
  obtain ⟨e0, e1, -⟩ := block_indices t
  show V c main_v26 (((cfg1.win 0).blk t).view.emb x) = V c main_v26 k
  refine congrArg _ ?_
  funext a; apply Fin.ext
  match a with
  | ⟨0, _⟩ => show win1_0.index t (0 : Fin 2) * 10000 + 1 * (x 0).val = (k 0).val; rw [e0, hk0]; omega
  | ⟨1, _⟩ => show win1_0.index t (1 : Fin 2) * 64 + 1 * (x 1).val = (k 1).val; rw [e1, hk1]; omega

/-- Entry x of the block of scales at point t is entry (10000·t + x 0, x 1) of the column of scales. -/
theorem scale_block (c : Dev nD) (t : Fin cfg1.N) (x : S10000x1.Idx) (k : S100000x1.Idx)
    (hk0 : (k 0).val = 10000 * t.val + (x 0).val) (hk1 : (k 1).val = (x 1).val) :
    (iblk1 V c 1 t : Vec Ideal S10000x1 .f32) x = (V c main_v15 : S100000x1.Idx → Elt Ideal .f32) k := by
  obtain ⟨-, -, e2, e3, -⟩ := block_indices t
  show V c main_v15 (((cfg1.win 1).blk t).view.emb x) = V c main_v15 k
  refine congrArg _ ?_
  funext a; apply Fin.ext
  match a with
  | ⟨0, _⟩ => show win1_1.index t (0 : Fin 2) * 10000 + 1 * (x 0).val = (k 0).val; rw [e2, hk0]; omega
  | ⟨1, _⟩ => show win1_1.index t (1 : Fin 2) * 1 + 1 * (x 1).val = (k 1).val; rw [e3, hk1]; omega

/-- The block of the bias row at every point is the whole bias row. -/
theorem bias_block (c : Dev nD) (t : Fin cfg1.N) :
    (iblk1 V c 2 t : Vec Ideal S1x64 .f32) = (V c main_v27 : S1x64.Idx → Elt Ideal .f32) := by
  obtain ⟨-, -, -, -, e4, e5, -⟩ := block_indices t
  funext x
  show V c main_v27 (((cfg1.win 2).blk t).view.emb x) = V c main_v27 x
  refine congrArg _ ?_
  funext a; apply Fin.ext
  match a with
  | ⟨0, _⟩ => show win1_2.index t (0 : Fin 2) * 1 + 1 * (x 0).val = (x 0).val; rw [e4]; omega
  | ⟨1, _⟩ => show win1_2.index t (1 : Fin 2) * 64 + 1 * (x 1).val = (x 1).val; rw [e5]; omega

/-- The block of weights at every point is the whole weight matrix. -/
theorem weight_block (c : Dev nD) (t : Fin cfg1.N) :
    (iblk1 V c 3 t : Vec Ideal S64x2 .f32) = (V c main_arg4 : S64x2.Idx → Elt Ideal .f32) := by
  obtain ⟨-, -, -, -, -, -, e6, e7, -⟩ := block_indices t
  funext x
  show V c main_arg4 (((cfg1.win 3).blk t).view.emb x) = V c main_arg4 x
  refine congrArg _ ?_
  funext a; apply Fin.ext
  match a with
  | ⟨0, _⟩ => show win1_3.index t (0 : Fin 2) * 64 + 1 * (x 0).val = (x 0).val; rw [e6]; omega
  | ⟨1, _⟩ => show win1_3.index t (1 : Fin 2) * 2 + 1 * (x 1).val = (x 1).val; rw [e7]; omega

/-- Entry y of the result block at point t sits at (10000·t + y 0, y 1) of the result array. -/
theorem result_block (t : Fin cfg1.N) (y : S10000x2.Idx) :
    ((((cfg1.win 4).blk t).view.emb y) 0 : Nat) = 10000 * t.val + (y 0).val
      ∧ ((((cfg1.win 4).blk t).view.emb y) 1 : Nat) = (y 1).val := by
  obtain ⟨-, -, -, -, -, -, -, -, e8, e9⟩ := block_indices t
  constructor
  · show win1_4.index t (0 : Fin 2) * 10000 + 1 * (y 0).val = _; rw [e8]; omega
  · show win1_4.index t (1 : Fin 2) * 2 + 1 * (y 1).val = _; rw [e9]; omega

/-! ## What each point writes, and the whole array -/

/-- What point t writes back is rows 10000·t … 10000·t + 9999 of `layer2` of the whole arrays: the body computes
    `layer2` of the blocks, and a row of it depends on that row of the matrix and of the scales alone. -/
theorem written_back (c : Dev nD) (t : Fin cfg1.N) :
    (dat1 (F := Ideal) V c).flushed 4 t
      = ((cfg1.win 4).blk t).view.read (Elt Ideal)
          (layer2 (V c main_v26) (V c main_v15) (V c main_v27) (V c main_arg4)) := by
  show (cfg1.win 4).cut (grid1.coords t) ((dat1 V c).after 4 t) = _
  rw [after1_4]
  unfold out1_4
  rw [View.canon_unit_zero zero_offset2]
  simp only [View.ld_unit_zero (S := S10000x64) zero_offset2, View.ld_unit_zero (S := S10000x1) zero_offset2,
    View.ld_unit_zero (S := S1x64) zero_offset2, View.ld_unit_zero (S := S64x2) zero_offset2]
  rw [body_is_layer2]
  funext y
  obtain ⟨h0, h1⟩ := result_block t y
  show layer2 (n := 10000) (k := 64) (d := 2) (iblk1 V c 0 t) (iblk1 V c 1 t) (iblk1 V c 2 t) (iblk1 V c 3 t) y
    = layer2 (n := 100000) (k := 64) (d := 2) (V c main_v26) (V c main_v15) (V c main_v27) (V c main_arg4)
        (((cfg1.win 4).blk t).view.emb y)
  refine layer2_rows _ _ _ _ _ _ _ _ y _ (bias_block V c t) (weight_block V c t)
    (fun j => matrix_block V c t _ _ ?_ rfl) (scale_block V c t _ _ ?_ rfl) h1.symm
  · exact h0
  · exact h0

/-- An index of the result array is in point t's block iff each coordinate is in the block's range on its axis. -/
theorem mem_block (t : Fin cfg1.N) (i : S100000x2.Idx) :
    i ∈ ((cfg1.win 4).blk t).view.set ↔ ∀ a : Fin 2, win1_4.index t a * S10000x2.size a ≤ (i a).val
      ∧ (i a).val < win1_4.index t a * S10000x2.size a + S10000x2.size a := by
  show i ∈ ((View.whole main_v28).slice (win1_4.rect t)).set ↔ _
  rw [View.set_slice_whole, Rect.mem_set_unit]
  exact Iff.rfl

/-- Every row is in some point's block: row r is in block r / 10000, and 100000 = 10 · 10000. -/
theorem rows_covered (i : S100000x2.Idx) :
    ∃ t : Fin cfg1.N, (cfg1.win 4).flush t = true ∧ i ∈ ((cfg1.win 4).blk t).view.set := by
  have hi0 : (i 0).val < 100000 := (i 0).isLt
  have hi1 : (i 1).val < 2 := (i 1).isLt
  obtain ⟨t, ht⟩ : ∃ t : Fin cfg1.N, t.val = (i 0).val / 10000 :=
    ⟨⟨(i 0).val / 10000, by show _ < grid1.N; rw [N_1]; omega⟩, rfl⟩
  obtain ⟨-, -, -, -, -, -, -, -, e8, e9⟩ := block_indices t
  refine ⟨t, flush1_4 t, ?_⟩
  rw [mem_block]
  intro a
  match a with
  | ⟨0, _⟩ =>
    show win1_4.index t (0 : Fin 2) * 10000 ≤ (i 0).val ∧ (i 0).val < win1_4.index t (0 : Fin 2) * 10000 + 10000
    rw [e8, ht]; omega
  | ⟨1, _⟩ =>
    show win1_4.index t (1 : Fin 2) * 2 ≤ (i 1).val ∧ (i 1).val < win1_4.index t (1 : Fin 2) * 2 + 2
    rw [e9]; omega

/-- After the region's 10 points the result array is `layer2` of the aggregated matrix, the column of scales, the
    bias row and the weights as the region found them. -/
theorem final (c : Dev nD) :
    (dat1 (F := Ideal) V c).arrAt 4 cfg1.N
      = layer2 (V c main_v26) (V c main_v15) (V c main_v27) (V c main_arg4) :=
  (dat1 V c).arrAt_eq_of_cover 4 (layer2 (V c main_v26) (V c main_v15) (V c main_v27) (V c main_arg4))
    (fun t _ => written_back V c t) rows_covered

end Cert.KernelIdeal.Region1

end
-- ==== Proof.LibLogSoftmaxBody.lean ====
/-
  A second kernel-body spelling of the logarithm of the softmax along each row of an a×b array, on the extended reals:
  the row maximum (a lane maximum into a −∞ accumulator, re-shaped [a]→[a,1] and broadcast) is subtracted FIRST, and the
  logarithm of the row sum of the exponentials (a lane sum into a zero accumulator, re-shaped, its logarithm broadcast) is
  subtracted from that difference — (x − top) − lse, the grouping of `logSoftmax`. Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«132974_j3470333575753_2_alg».proof.Proof.LibRowReductions
import proofs.«132974_j3470333575753_2_alg».proof.Proof.LibLogSoftmaxRows

open scoped BigOperators

noncomputable section

namespace Cert.Lib.LogSoftmaxBody

open Idealize.ShloMosaic Idealize.ShloMosaic.ValueIdx Cert.Lib.RowReductions Cert.Lib.LogSoftmaxRows

variable {a b : Nat}

/-- Lane maximum into a −∞ accumulator, re-shaped to a column, broadcast and subtracted; exponential; lane sum into a
    zero accumulator, re-shaped to a column; its logarithm broadcast and subtracted from the first difference:
    `logSoftmax` of the block. -/
theorem body_grouped_eq (x : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec (FTy.bits .f32)) = FKind.maximumf.neutral .f32 hφ)
    (hadd : (0x00000000#32 : BitVec (FTy.bits .f32)) = FKind.add.neutral .f32 hφ) :
    subf (subf x (broadcastTo ⟨2, ![a, b]⟩
        (shapeCast ⟨2, ![a, 1]⟩ (multiReduction .maximumf [1] ⟨1, ![a]⟩ x 0xFF800000#32 hr hφ hmax) hc) hb))
      (broadcastTo ⟨2, ![a, b]⟩
        (log (shapeCast ⟨2, ![a, 1]⟩ (multiReduction .add [1] ⟨1, ![a]⟩
          (exp (subf x (broadcastTo ⟨2, ![a, b]⟩
            (shapeCast ⟨2, ![a, 1]⟩ (multiReduction .maximumf [1] ⟨1, ![a]⟩ x 0xFF800000#32 hr hφ hmax) hc) hb)))
          0x00000000#32 hr hφ hadd) hc)) hb)
      = logSoftmax x := by
  have top : ∀ p : Fin a,
      shapeCast ⟨2, ![a, 1]⟩ (multiReduction .maximumf [1] ⟨1, ![a]⟩ x 0xFF800000#32 hr hφ hmax) hc (ix2 p 0) = rowTop x p := by
    intro p
    rw [shapeCast_col_apply, rowmax_apply]
    show Finset.fold max (Ideal.ofBits .f32 0xFF800000#32) _ _ = _
    rw [ofBits_neg_inf_f32]
    rfl
  funext i
  obtain ⟨p, q, rfl⟩ : ∃ (p : Fin a) (q : Fin b), i = ix2 p q := ⟨i 0, i 1, eq_ix2 i⟩
  rw [subf_apply, subf_apply, broadcast_col_apply, top, broadcast_col_apply, logSoftmax_apply]
  refine congrArg (fun z => (x (ix2 p q) - rowTop x p) - z) ?_
  show Ideal.log (shapeCast ⟨2, ![a, 1]⟩ _ hc (ix2 p 0)) = _
  rw [shapeCast_col_apply, rowsum_apply]
  refine congrArg Ideal.log (Finset.sum_congr rfl fun k _ => ?_)
  show Ideal.exp (x (ix2 p k) - broadcastTo ⟨2, ![a, b]⟩ _ hb (ix2 p k)) = _
  rw [broadcast_col_apply, top]

end Cert.Lib.LogSoftmaxBody

end
-- ==== Proof.Region2.lean ====
/-
  The third dense stage of the graph convolution as the kernel's last region leaves it: every block of 5000 rows
  of the result is the logarithm of the softmax, row by row, of the block's rows scaled and biased, and the blocks
  tile the array, so the array is the stage's function of the three whole operands.
-/
import proofs.«132974_j3470333575753_2_alg».proof.Proof.Gen.KernelIdeal.Frame
import proofs.«132974_j3470333575753_2_alg».proof.Proof.Spec
import proofs.«132974_j3470333575753_2_alg».proof.Proof.LibRowBlocks
import proofs.«132974_j3470333575753_2_alg».proof.Proof.LibRowReductions
import proofs.«132974_j3470333575753_2_alg».proof.Proof.LibBlockReads
import proofs.«132974_j3470333575753_2_alg».proof.Proof.LibInPlaceBodies
import proofs.«132974_j3470333575753_2_alg».proof.Proof.LibLogSoftmaxRows
import proofs.«132974_j3470333575753_2_alg».proof.Proof.LibLogSoftmaxBody
import Idealize.ShloMosaic.Lib.Pipeline.Value

set_option maxRecDepth 16384

noncomputable section

namespace Cert.KernelIdeal.Region2

open Cert.KernelIdeal Cert.KernelIdeal.Gen Cert.Gcn
open Idealize.ShloMosaic Idealize.ShloMosaic.TcCoe Idealize.ShloMosaic.ValueIdx Idealize.SL.Sem
open Idealize.ShloMosaic.Pipeline (Dat)
open Cert.Layers Cert.Lib.LogSoftmaxRows Cert.Lib.LogSoftmaxBody Cert.Lib.RowReductions Cert.Lib.InPlaceBodies

/-! ## The body's arithmetic on a block -/

/-- A block of r rows re-shaped in place, times its column of per-row scales re-shaped in place and broadcast across
    the columns, plus the bias row re-shaped in place and broadcast down the rows: the rows scaled, the bias added. -/
theorem scaled_biased {r n : Nat} (x0 : FVec Ideal ⟨2, ![r, n]⟩ .f32) (x1 : FVec Ideal ⟨2, ![r, 1]⟩ .f32)
    (x2 : FVec Ideal ⟨2, ![1, n]⟩ .f32)
    (h0 : (⟨2, ![r, n]⟩ : Shape).ShapeCasts ⟨2, ![r, n]⟩) (h1 : (⟨2, ![r, 1]⟩ : Shape).ShapeCasts ⟨2, ![r, 1]⟩)
    (hb1 : (⟨2, ![r, 1]⟩ : Shape).Broadcasts ⟨2, ![r, n]⟩)
    (h2 : (⟨2, ![1, n]⟩ : Shape).ShapeCasts ⟨2, ![1, n]⟩) (hb2 : (⟨2, ![1, n]⟩ : Shape).Broadcasts ⟨2, ![r, n]⟩) :
    addf (mulf (shapeCast ⟨2, ![r, n]⟩ x0 h0) (broadcastTo ⟨2, ![r, n]⟩ (shapeCast ⟨2, ![r, 1]⟩ x1 h1) hb1))
        (broadcastTo ⟨2, ![r, n]⟩ (shapeCast ⟨2, ![1, n]⟩ x2 h2) hb2)
      = biasAdd (scaleCol x0 x1) x2 := by
  funext i
  obtain ⟨p, q, rfl⟩ : ∃ (p : Fin r) (q : Fin n), i = ix2 p q := ⟨i 0, i 1, eq_ix2 i⟩
  rw [addf_apply, mulf_apply, shapeCast_self, shapeCast_self, shapeCast_self, broadcast_col_apply,
    Cert.Lib.BlockReads.broadcast_row_apply]
  rfl

/-- The body's stored value is the last stage of the block's three operands. -/
theorem payload_eq (x0 : Vec Ideal S5000x2 .f32) (x1 : Vec Ideal S5000x1 .f32) (x2 : Vec Ideal S1x2 .f32) :
    k2_pay1 (F := Ideal) x0 x1 x2 = layer3 (n := 5000) (d := 2) x0 x1 x2 :=
  (body_grouped_eq (a := 5000) (b := 2) _ _ _ _ _ _ _).trans
    (congrArg logSoftmax (scaled_biased (r := 5000) (n := 2) x0 x1 x2 _ _ _ _ _))

/-! ## A row of the result depends on the same row of the row-wise operands -/

/-- If row (y 0) of A' is row (i 0) of A, entry (y 0) of the column c' is entry (i 0) of c, the bias rows b' and b
    agree, and y, i are in the same column, the stage of the primed operands at y is the stage of the unprimed ones
    at i. -/
theorem layer3_rows {n n' d : Nat} (A : (⟨2, ![n, d]⟩ : Shape).Idx → EReal) (A' : (⟨2, ![n', d]⟩ : Shape).Idx → EReal)
    (c : (⟨2, ![n, 1]⟩ : Shape).Idx → EReal) (c' : (⟨2, ![n', 1]⟩ : Shape).Idx → EReal)
    (b b' : (⟨2, ![1, d]⟩ : Shape).Idx → EReal) (y : (⟨2, ![n', d]⟩ : Shape).Idx) (i : (⟨2, ![n, d]⟩ : Shape).Idx)
    (hA : ∀ k : Fin d, A' (ix2 (⟨(y 0).val, idx2_lt0 y⟩ : Fin n') k) = A (ix2 (⟨(i 0).val, idx2_lt0 i⟩ : Fin n) k))
    (hc : c' (ix2 (⟨(y 0).val, idx2_lt0 y⟩ : Fin n') 0) = c (ix2 (⟨(i 0).val, idx2_lt0 i⟩ : Fin n) 0))
    (hb : ∀ k : Fin d, b' (ix2 0 k) = b (ix2 0 k))
    (hcol : (y 1).val = (i 1).val) : layer3 A' c' b' y = layer3 A c b i := by
  obtain ⟨p', q', rfl⟩ : ∃ (p' : Fin n') (q' : Fin d), y = ix2 p' q' := ⟨y 0, y 1, eq_ix2 y⟩
  obtain ⟨p, q, rfl⟩ : ∃ (p : Fin n) (q : Fin d), i = ix2 p q := ⟨i 0, i 1, eq_ix2 i⟩
  have hq : q' = q := Fin.ext hcol
  subst hq
  have hA' : ∀ k : Fin d, A' (ix2 p' k) = A (ix2 p k) := hA
  have hc' : c' (ix2 p' 0) = c (ix2 p 0) := hc
  have hrow : ∀ k : Fin d, biasAdd (scaleCol A' c') b' (ix2 p' k) = biasAdd (scaleCol A c) b (ix2 p k) := fun k => by
    rw [biasAdd_apply, biasAdd_apply, scaleCol_apply, scaleCol_apply, hA' k, hc', hb k]
  unfold layer3
  rw [logSoftmax_apply, logSoftmax_apply, rowTop_congr _ _ p' p hrow, rowLogSum_congr _ _ p' p hrow, hrow q']

/-- Rows T·5000 … T·5000 + 4999: when the blocks x0, x1 are those rows of X0, X1 (read through index maps e0, e1 that
    put block row r at array row T·5000 + r and keep the column) and the block x2 is the whole row X2, the stage of the
    blocks at y is the stage of the arrays at the index i that sits at row T·5000 + (y 0) in y's column. -/
theorem layer3_block (X0 : S100000x2.Idx → EReal) (X1 : S100000x1.Idx → EReal) (X2 : S1x2.Idx → EReal)
    (x0 : S5000x2.Idx → EReal) (x1 : S5000x1.Idx → EReal) (x2 : S1x2.Idx → EReal)
    (e0 : S5000x2.Idx → S100000x2.Idx) (e1 : S5000x1.Idx → S100000x1.Idx) (e2 : S1x2.Idx → S1x2.Idx)
    (hx0 : ∀ u, x0 u = X0 (e0 u)) (hx1 : ∀ u, x1 u = X1 (e1 u)) (hx2 : ∀ u, x2 u = X2 (e2 u)) (T : Nat)
    (he0 : ∀ u, (e0 u 0).val = T * 5000 + (u 0).val ∧ (e0 u 1).val = (u 1).val)
    (he1 : ∀ u, (e1 u 0).val = T * 5000 + (u 0).val ∧ (e1 u 1).val = (u 1).val)
    (he2 : ∀ u, (e2 u 0).val = (u 0).val ∧ (e2 u 1).val = (u 1).val)
    (y : S5000x2.Idx) (i : S100000x2.Idx) (hi : (i 0).val = T * 5000 + (y 0).val ∧ (i 1).val = (y 1).val) :
    layer3 (n := 5000) (d := 2) x0 x1 x2 y = layer3 (n := 100000) (d := 2) X0 X1 X2 i := by
  refine layer3_rows (n := 100000) (n' := 5000) (d := 2) X0 x0 X1 x1 X2 x2 y i (fun k => ?_) ?_ (fun k => ?_) hi.2.symm
  · rw [hx0]
    refine congrArg X0 (funext fun a => Fin.ext ?_)
    match a with
    | ⟨0, _⟩ => exact (he0 _).1.trans hi.1.symm
    | ⟨1, _⟩ => exact (he0 _).2
  · rw [hx1]
    refine congrArg X1 (funext fun a => Fin.ext ?_)
    match a with
    | ⟨0, _⟩ => exact (he1 _).1.trans hi.1.symm
    | ⟨1, _⟩ => exact (he1 _).2
  · rw [hx2]
    refine congrArg X2 (funext fun a => Fin.ext ?_)
    match a with
    | ⟨0, _⟩ => exact (he2 _).1
    | ⟨1, _⟩ => exact (he2 _).2

/-! ## The region: what each point writes back, and the array its write-backs leave -/

section Region

variable (V : (c : Dev nD) → (b : Ref sig .tc) → Buf (Elt Ideal) ((c : Thread nD τ).loc b))

/-- The printed index maps over the grid's 20 points: the two row-wise operands and the result move together, one
    block of rows per point, in block column 0; the bias row stays at block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back to the result's array is block t of the last stage of the three arrays as the region
    finds them. -/
theorem flushed_eq (c : Dev nD) (t : Fin cfg2.N) :
    (dat2 (F := Ideal) V c).flushed 3 t = ((cfg2.win 3).blk t).view.read (Elt Ideal)
      (layer3 (n := 100000) (d := 2) (V c main_v38 : S100000x2.Idx → Elt Ideal .f32)
        (V c main_v15 : S100000x1.Idx → Elt Ideal .f32) (V c main_v39 : S1x2.Idx → Elt Ideal .f32)) := by
  show (cfg2.win 3).cut (grid2.coords t) ((dat2 V c).after 3 t) = _
  rw [after2_3]
  unfold out2_3
  rw [View.canon_unit_zero Cert.Lib.RowBlocks.zero_offset2]
  simp only [View.ld_unit_zero (S := S5000x2) Cert.Lib.RowBlocks.zero_offset2,
    View.ld_unit_zero (S := S5000x1) Cert.Lib.RowBlocks.zero_offset2,
    View.ld_unit_zero (S := S1x2) Cert.Lib.RowBlocks.zero_offset2]
  rw [payload_eq]
  obtain ⟨a0, a1, b0, b1, c0, c1, d0, d1⟩ := index_facts t
  funext y
  show layer3 (n := 5000) (d := 2) (iblk2 V c 0 t) (iblk2 V c 1 t) (iblk2 V c 2 t) y
    = layer3 (n := 100000) (d := 2) (V c main_v38) (V c main_v15) (V c main_v39) (((cfg2.win 3).blk t).view.emb y)
  refine layer3_block (V c main_v38) (V c main_v15) (V c main_v39) (iblk2 V c 0 t) (iblk2 V c 1 t) (iblk2 V c 2 t)
    ((cfg2.win 0).blk t).view.emb ((cfg2.win 1).blk t).view.emb ((cfg2.win 2).blk t).view.emb
    (fun _ => rfl) (fun _ => rfl) (fun _ => rfl) t.val (fun u => ⟨?_, ?_⟩) (fun u => ⟨?_, ?_⟩) (fun u => ⟨?_, ?_⟩)
    y _ ⟨?_, ?_⟩
  · show win2_0.index t (0 : Fin 2) * 5000 + 1 * (u 0).val = t.val * 5000 + (u 0).val
    rw [a0]; omega
  · show win2_0.index t (1 : Fin 2) * 2 + 1 * (u 1).val = (u 1).val
    rw [a1]; omega
  · show win2_1.index t (0 : Fin 2) * 5000 + 1 * (u 0).val = t.val * 5000 + (u 0).val
    rw [b0]; omega
  · show win2_1.index t (1 : Fin 2) * 1 + 1 * (u 1).val = (u 1).val
    rw [b1]; omega
  · show win2_2.index t (0 : Fin 2) * 1 + 1 * (u 0).val = (u 0).val
    rw [c0]; omega
  · show win2_2.index t (1 : Fin 2) * 2 + 1 * (u 1).val = (u 1).val
    rw [c1]; omega
  · show win2_3.index t (0 : Fin 2) * 5000 + 1 * (y 0).val = t.val * 5000 + (y 0).val
    rw [d0]; omega
  · show win2_3.index t (1 : Fin 2) * 2 + 1 * (y 1).val = (y 1).val
    rw [d1]; omega

/-- An index of the array is in point t's block iff each coordinate is in the block's range on its axis. -/
theorem mem_block (t : Fin cfg2.N) (i : S100000x2.Idx) :
    i ∈ ((cfg2.win 3).blk t).view.set ↔ ∀ a : Fin 2, win2_3.index t a * S5000x2.size a ≤ (i a).val
      ∧ (i a).val < win2_3.index t a * S5000x2.size a + S5000x2.size a := by
  show i ∈ ((View.whole main_v40).slice (win2_3.rect t)).set ↔ _
  rw [View.set_slice_whole, Rect.mem_set_unit]
  exact Iff.rfl

/-- Every index of the result's array is in some point's block: row r is in the block of point r / 5000. -/
theorem covered (i : S100000x2.Idx) :
    ∃ t : Fin cfg2.N, (cfg2.win 3).flush t = true ∧ i ∈ ((cfg2.win 3).blk t).view.set := by
  have hi0 : (i 0).val < 100000 := (i 0).isLt
  have hi1 : (i 1).val < 2 := (i 1).isLt
  have hN : grid2.N = 20 := N_2
  have ht : (i 0).val / 5000 < cfg2.N := by
    show (i 0).val / 5000 < grid2.N
    rw [hN]; omega
  obtain ⟨-, -, -, -, -, -, d0, d1⟩ := index_facts ⟨(i 0).val / 5000, ht⟩
  have d0' : win2_3.index ⟨(i 0).val / 5000, ht⟩ (0 : Fin 2) = (i 0).val / 5000 := d0
  refine ⟨⟨(i 0).val / 5000, ht⟩, flush2_3 _, ?_⟩
  rw [mem_block]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [d0']; omega
  | ⟨1, _⟩ =>
    show win2_3.index ⟨(i 0).val / 5000, ht⟩ (1 : Fin 2) * 2 ≤ (i 1).val
      ∧ (i 1).val < win2_3.index ⟨(i 0).val / 5000, ht⟩ (1 : Fin 2) * 2 + 2
    rw [d1]; omega

/-- The result's array after the region: the last stage of the three operand arrays as the region finds them. -/
theorem final (c : Dev nD) :
    (dat2 (F := Ideal) V c).arrAt 3 cfg2.N = layer3 (n := 100000) (d := 2) (V c main_v38 : S100000x2.Idx → Elt Ideal .f32)
      (V c main_v15 : S100000x1.Idx → Elt Ideal .f32) (V c main_v39 : S1x2.Idx → Elt Ideal .f32) :=
  (dat2 (F := Ideal) V c).arrAt_eq_of_cover 3 _ (fun t _ => flushed_eq V c t) covered

end Region

end Cert.KernelIdeal.Region2

end
-- ==== Proof.HostTerms.lean ====
/-
  The host-side pieces both programs share, each as one function: the edge list's source and destination words with
  one self-loop per node appended; the in-degree (a count: ones accumulated at each destination) and the per-node
  scale, its inverse square root where the degree is positive and zero elsewhere; an index vector with negative
  words wrapped by the number of nodes, as a one-column index array; and the aggregation of a table's rows over
  the edges: for each edge the row its source word selects, accumulated at the row its destination word names.
-/
import proofs.«132974_j3470333575753_2_alg».proof.Proof.Gen.KernelIdeal

noncomputable section

namespace Cert.KernelIdeal.HostTerms

open Idealize.ShloMosaic Cert.KernelIdeal Cert.KernelIdeal.Facts₀ Cert.KernelIdeal.Facts

variable {F : FTy → Type} [FloatOps F]

/-- The source words of the edges, then the nodes' own numbers. -/
def srcSl (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩,
    ⟨S100000, iotaInDim S100000 32 0⟩] concatenates_S1600000_S100000_S1700000_d0

/-- The destination words of the edges, then the nodes' own numbers. -/
def dstSl (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩,
    ⟨S100000, iotaInDim S100000 32 0⟩] concatenates_S1600000_S100000_S1700000_d0

/-- A vector of index words as a one-column index array. -/
def colIdx (d : IVec S1700000 32) : IVec S1700000x1 32 := broadcastInDim S1700000x1 ![0] bcast_S1700000_S1700000x1_0 d

/-- The same with every negative word raised by the number of nodes first. -/
def wrapIdx (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The in-degree of every node: a one accumulated at each edge's destination. -/
def degOf (d : IVec S1700000 32) : FVec F S100000 .f32 :=
  Host.scatterAdd scatter_S100000_S1700000x1_S1700000_n_0_0_1 (broadcastInDim S100000 ![] bcast_S_S100000 (constant S_ .f32 0x00000000#32))
    (colIdx d) (broadcastInDim S1700000 ![] bcast_S_S1700000 (constant S_ .f32 0x3F800000#32))

/-- The per-node scale: the inverse square root of the degree where it is positive, zero elsewhere. -/
def disOf (d : IVec S1700000 32) : FVec F S100000 .f32 :=
  select (cmpf (F := F) .ogt (degOf d) (broadcastInDim S100000 ![] bcast_S_S100000 (constant S_ .f32 0x00000000#32)))
    (Host.rsqrt (degOf d)) (broadcastInDim S100000 ![] bcast_S_S100000 (id (constant S_ .f32 0x00000000#32)))

/-- Rows of a 64-wide table gathered along the edges' sources and accumulated at their destinations. -/
def agg64 (T : FVec F S100000x64 .f32) (s d : IVec S1700000 32) : FVec F S100000x64 .f32 :=
  Host.scatterAdd scatter_S100000x64_S1700000x1_S1700000x64_1_0_0_1 (broadcastInDim S100000x64 ![] bcast_S_S100000x64 (constant S_ .f32 0x00000000#32))
    (colIdx d) (Host.gather gather_S100000x64_S1700000x1_S1700000x64_1_0_n_n_0_1_164 T (wrapIdx s))

/-- The same for a 2-wide table. -/
def agg2 (T : FVec F S100000x2 .f32) (s d : IVec S1700000 32) : FVec F S100000x2 .f32 :=
  Host.scatterAdd scatter_S100000x2_S1700000x1_S1700000x2_1_0_0_1 (broadcastInDim S100000x2 ![] bcast_S_S100000x2 (constant S_ .f32 0x00000000#32))
    (colIdx d) (Host.gather gather_S100000x2_S1700000x1_S1700000x2_1_0_n_n_0_1_12 T (wrapIdx s))

end Cert.KernelIdeal.HostTerms

end
-- ==== Proof.LibConcatCongr.lean ====
/-
  Concatenations with equal operands are equal. A concatenation takes, beside its list of operands, a proof about the
  operands' shapes, so a rewriting pass does not enter the operands by itself; these two congruences (two operands, four
  operands) let it. Nothing here mentions a program.
-/
import Idealize.ShloMosaic.Lib.Pipeline.Value

namespace Cert.Lib.ConcatCongr

open Idealize.ShloMosaic

/-- Two-operand concatenations with equal operands are equal. -/
theorem concatenate_pair_congr {α : Type} {t s₁ s₂ : Shape} (a : Fin t.rank) (x₁ : s₁.Idx → α) (x₂ : s₂.Idx → α)
    {x₁' : s₁.Idx → α} {x₂' : s₂.Idx → α}
    (h : Shape.Concatenates (([⟨s₁, x₁⟩, ⟨s₂, x₂⟩] : List ((s : Shape) × (s.Idx → α))).map (·.1)) t a)
    (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

/-- Four-operand concatenations with equal operands are equal. -/
theorem concatenate_quad_congr {α : Type} {t s₁ s₂ s₃ s₄ : Shape} (a : Fin t.rank)
    (x₁ : s₁.Idx → α) (x₂ : s₂.Idx → α) (x₃ : s₃.Idx → α) (x₄ : s₄.Idx → α)
    {x₁' : s₁.Idx → α} {x₂' : s₂.Idx → α} {x₃' : s₃.Idx → α} {x₄' : s₄.Idx → α}
    (h : Shape.Concatenates (([⟨s₁, x₁⟩, ⟨s₂, x₂⟩, ⟨s₃, x₃⟩, ⟨s₄, x₄⟩] : List ((s : Shape) × (s.Idx → α))).map (·.1)) t a)
    (e₁ : x₁ = x₁') (e₂ : x₂ = x₂') (e₃ : x₃ = x₃') (e₄ : x₄ = x₄') :
    concatenate t a [⟨s₁, x₁⟩, ⟨s₂, x₂⟩, ⟨s₃, x₃⟩, ⟨s₄, x₄⟩] h
      = concatenate t a [⟨s₁, x₁'⟩, ⟨s₂, x₂'⟩, ⟨s₃, x₃'⟩, ⟨s₄, x₄'⟩] h := by
  subst e₁ e₂ e₃ e₄; rfl

end Cert.Lib.ConcatCongr
-- ==== Proof.KernelValue.lean ====
/-
  What the idealized kernel's result buffer holds at the end, as one function of the argument arrays. Reading the
  chain of boundary contents backwards: the last dense stage (scale, bias, logarithm of the softmax) of the second
  aggregation, which gathers and accumulates the rows the second dense stage left, which in turn was applied to the
  first aggregation of the rows the first dense stage left. The host operations in between only build the edge index
  vectors, the per-node scale and the bias rows, once, and nothing later overwrites them.
-/
import proofs.«132974_j3470333575753_2_alg».proof.Proof.Gen.KernelIdeal.Frame
import proofs.«132974_j3470333575753_2_alg».proof.Proof.Region0
import proofs.«132974_j3470333575753_2_alg».proof.Proof.Region1
import proofs.«132974_j3470333575753_2_alg».proof.Proof.Region2
import proofs.«132974_j3470333575753_2_alg».proof.Proof.HostTerms
import proofs.«132974_j3470333575753_2_alg».proof.Proof.Spec
import proofs.«132974_j3470333575753_2_alg».proof.Proof.LibConcatCongr

set_option maxRecDepth 16384

noncomputable section

namespace Cert.KernelIdeal.KernelValue

open Cert.KernelIdeal Cert.KernelIdeal.Gen Cert.KernelIdeal.HostTerms Cert.KernelIdeal.Facts₀ Cert.KernelIdeal.Facts Cert.Gcn
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg) (c : Dev nD)

-- a rewriting pass enters the two operands of a concatenation
attribute [local congr] Cert.Lib.ConcatCongr.concatenate_pair_congr

/-! ## Before the first stage -/

theorem W3_arg (b : Ref sig .tc) (hb : b = main_arg0 ∨ b = main_arg1 ∨ b = main_arg2 ∨ b = main_arg3 ∨ b = main_arg4 ∨ b = main_arg5) :
    W3 m ρ c (Proc.devRef .tc b) = m ((c : Thread nD τ).loc b) := by
  rcases hb with rfl | rfl | rfl | rfl | rfl | rfl <;>
  · show StableHlo.after hostOps0_2 (StableHlo.after hostOps0_1 (StableHlo.after hostOps0 (W0 m ρ c))) _ = _
    after_results_simp

theorem W3_v5 : W3 m ρ c (Proc.devRef .tc main_v5) = srcSl (m ((c : Thread nD τ).loc main_arg1)) := by
  show StableHlo.after hostOps0_2 (StableHlo.after hostOps0_1 (StableHlo.after hostOps0 (W0 m ρ c))) _ = _
  after_results_simp
  rfl

theorem W3_v6 : W3 m ρ c (Proc.devRef .tc main_v6) = dstSl (m ((c : Thread nD τ).loc main_arg1)) := by
  show StableHlo.after hostOps0_2 (StableHlo.after hostOps0_1 (StableHlo.after hostOps0 (W0 m ρ c))) _ = _
  after_results_simp
  rfl

theorem W1_v12 : W1 m ρ c (Proc.devRef .tc main_v12)
    = cmpf (F := Ideal) .ogt (degOf (F := Ideal) (dstSl (m ((c : Thread nD τ).loc main_arg1))))
        (broadcastInDim S100000 ![] Facts₀.bcast_S_S100000 (constant S_ .f32 0x00000000#32)) := by
  show StableHlo.after hostOps0 (W0 m ρ c) _ = _
  after_results_simp
  rfl

theorem W1_v13 : W1 m ρ c (Proc.devRef .tc main_v13)
    = Host.rsqrt (F := Ideal) (degOf (F := Ideal) (dstSl (m ((c : Thread nD τ).loc main_arg1)))) := by
  show StableHlo.after hostOps0 (W0 m ρ c) _ = _
  after_results_simp
  rfl

theorem W1_cst2 : W1 m ρ c (Proc.devRef .tc main_cst_2) = constant (F := Ideal) S_ .f32 0x00000000#32 := by
  show StableHlo.after hostOps0 (W0 m ρ c) _ = _
  after_results_simp

theorem W2_v14 : W2 m ρ c (Proc.devRef .tc main_v14)
    = select (W1 m ρ c (Proc.devRef .tc main_v12)) (W1 m ρ c (Proc.devRef .tc main_v13) : FVec Ideal S100000 .f32)
        (broadcastInDim S100000 ![] Facts₀.bcast_S_S100000 (id (W1 m ρ c (Proc.devRef .tc main_cst_2) : FVec Ideal S_ .f32))) := by
  show StableHlo.after hostOps0_1 (W1 m ρ c) _ = _
  generalize W1 m ρ c = V
  after_results_simp
  rfl

theorem W3_v15' : W3 m ρ c (Proc.devRef .tc main_v15)
    = shapeCast S100000x1 (W2 m ρ c (Proc.devRef .tc main_v14) : FVec Ideal S100000 .f32) Facts₀.shapeCasts_S100000_S100000x1 := by
  show StableHlo.after hostOps0_2 (W2 m ρ c) _ = _
  generalize W2 m ρ c = V
  after_results_simp
  rfl

theorem W3_v15 : W3 m ρ c (Proc.devRef .tc main_v15)
    = shapeCast S100000x1 (disOf (F := Ideal) (dstSl (m ((c : Thread nD τ).loc main_arg1)))) Facts₀.shapeCasts_S100000_S100000x1 := by
  rw [W3_v15', W2_v14, W1_v12, W1_v13, W1_cst2]
  rfl

/-! ## The first stage, and what it leaves alone -/

theorem W4_v16 : W4 m ρ c (Proc.devRef .tc main_v16)
    = layer1 (W3 m ρ c (Proc.devRef .tc main_arg0)) (W3 m ρ c (Proc.devRef .tc main_arg2)) (W3 m ρ c (Proc.devRef .tc main_v15)) :=
  (W4_arr m ρ c 3).trans (Region0.final (V3 m ρ) c)

theorem W4_v15 : W4 m ρ c (Proc.devRef .tc main_v15) = W3 m ρ c (Proc.devRef .tc main_v15) :=
  (W4_arr m ρ c 2).trans (((dat0 (V3 m ρ) c).arrAt_in 2 rfl _).trans (A_eq0 (V3 m ρ) c 2))

theorem W4_keep (b : Ref sig .tc) (hb : b = main_v5 ∨ b = main_v6 ∨ b = main_arg3 ∨ b = main_arg4 ∨ b = main_arg5) :
    W4 m ρ c (Proc.devRef .tc b) = W3 m ρ c (Proc.devRef .tc b) := by
  rcases hb with rfl | rfl | rfl | rfl | rfl <;> exact W4_of_ne m ρ c _ (by decide)

/-! ## The first aggregation -/

theorem W5_v26 : W5 m ρ c (Proc.devRef .tc main_v26)
    = agg64 (F := Ideal) (W4 m ρ c (Proc.devRef .tc main_v16)) (W4 m ρ c (Proc.devRef .tc main_v5)) (W4 m ρ c (Proc.devRef .tc main_v6)) := by
  show StableHlo.after hostOps1 (W4 m ρ c) _ = _
  after_results_simp
  rfl

theorem W5_v27 : W5 m ρ c (Proc.devRef .tc main_v27)
    = shapeCast S1x64 (W4 m ρ c (Proc.devRef .tc main_arg3)) Facts₀.shapeCasts_S64_S1x64 := by
  show StableHlo.after hostOps1 (W4 m ρ c) _ = _
  after_results_simp
  rfl

theorem W5_keep (b : Ref sig .tc) (hb : b = main_v5 ∨ b = main_v6 ∨ b = main_v15 ∨ b = main_arg4 ∨ b = main_arg5) :
    W5 m ρ c (Proc.devRef .tc b) = W4 m ρ c (Proc.devRef .tc b) := by
  rcases hb with rfl | rfl | rfl | rfl | rfl <;>
  · show StableHlo.after hostOps1 (W4 m ρ c) _ = _
    after_results_simp

/-! ## The second stage -/

theorem W6_v28 : W6 m ρ c (Proc.devRef .tc main_v28)
    = layer2 (W5 m ρ c (Proc.devRef .tc main_v26)) (W5 m ρ c (Proc.devRef .tc main_v15)) (W5 m ρ c (Proc.devRef .tc main_v27))
        (W5 m ρ c (Proc.devRef .tc main_arg4)) :=
  (W6_arr m ρ c 4).trans (Region1.final (V5 m ρ) c)

theorem W6_v15 : W6 m ρ c (Proc.devRef .tc main_v15) = W5 m ρ c (Proc.devRef .tc main_v15) :=
  (W6_arr m ρ c 1).trans (((dat1 (V5 m ρ) c).arrAt_in 1 rfl _).trans (A_eq1 (V5 m ρ) c 1))

theorem W6_keep (b : Ref sig .tc) (hb : b = main_v5 ∨ b = main_v6 ∨ b = main_arg5) :
    W6 m ρ c (Proc.devRef .tc b) = W5 m ρ c (Proc.devRef .tc b) := by
  rcases hb with rfl | rfl | rfl <;> exact W6_of_ne m ρ c _ (by decide)

/-! ## The second aggregation -/

theorem W7_v38 : W7 m ρ c (Proc.devRef .tc main_v38)
    = agg2 (F := Ideal) (W6 m ρ c (Proc.devRef .tc main_v28)) (W6 m ρ c (Proc.devRef .tc main_v5)) (W6 m ρ c (Proc.devRef .tc main_v6)) := by
  show StableHlo.after hostOps2 (W6 m ρ c) _ = _
  after_results_simp
  rfl

theorem W7_v39 : W7 m ρ c (Proc.devRef .tc main_v39)
    = shapeCast S1x2 (W6 m ρ c (Proc.devRef .tc main_arg5)) Facts₀.shapeCasts_S2_S1x2 := by
  show StableHlo.after hostOps2 (W6 m ρ c) _ = _
  after_results_simp
  rfl

theorem W7_v15 : W7 m ρ c (Proc.devRef .tc main_v15) = W6 m ρ c (Proc.devRef .tc main_v15) := by
  show StableHlo.after hostOps2 (W6 m ρ c) _ = _
  after_results_simp

/-! ## The last stage -/

theorem W8_v40 : W8 m ρ c (Proc.devRef .tc main_v40)
    = layer3 (W7 m ρ c (Proc.devRef .tc main_v38)) (W7 m ρ c (Proc.devRef .tc main_v15)) (W7 m ρ c (Proc.devRef .tc main_v39)) :=
  (W8_arr m ρ c 3).trans (Region2.final (V7 m ρ) c)

/-! ## The whole -/

/-- The kernel's result as a function of the argument arrays. -/
def kernelOut (x : FVec Ideal S100000x512 .f32) (ei : IVec S2x1600000 32) (W1 : FVec Ideal S512x64 .f32) (b1 : FVec Ideal S64 .f32)
    (W2 : FVec Ideal S64x2 .f32) (b2 : FVec Ideal S2 .f32) : FVec Ideal S100000x2 .f32 :=
  layer3
    (agg2 (F := Ideal)
      (layer2
        (agg64 (F := Ideal)
          (layer1 x W1 (shapeCast S100000x1 (disOf (F := Ideal) (dstSl ei)) Facts₀.shapeCasts_S100000_S100000x1))
          (srcSl ei) (dstSl ei))
        (shapeCast S100000x1 (disOf (F := Ideal) (dstSl ei)) Facts₀.shapeCasts_S100000_S100000x1)
        (shapeCast S1x64 b1 Facts₀.shapeCasts_S64_S1x64) W2)
      (srcSl ei) (dstSl ei))
    (shapeCast S100000x1 (disOf (F := Ideal) (dstSl ei)) Facts₀.shapeCasts_S100000_S100000x1)
    (shapeCast S1x2 b2 Facts₀.shapeCasts_S2_S1x2)

theorem kernel_value : W8 m ρ c (Proc.devRef .tc main_v40)
    = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [W8_v40, W7_v38, W7_v15, W7_v39, W6_v28, W6_v15,
    W6_keep m ρ c main_v5 (Or.inl rfl), W6_keep m ρ c main_v6 (Or.inr (Or.inl rfl)), W6_keep m ρ c main_arg5 (Or.inr (Or.inr rfl)),
    W5_v26, W5_v27,
    W5_keep m ρ c main_v5 (Or.inl rfl), W5_keep m ρ c main_v6 (Or.inr (Or.inl rfl)), W5_keep m ρ c main_v15 (Or.inr (Or.inr (Or.inl rfl))),
    W5_keep m ρ c main_arg4 (Or.inr (Or.inr (Or.inr (Or.inl rfl)))), W5_keep m ρ c main_arg5 (Or.inr (Or.inr (Or.inr (Or.inr rfl)))),
    W4_v16, W4_v15,
    W4_keep m ρ c main_v5 (Or.inl rfl), W4_keep m ρ c main_v6 (Or.inr (Or.inl rfl)), W4_keep m ρ c main_arg3 (Or.inr (Or.inr (Or.inl rfl))),
    W4_keep m ρ c main_arg4 (Or.inr (Or.inr (Or.inr (Or.inl rfl)))), W4_keep m ρ c main_arg5 (Or.inr (Or.inr (Or.inr (Or.inr rfl)))),
    W3_v15, W3_v5, W3_v6,
    W3_arg m ρ c main_arg0 (Or.inl rfl), W3_arg m ρ c main_arg2 (Or.inr (Or.inr (Or.inl rfl))),
    W3_arg m ρ c main_arg3 (Or.inr (Or.inr (Or.inr (Or.inl rfl)))), W3_arg m ρ c main_arg4 (Or.inr (Or.inr (Or.inr (Or.inr (Or.inl rfl))))),
    W3_arg m ρ c main_arg5 (Or.inr (Or.inr (Or.inr (Or.inr (Or.inr rfl)))))]
  rfl

end Cert.KernelIdeal.KernelValue

end
-- ==== Proof.RefTerms.lean ====
/-
  The reference program's host computation as named functions of its arguments: the edge list's source and
  destination words with one self-loop per node appended; the in-degree and the per-node scale (its inverse square
  root where the degree is positive, zero elsewhere); an index vector with negative words wrapped by the number of
  nodes, as a one-column index array; the per-edge weight, the product of the scales of the edge's two ends; a
  graph convolution of a table, each edge's source row times the edge's weight accumulated at its destination row;
  the hidden layer (features times the first weights, convolved, plus bias, maximum with zero); the logits (hidden
  layer times the second weights, convolved, plus bias); and the row-wise log-softmax in the reference's spelling.
-/
import proofs.«132974_j3470333575753_2_alg».proof.Proof.Gen.ReferenceIdeal

noncomputable section

namespace Cert.ReferenceIdeal.RefRun

open Idealize.ShloMosaic Cert.ReferenceIdeal Cert.ReferenceIdeal.Facts₀ Cert.ReferenceIdeal.Facts

variable {F : FTy → Type} [FloatOps F]

/-- A vector of edge words followed by the nodes' own numbers. -/
def catIota (a : IVec S1600000 32) : IVec S1700000 32 :=
  concatenate S1700000 0 [⟨S1600000, a⟩, ⟨S100000, iotaInDim S100000 32 0⟩] concatenates_S1600000_S100000_S1700000_d0

/-- The source words of the edges, then the nodes' own numbers. -/
def srcSl (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩,
    ⟨S100000, iotaInDim S100000 32 0⟩] concatenates_S1600000_S100000_S1700000_d0

/-- The destination words of the edges, then the nodes' own numbers. -/
def dstSl (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩,
    ⟨S100000, iotaInDim S100000 32 0⟩] concatenates_S1600000_S100000_S1700000_d0

/-- A vector of index words as a one-column index array. -/
def colIdx (d : IVec S1700000 32) : IVec S1700000x1 32 := broadcastInDim S1700000x1 ![0] bcast_S1700000_S1700000x1_0 d

/-- The same with every negative word raised by the number of nodes first. -/
def wrapIdx (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The in-degree of every node: a one accumulated at each edge's destination. -/
def degOf (d : IVec S1700000 32) : FVec F S100000 .f32 :=
  Host.scatterAdd scatter_S100000_S1700000x1_S1700000_n_0_0_1 (broadcastInDim S100000 ![] bcast_S_S100000 (constant S_ .f32 0x00000000#32))
    (colIdx d) (broadcastInDim S1700000 ![] bcast_S_S1700000 (constant S_ .f32 0x3F800000#32))

/-- The per-node scale: the inverse square root of the degree where it is positive, zero elsewhere. -/
def disOf (d : IVec S1700000 32) : FVec F S100000 .f32 :=
  select (cmpf (F := F) .ogt (degOf d) (broadcastInDim S100000 ![] bcast_S_S100000 (constant S_ .f32 0x00000000#32)))
    (Host.rsqrt (degOf d)) (broadcastInDim S100000 ![] bcast_S_S100000 (id (constant S_ .f32 0x00000000#32)))

/-- The weight of every edge: the product of the scales of its source and of its destination. -/
def normOf (dis : FVec F S100000 .f32) (s d : IVec S1700000 32) : FVec F S1700000 .f32 :=
  mulf (Host.gather gather_S100000_S1700000x1_S1700000_n_0_n_n_0_1_1 dis (wrapIdx s)) (Host.gather gather_S100000_S1700000x1_S1700000_n_0_n_n_0_1_1 dis (wrapIdx d))

/-- The graph convolution of a 64-wide table: each edge's source row times the edge's weight, accumulated at its
    destination row. -/
def conv64 (T : FVec F S100000x64 .f32) (s d : IVec S1700000 32) (dis : FVec F S100000 .f32) : FVec F S100000x64 .f32 :=
  Host.scatterAdd scatter_S100000x64_S1700000x1_S1700000x64_1_0_0_1 (broadcastInDim S100000x64 ![] bcast_S_S100000x64 (constant S_ .f32 0x00000000#32)) (colIdx d)
    (mulf (Host.gather gather_S100000x64_S1700000x1_S1700000x64_1_0_n_n_0_1_164 T (wrapIdx s))
      (broadcastInDim S1700000x64 ![0, 1] bcast_S1700000x1_S1700000x64_0_1 (broadcastInDim S1700000x1 ![0] bcast_S1700000_S1700000x1_0 (normOf dis s d))))

/-- The same for a 2-wide table. -/
def conv2 (T : FVec F S100000x2 .f32) (s d : IVec S1700000 32) (dis : FVec F S100000 .f32) : FVec F S100000x2 .f32 :=
  Host.scatterAdd scatter_S100000x2_S1700000x1_S1700000x2_1_0_0_1 (broadcastInDim S100000x2 ![] bcast_S_S100000x2 (constant S_ .f32 0x00000000#32)) (colIdx d)
    (mulf (Host.gather gather_S100000x2_S1700000x1_S1700000x2_1_0_n_n_0_1_12 T (wrapIdx s))
      (broadcastInDim S1700000x2 ![0, 1] bcast_S1700000x1_S1700000x2_0_1 (broadcastInDim S1700000x1 ![0] bcast_S1700000_S1700000x1_0 (normOf dis s d))))

/-- The hidden layer: features times the first weights, convolved, plus bias, maximum with zero. -/
def hidden (x : FVec F S100000x512 .f32) (ei : IVec S2x1600000 32) (W1 : FVec F S512x64 .f32) (b1 : FVec F S64 .f32) : FVec F S100000x64 .f32 :=
  maximumf (addf (conv64 (Host.dotGeneral dot_S100000x512_S512x64_S100000x64_1_0_0_1_n_n none x W1) (srcSl ei) (dstSl ei) (disOf (dstSl ei)))
      (broadcastInDim S100000x64 ![0, 1] bcast_S1x64_S100000x64_0_1 (broadcastInDim S1x64 ![1] bcast_S64_S1x64_1 b1)))
    (broadcastInDim S100000x64 ![] bcast_S_S100000x64 (constant S_ .f32 0x00000000#32))

/-- The logits: the hidden layer times the second weights, convolved, plus bias. -/
def logits (x : FVec F S100000x512 .f32) (ei : IVec S2x1600000 32) (W1 : FVec F S512x64 .f32) (b1 : FVec F S64 .f32)
    (W2 : FVec F S64x2 .f32) (b2 : FVec F S2 .f32) : FVec F S100000x2 .f32 :=
  addf (conv2 (Host.dotGeneral dot_S100000x64_S64x2_S100000x2_1_0_0_1_n_n none (hidden x ei W1 b1) W2) (srcSl ei) (dstSl ei) (disOf (dstSl ei)))
    (broadcastInDim S100000x2 ![0, 1] bcast_S1x2_S100000x2_0_1 (broadcastInDim S1x2 ![1] bcast_S2_S1x2_1 b2))

/-- The row-wise log-softmax in the reference's spelling: the row maximum subtracted, then the logarithm of the
    row's sum of exponentials subtracted. -/
def logSoftmaxHost (L : FVec F S100000x2 .f32) : FVec F S100000x2 .f32 :=
  subf (subf L (broadcastInDim S100000x2 ![0, 1] bcast_S100000x1_S100000x2_0_1 (broadcastInDim S100000x1 ![0] bcast_S100000_S100000x1_0
      (maximumf (broadcastInDim S100000 ![] bcast_S_S100000 (constant S_ .f32 0xFF800000#32))
        (Host.reduce FloatOps.maximumf L (constant S_ .f32 0xFF800000#32) reducesTo_S100000x2_S100000_d1 h_S_)))))
    (broadcastInDim S100000x2 ![0, 1] bcast_S100000x1_S100000x2_0_1 (Host.log (broadcastInDim S100000x1 ![0] bcast_S100000_S100000x1_0
      (Host.reduceAdd (Host.exp (subf L (broadcastInDim S100000x2 ![0, 1] bcast_S100000x1_S100000x2_0_1 (broadcastInDim S100000x1 ![0] bcast_S100000_S100000x1_0
        (maximumf (broadcastInDim S100000 ![] bcast_S_S100000 (constant S_ .f32 0xFF800000#32))
          (Host.reduce FloatOps.maximumf L (constant S_ .f32 0xFF800000#32) reducesTo_S100000x2_S100000_d1 h_S_))))))
        (constant S_ .f32 0x00000000#32) reducesTo_S100000x2_S100000_d1 h_S_))))

/-- The reference's result as a function of its six arguments. -/
def refOut (x : FVec F S100000x512 .f32) (ei : IVec S2x1600000 32) (W1 : FVec F S512x64 .f32) (b1 : FVec F S64 .f32)
    (W2 : FVec F S64x2 .f32) (b2 : FVec F S2 .f32) : FVec F S100000x2 .f32 :=
  logSoftmaxHost (logits x ei W1 b1 W2 b2)

end Cert.ReferenceIdeal.RefRun

end
-- ==== Proof.LibTypedRefs.lean ====
/-
  A typed reference to a buffer carries contents to the buffer's own type and back along the equation between the two
  types; carried there and back they are unchanged. Nothing here mentions a program.
-/
import Idealize.ShloMosaic.Lib.StableHlo

namespace Cert.Lib.TypedRefs

open Idealize.ShloMosaic Idealize.ShloMosaic.StableHlo

variable {sig : RefSig} {Val : EltTy → Type}

/-- Contents carried to a buffer's own type and back are unchanged. -/
theorem ofBuf_toBuf {T : BufTy} (x : TRef sig T) (v : T.Contents Val) : x.ofBuf (x.toBuf v) = v := by
  obtain ⟨r, h, _, _⟩ := x
  subst h
  rfl

end Cert.Lib.TypedRefs
-- ==== Proof.RefRun.lean ====
/-
  The reference program's run with its result named. The program is a straight line of host operations; what its
  buffers hold afterwards is the fold of the operations over the launch contents. The line is cut into five
  consecutive stretches; the fold over a concatenation is the fold over the second part after the fold over the first;
  each stretch is read, over any starting contents, at the few buffers later stretches use, as a named function of
  the starting contents at earlier buffers; a buffer a stretch does not write keeps its contents. Put together: the
  result buffer ends at the reference's function of the six arguments, and the arguments end as launched.
-/
import proofs.«132974_j3470333575753_2_alg».proof.Proof.RefTerms
import proofs.«132974_j3470333575753_2_alg».proof.Proof.RefRunP
import proofs.«132974_j3470333575753_2_alg».proof.Proof.LibTypedRefs

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- The fold over a concatenation is the fold over the second part after the fold over the first. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l, l₂, V => by rw [List.cons_append, after_cons, after_cons, after_append l l₂]

/-- A buffer that none of a literal list of operations writes keeps its contents. -/
macro "not_written" : tactic =>
  `(tactic| (refine after_of_forall_not_mem _ _ (List.forall_iff_forall_mem.mp ?_)
             simp only [List.Forall, nullary_writes, unary_writes, binary_writes, ternary_writes, reshape_writes, Finset.mem_singleton]
             repeat' apply And.intro
             all_goals exact devRef_ne_of_ne (by decide)))

/-! ## The five stretches -/

/-- From the arguments to the per-node scale. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S100000x512_S512x64_S100000x64_1_0_0_1_n_n none l r) : (⟨S100000x512, .f32⟩ : BufTy).Contents (Elt F) → (⟨S512x64, .f32⟩ : BufTy).Contents (Elt F) → (⟨S100000x64, .f32⟩ : BufTy).Contents (Elt F)),
    nullary main_v5 (iotaInDim S100000 32 0),
    binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- From the per-node scale to the hidden layer's product with the second weights. -/
abbrev opsB : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v6 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v6 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v6 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v7 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v7 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v6 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v6 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v6 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v4 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v7 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf,
    binary main_v47 main_arg4 main_v48 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)) ]

/-- The index vectors and the per-node scale, computed a second time. -/
abbrev opsC : List (HloOp τ sig (Elt F)) :=
  [ nullary main_v49 (iotaInDim S100000 32 0),
    binary main_v1 main_v49 main_v50 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v49 main_v51 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v52 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S1700000x1 ![0] bcast_S1700000_S1700000x1_0 : (⟨S1700000, .i32⟩ : BufTy).Contents (Elt F) → (⟨S1700000x1, .i32⟩ : BufTy).Contents (Elt F)),
    ternary main_v53 main_v54 main_v52 main_v55 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select ]

/-- The second convolution and its bias: the logits. -/
abbrev opsD : List (HloOp τ sig (Elt F)) :=
  [ nullary main_c_13 (constantI S_ 32 0#32),
    unary main_c_13 main_v60 (broadcastInDim S1700000 ![] bcast_S_S1700000 : (⟨S_, .i32⟩ : BufTy).Contents (Elt F) → (⟨S1700000, .i32⟩ : BufTy).Contents (Elt F)),
    binary main_v50 main_v60 main_v61 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v62 (broadcastInDim S1700000 ![] bcast_S_S1700000 : (⟨S_, .i32⟩ : BufTy).Contents (Elt F) → (⟨S1700000, .i32⟩ : BufTy).Contents (Elt F)),
    binary main_v50 main_v62 main_v63 (addi : (⟨S1700000, .i32⟩ : BufTy).Contents (Elt F) → (⟨S1700000, .i32⟩ : BufTy).Contents (Elt F) → (⟨S1700000, .i32⟩ : BufTy).Contents (Elt F)),
    ternary main_v61 main_v63 main_v50 main_v64 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v64 main_v65 (broadcastInDim S1700000x1 ![0] bcast_S1700000_S1700000x1_0 : (⟨S1700000, .i32⟩ : BufTy).Contents (Elt F) → (⟨S1700000x1, .i32⟩ : BufTy).Contents (Elt F)),
    binary main_v59 main_v65 main_v66 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v67 (broadcastInDim S1700000 ![] bcast_S_S1700000 : (⟨S_, .i32⟩ : BufTy).Contents (Elt F) → (⟨S1700000, .i32⟩ : BufTy).Contents (Elt F)),
    binary main_v51 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v69 (broadcastInDim S1700000 ![] bcast_S_S1700000 : (⟨S_, .i32⟩ : BufTy).Contents (Elt F) → (⟨S1700000, .i32⟩ : BufTy).Contents (Elt F)),
    binary main_v51 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v51 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v59 main_v72 main_v73 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v66 main_v73 main_v74 (mulf : (⟨S1700000, .f32⟩ : BufTy).Contents (Elt F) → (⟨S1700000, .f32⟩ : BufTy).Contents (Elt F) → (⟨S1700000, .f32⟩ : BufTy).Contents (Elt F)),
    nullary main_c_17 (constantI S_ 32 0#32),
    unary main_c_17 main_v75 (broadcastInDim S1700000 ![] bcast_S_S1700000 : (⟨S_, .i32⟩ : BufTy).Contents (Elt F) → (⟨S1700000, .i32⟩ : BufTy).Contents (Elt F)),
    binary main_v50 main_v75 main_v76 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v77 (broadcastInDim S1700000 ![] bcast_S_S1700000 : (⟨S_, .i32⟩ : BufTy).Contents (Elt F) → (⟨S1700000, .i32⟩ : BufTy).Contents (Elt F)),
    binary main_v50 main_v77 main_v78 (addi : (⟨S1700000, .i32⟩ : BufTy).Contents (Elt F) → (⟨S1700000, .i32⟩ : BufTy).Contents (Elt F) → (⟨S1700000, .i32⟩ : BufTy).Contents (Elt F)),
    ternary main_v76 main_v78 main_v50 main_v79 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v79 main_v80 (broadcastInDim S1700000x1 ![0] bcast_S1700000_S1700000x1_0 : (⟨S1700000, .i32⟩ : BufTy).Contents (Elt F) → (⟨S1700000x1, .i32⟩ : BufTy).Contents (Elt F)),
    binary main_v48 main_v80 main_v81 ((fun x i => Host.gather gather_S100000x2_S1700000x1_S1700000x2_1_0_n_n_0_1_12 x i) : (⟨S100000x2, .f32⟩ : BufTy).Contents (Elt F) → (⟨S1700000x1, .i32⟩ : BufTy).Contents (Elt F) → (⟨S1700000x2, .f32⟩ : BufTy).Contents (Elt F)),
    unary main_v74 main_v82 (broadcastInDim S1700000x1 ![0] bcast_S1700000_S1700000x1_0 : (⟨S1700000, .f32⟩ : BufTy).Contents (Elt F) → (⟨S1700000x1, .f32⟩ : BufTy).Contents (Elt F)),
    unary main_v82 main_v83 (broadcastInDim S1700000x2 ![0, 1] bcast_S1700000x1_S1700000x2_0_1 : (⟨S1700000x1, .f32⟩ : BufTy).Contents (Elt F) → (⟨S1700000x2, .f32⟩ : BufTy).Contents (Elt F)),
    binary main_v81 main_v83 main_v84 (mulf : (⟨S1700000x2, .f32⟩ : BufTy).Contents (Elt F) → (⟨S1700000x2, .f32⟩ : BufTy).Contents (Elt F) → (⟨S1700000x2, .f32⟩ : BufTy).Contents (Elt F)),
    nullary main_cst_19 (constant S_ .f32 0x00000000#32),
    unary main_cst_19 main_v85 (broadcastInDim S100000x2 ![] bcast_S_S100000x2 : (⟨S_, .f32⟩ : BufTy).Contents (Elt F) → (⟨S100000x2, .f32⟩ : BufTy).Contents (Elt F)),
    unary main_v51 main_v86 (broadcastInDim S1700000x1 ![0] bcast_S1700000_S1700000x1_0 : (⟨S1700000, .i32⟩ : BufTy).Contents (Elt F) → (⟨S1700000x1, .i32⟩ : BufTy).Contents (Elt F)),
    ternary main_v85 main_v86 main_v84 main_v87 ((fun x i u => Host.scatterAdd scatter_S100000x2_S1700000x1_S1700000x2_1_0_0_1 x i u) : (⟨S100000x2, .f32⟩ : BufTy).Contents (Elt F) → (⟨S1700000x1, .i32⟩ : BufTy).Contents (Elt F) → (⟨S1700000x2, .f32⟩ : BufTy).Contents (Elt F) → (⟨S100000x2, .f32⟩ : BufTy).Contents (Elt F)),
    unary main_arg5 main_v88 (broadcastInDim S1x2 ![1] bcast_S2_S1x2_1 : (⟨S2, .f32⟩ : BufTy).Contents (Elt F) → (⟨S1x2, .f32⟩ : BufTy).Contents (Elt F)),
    unary main_v88 main_v89 (broadcastInDim S100000x2 ![0, 1] bcast_S1x2_S100000x2_0_1 : (⟨S1x2, .f32⟩ : BufTy).Contents (Elt F) → (⟨S100000x2, .f32⟩ : BufTy).Contents (Elt F)),
    binary main_v87 main_v89 main_v90 (addf : (⟨S100000x2, .f32⟩ : BufTy).Contents (Elt F) → (⟨S100000x2, .f32⟩ : BufTy).Contents (Elt F) → (⟨S100000x2, .f32⟩ : BufTy).Contents (Elt F)) ]

/-- The row-wise log-softmax. -/
abbrev opsE : List (HloOp τ sig (Elt F)) :=
  [ TRef.nullary (TRef.of (T := ⟨S_, .f32⟩) main_call3_cst) (constant S_ .f32 0xFF800000#32),
    TRef.binary (TRef.of (T := ⟨S100000x2, .f32⟩) main_v90) (TRef.of (T := ⟨S_, .f32⟩) main_call3_cst) (TRef.of (T := ⟨S100000, .f32⟩) main_call3_v0) (fun x v => Host.reduce FloatOps.maximumf x v reducesTo_S100000x2_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x2, .f32⟩) main_call3_v4) (broadcastInDim S100000x2 ![0, 1] bcast_S100000x1_S100000x2_0_1),
    TRef.binary (TRef.of (T := ⟨S100000x2, .f32⟩) main_v90) (TRef.of (T := ⟨S100000x2, .f32⟩) main_call3_v4) (TRef.of (T := ⟨S100000x2, .f32⟩) main_call3_v5) subf,
    TRef.unary (TRef.of (T := ⟨S100000x2, .f32⟩) main_call3_v5) (TRef.of (T := ⟨S100000x2, .f32⟩) main_call3_v6) Host.exp,
    TRef.nullary (TRef.of (T := ⟨S_, .f32⟩) main_call3_cst_1) (constant S_ .f32 0x00000000#32),
    TRef.binary (TRef.of (T := ⟨S100000x2, .f32⟩) main_call3_v6) (TRef.of (T := ⟨S_, .f32⟩) main_call3_cst_1) (TRef.of (T := ⟨S100000, .f32⟩) main_call3_v7) (fun x v => Host.reduceAdd x v reducesTo_S100000x2_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x2, .f32⟩) main_call3_v10) (broadcastInDim S100000x2 ![0, 1] bcast_S100000x1_S100000x2_0_1),
    TRef.binary (TRef.of (T := ⟨S100000x2, .f32⟩) main_call3_v5) (TRef.of (T := ⟨S100000x2, .f32⟩) main_call3_v10) (TRef.of (T := ⟨S100000x2, .f32⟩) main_v91) subf ]

set_option maxRecDepth 8192 in
/-- The operation list is the five stretches in order. -/
theorem ops_split : (ValueP.ops : List (HloOp τ sig (Elt F))) = opsA ++ (opsB ++ (opsC ++ (opsD ++ opsE))) := rfl

/-! ## Each stretch read over any starting contents -/

section Reads
variable (W : Valuation τ sig (Elt F))

theorem A_v1 : after (opsA (F := F)) W (Proc.devRef .tc main_v1)
    = shapeCast S1600000 (extractStridedSlice S1x1600000 ![0, 0] (W (Proc.devRef .tc main_arg1)) slices_S2x1600000_S1x1600000_0_0) shapeCasts_S1x1600000_S1600000 := by
  after_results_simp <;> rfl
theorem A_v3 : after (opsA (F := F)) W (Proc.devRef .tc main_v3)
    = shapeCast S1600000 (extractStridedSlice S1x1600000 ![1, 0] (W (Proc.devRef .tc main_arg1)) slices_S2x1600000_S1x1600000_1_0) shapeCasts_S1x1600000_S1600000 := by
  after_results_simp <;> rfl
theorem A_v4 : after (opsA (F := F)) W (Proc.devRef .tc main_v4)
    = Host.dotGeneral dot_S100000x512_S512x64_S100000x64_1_0_0_1_n_n none (W (Proc.devRef .tc main_arg0)) (W (Proc.devRef .tc main_arg2)) := by
  after_results_simp <;> rfl
theorem A_v6 : after (opsA (F := F)) W (Proc.devRef .tc main_v6) = srcSl (W (Proc.devRef .tc main_arg1)) := by
  after_results_simp <;> rfl
theorem A_v7 : after (opsA (F := F)) W (Proc.devRef .tc main_v7) = dstSl (W (Proc.devRef .tc main_arg1)) := by
  after_results_simp <;> rfl
theorem A_v15 : after (opsA (F := F)) W (Proc.devRef .tc main_v15) = disOf (F := F) (dstSl (W (Proc.devRef .tc main_arg1))) := by
  after_results_simp <;> rfl
theorem A_arg3 : after (opsA (F := F)) W (Proc.devRef .tc main_arg3) = W (Proc.devRef .tc main_arg3) := by not_written
theorem A_arg4 : after (opsA (F := F)) W (Proc.devRef .tc main_arg4) = W (Proc.devRef .tc main_arg4) := by not_written
theorem A_arg5 : after (opsA (F := F)) W (Proc.devRef .tc main_arg5) = W (Proc.devRef .tc main_arg5) := by not_written

theorem B_v48 : after (opsB (F := F)) W (Proc.devRef .tc main_v48)
    = Host.dotGeneral dot_S100000x64_S64x2_S100000x2_1_0_0_1_n_n none
        (maximumf (addf (conv64 (W (Proc.devRef .tc main_v4)) (W (Proc.devRef .tc main_v6)) (W (Proc.devRef .tc main_v7)) (W (Proc.devRef .tc main_v15)))
            (broadcastInDim S100000x64 ![0, 1] bcast_S1x64_S100000x64_0_1 (broadcastInDim S1x64 ![1] bcast_S64_S1x64_1 (W (Proc.devRef .tc main_arg3)))))
          (broadcastInDim S100000x64 ![] bcast_S_S100000x64 (constant S_ .f32 0x00000000#32)))
        (W (Proc.devRef .tc main_arg4)) := by
  after_results_simp <;> rfl
theorem B_v1 : after (opsB (F := F)) W (Proc.devRef .tc main_v1) = W (Proc.devRef .tc main_v1) := by not_written
theorem B_v3 : after (opsB (F := F)) W (Proc.devRef .tc main_v3) = W (Proc.devRef .tc main_v3) := by not_written
theorem B_arg5 : after (opsB (F := F)) W (Proc.devRef .tc main_arg5) = W (Proc.devRef .tc main_arg5) := by not_written

theorem C_v50 : after (opsC (F := F)) W (Proc.devRef .tc main_v50) = catIota (W (Proc.devRef .tc main_v1)) := by
  after_results_simp <;> rfl
theorem C_v51 : after (opsC (F := F)) W (Proc.devRef .tc main_v51) = catIota (W (Proc.devRef .tc main_v3)) := by
  after_results_simp <;> rfl
theorem C_v59 : after (opsC (F := F)) W (Proc.devRef .tc main_v59) = disOf (F := F) (catIota (W (Proc.devRef .tc main_v3))) := by
  after_results_simp <;> rfl
theorem C_v48 : after (opsC (F := F)) W (Proc.devRef .tc main_v48) = W (Proc.devRef .tc main_v48) := by not_written
theorem C_arg5 : after (opsC (F := F)) W (Proc.devRef .tc main_arg5) = W (Proc.devRef .tc main_arg5) := by not_written

theorem D_v90 : after (opsD (F := F)) W (Proc.devRef .tc main_v90)
    = addf (conv2 (W (Proc.devRef .tc main_v48)) (W (Proc.devRef .tc main_v50)) (W (Proc.devRef .tc main_v51)) (W (Proc.devRef .tc main_v59)))
        (broadcastInDim S100000x2 ![0, 1] bcast_S1x2_S100000x2_0_1 (broadcastInDim S1x2 ![1] bcast_S2_S1x2_1 (W (Proc.devRef .tc main_arg5)))) := by
  after_results_simp <;> rfl

theorem E_v91 : after (opsE (F := F)) W (Proc.devRef .tc main_v91) = logSoftmaxHost (W (Proc.devRef .tc main_v90)) := by
  after_results_simp
  simp only [Cert.Lib.TypedRefs.ofBuf_toBuf]
  rfl

end Reads

/-! ## The whole line -/

/-- The result buffer after the whole line, from any contents: the reference's function of the six arguments. -/
theorem out_eq (V : Valuation τ sig (Elt F)) :
    after (ValueP.ops (F := F)) V (Proc.devRef .tc main_v91)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_split, after_append, after_append, after_append, after_append]
  rw [E_v91, D_v90, C_v48, C_v50, C_v51, C_v59, C_arg5, B_v48, B_v1, B_v3, B_arg5,
    A_v1, A_v3, A_v4, A_v6, A_v7, A_v15, A_arg3, A_arg4, A_arg5]
  rfl

set_option maxRecDepth 8192 in
theorem arg0_eq (V : Valuation τ sig (Elt F)) : after (ValueP.ops (F := F)) V (Proc.devRef .tc main_arg0) = V (Proc.devRef .tc main_arg0) := by not_written
set_option maxRecDepth 8192 in
theorem arg1_eq (V : Valuation τ sig (Elt F)) : after (ValueP.ops (F := F)) V (Proc.devRef .tc main_arg1) = V (Proc.devRef .tc main_arg1) := by not_written
set_option maxRecDepth 8192 in
theorem arg2_eq (V : Valuation τ sig (Elt F)) : after (ValueP.ops (F := F)) V (Proc.devRef .tc main_arg2) = V (Proc.devRef .tc main_arg2) := by not_written
set_option maxRecDepth 8192 in
theorem arg3_eq (V : Valuation τ sig (Elt F)) : after (ValueP.ops (F := F)) V (Proc.devRef .tc main_arg3) = V (Proc.devRef .tc main_arg3) := by not_written
set_option maxRecDepth 8192 in
theorem arg4_eq (V : Valuation τ sig (Elt F)) : after (ValueP.ops (F := F)) V (Proc.devRef .tc main_arg4) = V (Proc.devRef .tc main_arg4) := by not_written
set_option maxRecDepth 8192 in
theorem arg5_eq (V : Valuation τ sig (Elt F)) : after (ValueP.ops (F := F)) V (Proc.devRef .tc main_arg5) = V (Proc.devRef .tc main_arg5) := by not_written

/-- On every device, for any float values, from any memory with zero counters: every weakly fair execution of the
    reference's @main terminates with the result buffer at the reference's function of the six arguments as launched,
    and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_seq ValueP.scopedRefs_eq ValueP.scopedSems_eq defs main (fun _ => ValueP.ops) ValueP.main_eq (fun _ => ValueP.ops_sub) m ρ)

end Cert.ReferenceIdeal.RefRun

end
-- ==== Proof.LibRealSums.lean ====
/-
  A real factor and a finite sum, in the extended reals. Multiplication does not distribute over sums of extended reals
  in general (an infinity of each sign spoils it), but it does over reals: a real factor distributes over a sum of two
  reals, and moves inside a finite sum of products of reals, (Σ f·g)·c = Σ f·(g·c). Also: the larger of two reals is a
  real. Nothing here mentions a program.
-/
import Mathlib.Algebra.BigOperators.Fin
import Mathlib.Data.EReal.Inv
import proofs.«132974_j3470333575753_2_alg».proof.Proof.LibIdealSums

open scoped BigOperators

namespace Cert.Lib.RealSums

open Cert.Lib.IdealSums

/-- The larger of two reals is a real. -/
theorem isReal_max {x y : EReal} (hx : IsReal x) (hy : IsReal y) : IsReal (max x y) := by
  rcases max_choice x y with h | h <;> rw [h] <;> assumption

/-- A real factor distributes over a sum of two reals. -/
theorem add_mul_of_isReal {u v c : EReal} (hu : IsReal u) (hv : IsReal v) (hc : IsReal c) :
    (u + v) * c = u * c + v * c := by
  obtain ⟨a, rfl⟩ := hu; obtain ⟨b, rfl⟩ := hv; obtain ⟨d, rfl⟩ := hc
  rw [← EReal.coe_add, ← EReal.coe_mul, ← EReal.coe_mul, ← EReal.coe_mul, ← EReal.coe_add, add_mul]

/-- A real factor moves inside a finite sum of products of reals: (Σ f·g)·c = Σ f·(g·c). -/
theorem sum_mul_of_isReal {ι : Type*} (s : Finset ι) (f g : ι → EReal) (c : EReal)
    (hf : ∀ i ∈ s, IsReal (f i)) (hg : ∀ i ∈ s, IsReal (g i)) (hc : IsReal c) :
    (∑ i ∈ s, f i * g i) * c = ∑ i ∈ s, f i * (g i * c) := by
  classical
  induction s using Finset.induction_on with
  | empty => simp
  | insert a s ha ih =>
    have hs : IsReal (∑ i ∈ s, f i * g i) :=
      IsReal.sum s fun i hi => (hf i (Finset.mem_insert_of_mem hi)).mul (hg i (Finset.mem_insert_of_mem hi))
    have ha' : IsReal (f a * g a) := (hf a (Finset.mem_insert_self a s)).mul (hg a (Finset.mem_insert_self a s))
    rw [Finset.sum_insert ha, Finset.sum_insert ha, add_mul_of_isReal ha' hs hc, mul_assoc,
      ih (fun i hi => hf i (Finset.mem_insert_of_mem hi)) (fun i hi => hg i (Finset.mem_insert_of_mem hi))]

end Cert.Lib.RealSums
-- ==== Proof.LibRowGather.lean ====
/-
  Rows of a table picked by an array of integer words: what `table[idx]` lowers to on the host, read at an index.
  The table has N rows of D entries. Every start word is read as a signed integer and clamped into [0, N − 1]
  (StableHLO's gather clamps each start index so that the one-row slice fits); the result's row b is the table's
  row at that clamped position, entry for entry. Two spellings of the index array occur: B×1 words giving a B×D
  result, and B×1×1 words giving a B×1×D result. Nothing here mentions a program.
-/
import Idealize.ShloMosaic.PureOps.ShapeOps
import Idealize.ShloMosaic.Lib.ValueIdx

namespace Cert.Lib.RowGather

open Idealize.ShloMosaic Idealize.ShloMosaic.ValueIdx

section Rows
variable {α : Type}

/-- The row of an N-row table that a start word selects: the word read signed, clamped into [0, N − 1]. -/
def rowOf (N : Nat) (hN : 0 < N) {w : Nat} (v : BitVec w) : Fin N := ⟨min v.toInt.toNat (N - 1), by omega⟩

/-- The dimension numbers of a row gather with a B×1 index array: the result's axis 1 is the row's entries, the
    table's axis 0 is collapsed and addressed by the one component of each start index. -/
abbrev rowsDims (N B D : Nat)
    (wf : GatherDims.WF ⟨2, ![N, D]⟩ ⟨2, ![B, 1]⟩ ⟨2, ![B, D]⟩ [1] [0] [] [0] [] 1 ![1, D]) :
    GatherDims ⟨2, ![N, D]⟩ ⟨2, ![B, 1]⟩ ⟨2, ![B, D]⟩ where
  offsetDims := [1]
  collapsedSliceDims := [0]
  operandBatchingDims := []
  startIndicesBatchingDims := []
  startIndexMap := [0]
  indexVectorDim := 1
  sliceSizes := ![1, D]
  wf := wf

/-- Entry (b, q) of the gathered rows is entry q of the table's row selected by the word at (b, 0). -/
theorem gather_rows_apply {N B D w : Nat} (hN : 0 < N)
    (wf : GatherDims.WF ⟨2, ![N, D]⟩ ⟨2, ![B, 1]⟩ ⟨2, ![B, D]⟩ [1] [0] [] [0] [] 1 ![1, D])
    (x : (⟨2, ![N, D]⟩ : Shape).Idx → α) (idx : IVec ⟨2, ![B, 1]⟩ w) (b : Fin B) (q : Fin D) :
    Host.gather (rowsDims N B D wf) x idx (ix2 b q) = x (ix2 (rowOf N hN (idx (ix2 b 0))) q) := by
  unfold Host.gather
  refine congrArg x ?_
  funext a
  refine Fin.ext ?_
  match a with
  | ⟨0, _⟩ =>
    show (rowsDims N B D wf).start (ix2 b q) idx (0 : Fin 2) + (rowsDims N B D wf).batchCoord (ix2 b q) (0 : Fin 2)
        + (rowsDims N B D wf).offCoord (ix2 b q) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N B D wf).startIndexMap from List.mem_singleton.mpr rfl)]
    have hsi : (rowsDims N B D wf).siIdx (ix2 b q) ⟨List.idxOf (0 : Fin 2) (rowsDims N B D wf).startIndexMap,
        List.idxOf_lt_length_iff.2 (List.mem_singleton.mpr rfl)⟩ = ix2 b 0 := by
      funext c; refine Fin.ext ?_
      match c with
      | ⟨0, _⟩ => rfl
      | ⟨1, _⟩ => rfl
    rw [hsi]
    rfl
  | ⟨1, _⟩ =>
    have hs : (rowsDims N B D wf).start (ix2 b q) idx (1 : Fin 2) = 0 := by
      unfold GatherDims.start
      rw [dif_neg (show (1 : Fin 2) ∉ [(0 : Fin 2)] from by decide)]
    have ho : (rowsDims N B D wf).offCoord (ix2 b q) (1 : Fin 2) = q.val := by
      unfold GatherDims.offCoord
      rw [dif_pos ((GatherDims.mem_sKept _ _).mpr ⟨(show (1 : Fin 2) ∉ [(0 : Fin 2)] from by decide), List.not_mem_nil⟩)]
      rfl
    show (rowsDims N B D wf).start (ix2 b q) idx (1 : Fin 2) + (rowsDims N B D wf).batchCoord (ix2 b q) (1 : Fin 2)
        + (rowsDims N B D wf).offCoord (ix2 b q) (1 : Fin 2) = q.val
    rw [GatherDims.batchCoord_eq_zero _ _ _ List.not_mem_nil, hs, ho]; omega

/-- The dimension numbers of a row gather with a B×1×1 index array: the result is B×1×D, its last axis the row's
    entries. -/
abbrev rowsDims3 (N B D : Nat)
    (wf : GatherDims.WF ⟨2, ![N, D]⟩ ⟨3, ![B, 1, 1]⟩ ⟨3, ![B, 1, D]⟩ [2] [0] [] [0] [] 2 ![1, D]) :
    GatherDims ⟨2, ![N, D]⟩ ⟨3, ![B, 1, 1]⟩ ⟨3, ![B, 1, D]⟩ where
  offsetDims := [2]
  collapsedSliceDims := [0]
  operandBatchingDims := []
  startIndicesBatchingDims := []
  startIndexMap := [0]
  indexVectorDim := 2
  sliceSizes := ![1, D]
  wf := wf

/-- Entry (b, 0, q) of the gathered rows is entry q of the table's row selected by the word at (b, 0, 0). -/
theorem gather_rows3_apply {N B D w : Nat} (hN : 0 < N)
    (wf : GatherDims.WF ⟨2, ![N, D]⟩ ⟨3, ![B, 1, 1]⟩ ⟨3, ![B, 1, D]⟩ [2] [0] [] [0] [] 2 ![1, D])
    (x : (⟨2, ![N, D]⟩ : Shape).Idx → α) (idx : IVec ⟨3, ![B, 1, 1]⟩ w) (b : Fin B) (q : Fin D) :
    Host.gather (rowsDims3 N B D wf) x idx (ix3 b 0 q) = x (ix2 (rowOf N hN (idx (ix3 b 0 0))) q) := by
  unfold Host.gather
  refine congrArg x ?_
  funext a
  refine Fin.ext ?_
  match a with
  | ⟨0, _⟩ =>
    show (rowsDims3 N B D wf).start (ix3 b 0 q) idx (0 : Fin 2) + (rowsDims3 N B D wf).batchCoord (ix3 b 0 q) (0 : Fin 2)
        + (rowsDims3 N B D wf).offCoord (ix3 b 0 q) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims3 N B D wf).startIndexMap from List.mem_singleton.mpr rfl)]
    have hsi : (rowsDims3 N B D wf).siIdx (ix3 b 0 q) ⟨List.idxOf (0 : Fin 2) (rowsDims3 N B D wf).startIndexMap,
        List.idxOf_lt_length_iff.2 (List.mem_singleton.mpr rfl)⟩ = ix3 b 0 0 := by
      funext c; refine Fin.ext ?_
      match c with
      | ⟨0, _⟩ => rfl
      | ⟨1, _⟩ => rfl
      | ⟨2, _⟩ => rfl
    rw [hsi]
    rfl
  | ⟨1, _⟩ =>
    have hs : (rowsDims3 N B D wf).start (ix3 b 0 q) idx (1 : Fin 2) = 0 := by
      unfold GatherDims.start
      rw [dif_neg (show (1 : Fin 2) ∉ [(0 : Fin 2)] from by decide)]
    have ho : (rowsDims3 N B D wf).offCoord (ix3 b 0 q) (1 : Fin 2) = q.val := by
      unfold GatherDims.offCoord
      rw [dif_pos ((GatherDims.mem_sKept _ _).mpr ⟨(show (1 : Fin 2) ∉ [(0 : Fin 2)] from by decide), List.not_mem_nil⟩)]
      rfl
    show (rowsDims3 N B D wf).start (ix3 b 0 q) idx (1 : Fin 2) + (rowsDims3 N B D wf).batchCoord (ix3 b 0 q) (1 : Fin 2)
        + (rowsDims3 N B D wf).offCoord (ix3 b 0 q) (1 : Fin 2) = q.val
    rw [GatherDims.batchCoord_eq_zero _ _ _ List.not_mem_nil, hs, ho]; omega

end Rows

end Cert.Lib.RowGather
-- ==== Proof.LibVecGather.lean ====
/-
  Entries of a one-axis table picked by an array of integer words: what `table[idx]` of a flat table lowers to on
  the host when the words sit in a B×1 array, read at an index. The table has N entries. Every start word is read
  as a signed integer and clamped into [0, N − 1] (the gather clamps each start index so that the one-entry slice
  fits); entry b of the result is the table's entry at that clamped position. Nothing here mentions a program.
-/
import Idealize.ShloMosaic.PureOps.ShapeOps
import Idealize.ShloMosaic.Lib.ValueIdx
import proofs.«132974_j3470333575753_2_alg».proof.Proof.LibRowGather

namespace Cert.Lib.VecGather

open Idealize.ShloMosaic Idealize.ShloMosaic.ValueIdx

variable {α : Type} {N B w : Nat}

/-- The dimension numbers of an entry gather with a B×1 index array: no offset axes in the result, the table's
    one axis collapsed and addressed by the one component of each start index, the index vector along axis 1. -/
abbrev vecDims (N B : Nat) (wf : GatherDims.WF ⟨1, ![N]⟩ ⟨2, ![B, 1]⟩ ⟨1, ![B]⟩ [] [0] [] [0] [] 1 ![1]) :
    GatherDims ⟨1, ![N]⟩ ⟨2, ![B, 1]⟩ ⟨1, ![B]⟩ where
  offsetDims := []
  collapsedSliceDims := [0]
  operandBatchingDims := []
  startIndicesBatchingDims := []
  startIndexMap := [0]
  indexVectorDim := 1
  sliceSizes := ![1]
  wf := wf

/-- Entry b of the gathered vector is the table's entry selected by the word at (b, 0), read signed and clamped
    into [0, N − 1]. -/
theorem gather_vec_apply (hN : 0 < N) (wf : GatherDims.WF ⟨1, ![N]⟩ ⟨2, ![B, 1]⟩ ⟨1, ![B]⟩ [] [0] [] [0] [] 1 ![1])
    (x : (⟨1, ![N]⟩ : Shape).Idx → α) (idx : IVec ⟨2, ![B, 1]⟩ w) (b : Fin B) :
    Host.gather (vecDims N B wf) x idx (ix1 b) = x (ix1 (Cert.Lib.RowGather.rowOf N hN (idx (ix2 b 0)))) := by
  unfold Host.gather
  refine congrArg x ?_
  funext a
  obtain rfl : a = 0 := Subsingleton.elim _ _
  refine Fin.ext ?_
  show (vecDims N B wf).start (ix1 b) idx (0 : Fin 1) + (vecDims N B wf).batchCoord (ix1 b) (0 : Fin 1)
      + (vecDims N B wf).offCoord (ix1 b) (0 : Fin 1) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N B wf).startIndexMap from List.mem_singleton.mpr rfl)]
  have hsi : (vecDims N B wf).siIdx (ix1 b) ⟨List.idxOf (0 : Fin 1) (vecDims N B wf).startIndexMap,
      List.idxOf_lt_length_iff.2 (List.mem_singleton.mpr rfl)⟩ = ix2 b 0 := by
    funext c; refine Fin.ext ?_
    match c with
    | ⟨0, _⟩ => rfl
    | ⟨1, _⟩ => rfl
  rw [hsi]
  rfl

end Cert.Lib.VecGather
-- ==== Proof.LibScatterRows.lean ====
/-
  A host scatter whose every update is one row of D entries, addressed by a one-component index: the operand is
  an N×D array, there are M update rows, and row r of the updates is aimed at the operand row whose number is the
  signed reading of index word r; its entry q goes to entry q of that row. An update row whose number is outside
  0 … N − 1 is dropped. Here: update (r, q) lands on element (p, q') exactly when index word r reads p and q = q';
  and, on the extended reals with an add body, the result at (p, q') is the operand's element plus the sum of the
  update entries (r, q') over the rows r whose index word reads p.
-/
import Idealize.ShloMosaic.PureOps.Ideal
import Idealize.ShloMosaic.PureOps.Ideal.Laws
import Idealize.ShloMosaic.Lib.ValueIdx

noncomputable section

namespace Cert.Lib.ScatterRows

open Idealize.ShloMosaic Idealize.ShloMosaic.ValueIdx

variable {N M D w : Nat}

/-- The dimension numbers of such a scatter: axis 1 of the updates is the window axis (a row's entries), the
    operand's axis 0 is inserted and addressed by component 0 of the index vector, the index vector along axis 1. -/
abbrev dims (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ :=
  ScatterDims.mk [1] [0] [0] 1 wf

/-- Update (r, q) reads its index at row r of the M×1 index array. -/
theorem siIdx_eq (wf : ScatterDims.WF ⟨2, ![N, D]⟩ ⟨2, ![M, 1]⟩ ⟨2, ![M, D]⟩ [1] [0] [0] 1)
    (j : (⟨2, ![M, D]⟩ : Shape).Idx) (c : Fin (dims wf).scatterDimsToOperandDims.length) :
    (dims wf).siIdx j c = ix2 (⟨(j 0).val, idx2_lt0 j⟩ : Fin M) (0 : Fin 1) := by
  funext b
  apply Fin.ext
  match b with
  | ⟨0, _⟩ => rfl
  | ⟨1, _⟩ =>
    have : c.val < 1 := c.isLt
    have : c.val = 0 := by omega
    show c.val = 0
    exact this

/-- On the operand's row axis the start of update (r, q) is the signed reading of index word r. -/
theorem start_zero (wf : ScatterDims.WF ⟨2, ![N, D]⟩ ⟨2, ![M, 1]⟩ ⟨2, ![M, D]⟩ [1] [0] [0] 1)
    (j : (⟨2, ![M, D]⟩ : Shape).Idx) (idx : IVec ⟨2, ![M, 1]⟩ w) :
    (dims wf).start j idx (0 : Fin 2) = (idx (ix2 (⟨(j 0).val, idx2_lt0 j⟩ : Fin M) (0 : Fin 1))).toInt := by
  unfold ScatterDims.start
  have ha : (0 : Fin 2) ∈ ([0] : List (Fin 2)) := List.mem_singleton_self _
  rw [dif_pos ha]
  exact congrArg (fun k => (idx k).toInt) (siIdx_eq wf j _)

/-- On the operand's entry axis, which no index component names, the start is 0. -/
theorem start_one (wf : ScatterDims.WF ⟨2, ![N, D]⟩ ⟨2, ![M, 1]⟩ ⟨2, ![M, D]⟩ [1] [0] [0] 1)
    (j : (⟨2, ![M, D]⟩ : Shape).Idx) (idx : IVec ⟨2, ![M, 1]⟩ w) :
    (dims wf).start j idx (1 : Fin 2) = 0 := by
  unfold ScatterDims.start
  rw [dif_neg (show (1 : Fin 2) ∉ ([0] : List (Fin 2)) from by decide)]

/-- An update has no extent along the operand's row axis. -/
theorem window_zero (wf : ScatterDims.WF ⟨2, ![N, D]⟩ ⟨2, ![M, 1]⟩ ⟨2, ![M, D]⟩ [1] [0] [0] 1)
    (j : (⟨2, ![M, D]⟩ : Shape).Idx) : (dims wf).window j (0 : Fin 2) = 0 := by
  unfold ScatterDims.window
  rw [dif_neg]
  show (0 : Fin 2) ∉ (List.finRange 2).filter (· ∉ ([0] : List (Fin 2)))
  decide

/-- Along the operand's entry axis the window coordinate of update (r, q) is q. -/
theorem window_one (wf : ScatterDims.WF ⟨2, ![N, D]⟩ ⟨2, ![M, 1]⟩ ⟨2, ![M, D]⟩ [1] [0] [0] 1)
    (j : (⟨2, ![M, D]⟩ : Shape).Idx) : (dims wf).window j (1 : Fin 2) = (j 1).val := by
  unfold ScatterDims.window
  have h1 : (1 : Fin 2) ∈ (dims wf).sKept := by
    show (1 : Fin 2) ∈ (List.finRange 2).filter (· ∉ ([0] : List (Fin 2)))
    decide
  rw [dif_pos h1]
  rfl

/-- Update (r, q) lands on element (p, q') exactly when the index word of row r, read signed, is p, and q = q'. -/
theorem resultIdx_iff (wf : ScatterDims.WF ⟨2, ![N, D]⟩ ⟨2, ![M, 1]⟩ ⟨2, ![M, D]⟩ [1] [0] [0] 1)
    (j : (⟨2, ![M, D]⟩ : Shape).Idx) (idx : IVec ⟨2, ![M, 1]⟩ w) (i : (⟨2, ![N, D]⟩ : Shape).Idx) :
    (dims wf).resultIdx? j idx = some i ↔
      (idx (ix2 (⟨(j 0).val, idx2_lt0 j⟩ : Fin M) (0 : Fin 1))).toInt = ((i 0).val : Int) ∧ (j 1).val = (i 1).val := by
  unfold ScatterDims.resultIdx?
  have hlt0 : (i 0).val < N := idx2_lt0 i
  have hlt1 : (i 1).val < D := idx2_lt1 i
  have hj1 : (j 1).val < D := idx2_lt1 j
  constructor
  · intro h
    split_ifs at h with hc
    have h0 : ((dims wf).start j idx 0 + ((dims wf).window j 0 : Nat)).toNat = (i 0).val :=
      congrArg (fun k => (k 0).val) (Option.some.inj h)
    have h1 : ((dims wf).start j idx 1 + ((dims wf).window j 1 : Nat)).toNat = (i 1).val :=
      congrArg (fun k => (k 1).val) (Option.some.inj h)
    have hc0 := hc 0
    rw [start_zero, window_zero] at hc0 h0
    rw [start_one, window_one] at h1
    constructor
    · omega
    · omega
  · rintro ⟨h, hq⟩
    have hc : ∀ a : Fin 2, 0 ≤ (dims wf).start j idx a + ((dims wf).window j a : Nat)
        ∧ (dims wf).start j idx a + ((dims wf).window j a : Nat) < ((⟨2, ![N, D]⟩ : Shape).size a : Nat) := fun a => by
      match a with
      | ⟨0, _⟩ =>
        show 0 ≤ (dims wf).start j idx (0 : Fin 2) + ((dims wf).window j (0 : Fin 2) : Nat)
          ∧ (dims wf).start j idx (0 : Fin 2) + ((dims wf).window j (0 : Fin 2) : Nat) < (N : Int)
        rw [start_zero, window_zero, h]
        omega
      | ⟨1, _⟩ =>
        show 0 ≤ (dims wf).start j idx (1 : Fin 2) + ((dims wf).window j (1 : Fin 2) : Nat)
          ∧ (dims wf).start j idx (1 : Fin 2) + ((dims wf).window j (1 : Fin 2) : Nat) < (D : Int)
        rw [start_one, window_one]
        omega
    rw [dif_pos hc]
    congr 1
    funext a
    apply Fin.ext
    match a with
    | ⟨0, _⟩ =>
      show ((dims wf).start j idx (0 : Fin 2) + ((dims wf).window j (0 : Fin 2) : Nat)).toNat = (i 0).val
      rw [start_zero, window_zero, h]
      omega
    | ⟨1, _⟩ =>
      show ((dims wf).start j idx (1 : Fin 2) + ((dims wf).window j (1 : Fin 2) : Nat)).toNat = (i 1).val
      rw [start_one, window_one]
      omega

/-- The accumulating scatter at element (p, q'): the operand's element plus the update entries (r, q) with q = q'
    whose row's index word reads p. -/
theorem scatterAdd_apply (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (i : (⟨2, ![N, D]⟩ : Shape).Idx) :
    Ideal.hostScatterAdd (dims wf) x idx upd i
      = x i + ∑ j : (⟨2, ![M, D]⟩ : Shape).Idx,
          if (idx (ix2 (⟨(j 0).val, idx2_lt0 j⟩ : Fin M) (0 : Fin 1))).toInt = ((i 0).val : Int) ∧ (j 1).val = (i 1).val
          then upd j else 0 := by
  unfold Ideal.hostScatterAdd
  rw [Finset.sum_filter]
  congr 1
  refine Finset.sum_congr rfl fun j _ => ?_
  simp only [resultIdx_iff]

end Cert.Lib.ScatterRows

end
-- ==== Proof.Law.lean ====
/-
  The law that joins the two programs, on the extended reals. Rows of a table T are gathered along the edges'
  source words and accumulated at the edges' destination words. One program scales row p of T by a per-node factor
  dis(p) before the gather and scales row p of the accumulated result by dis(p) afterwards; the other multiplies
  every gathered row by the product of dis at the edge's source and dis at the edge's destination. At an element
  (p, q) both are sums over the same edges, those whose destination word reads p; in the second sum the factor at
  the destination is dis(p) for each of these edges, so it is the common factor of the first sum. Moving a common
  factor into a finite sum needs every number involved to be a real.
-/
import Idealize.ShloMosaic.PureOps.Ideal
import Idealize.ShloMosaic.PureOps.Ideal.Laws
import Idealize.ShloMosaic.Lib.ValueIdx
import proofs.«132974_j3470333575753_2_alg».proof.Proof.LibIdealSums
import proofs.«132974_j3470333575753_2_alg».proof.Proof.LibRealSums
import proofs.«132974_j3470333575753_2_alg».proof.Proof.LibRowReductions
import proofs.«132974_j3470333575753_2_alg».proof.Proof.LibRowVector
import Idealize.ShloMosaic.Lib.ValueLayout
import Idealize.ShloMosaic.Lib.IdealHost
import proofs.«132974_j3470333575753_2_alg».proof.Proof.LibRowGather
import proofs.«132974_j3470333575753_2_alg».proof.Proof.LibVecGather
import proofs.«132974_j3470333575753_2_alg».proof.Proof.LibScatterRows
import proofs.«132974_j3470333575753_2_alg».proof.Proof.Spec

open scoped BigOperators

noncomputable section

namespace Cert.Gcn.Law

open Idealize.ShloMosaic Idealize.ShloMosaic.ValueIdx Cert.Lib.IdealSums Cert.Lib.RealSums Cert.Lib.RowReductions
  Cert.Lib.RowGather Cert.Lib.VecGather Cert.Lib.ScatterRows Cert.Gcn

variable {N M D : Nat}

/-- The table row that the source word of update j selects. -/
def srcRow (hN : 0 < N) (srcI : IVec ⟨2, ![M, 1]⟩ 32) (j : (⟨2, ![M, D]⟩ : Shape).Idx) : Fin N :=
  rowOf N hN (srcI (ix2 (⟨(j 0).val, idx2_lt0 j⟩ : Fin M) (0 : Fin 1)))

/-- Scaling before the gather and after the accumulation is scaling every gathered row by the product of the scales
    at the edge's two ends, when the table and the scales hold reals and an edge that lands on row p has its
    destination's gathered scale taken at p. -/
theorem conv_law (hN : 0 < N)
    (wfg : GatherDims.WF ⟨2, ![N, D]⟩ ⟨2, ![M, 1]⟩ ⟨2, ![M, D]⟩ [1] [0] [] [0] [] 1 ![1, D])
    (wfs : ScatterDims.WF ⟨2, ![N, D]⟩ ⟨2, ![M, 1]⟩ ⟨2, ![M, D]⟩ [1] [0] [0] 1)
    (wf1 : GatherDims.WF ⟨1, ![N]⟩ ⟨2, ![M, 1]⟩ ⟨1, ![M]⟩ [] [0] [] [0] [] 1 ![1])
    (hb1 : (⟨1, ![M]⟩ : Shape).BroadcastsInDim ⟨2, ![M, 1]⟩ ![0])
    (hb2 : (⟨2, ![M, 1]⟩ : Shape).BroadcastsInDim ⟨2, ![M, D]⟩ ![0, 1])
    (hc : (⟨1, ![N]⟩ : Shape).ShapeCasts ⟨2, ![N, 1]⟩)
    (srcI dstI dstwI : IVec ⟨2, ![M, 1]⟩ 32)
    (hland : ∀ (r : Fin M) (p : Fin N), (dstI (ix2 r 0)).toInt = (p.val : Int) → rowOf N hN (dstwI (ix2 r 0)) = p)
    (T : (⟨2, ![N, D]⟩ : Shape).Idx → EReal) (dis : (⟨1, ![N]⟩ : Shape).Idx → EReal)
    (hT : ∀ i, IsReal (T i)) (hd : ∀ i, IsReal (dis i)) :
    scaleCol (Ideal.hostScatterAdd (dims wfs) (fun _ => (0 : EReal)) dstI
        (Host.gather (rowsDims N M D wfg) (scaleCol T (shapeCast ⟨2, ![N, 1]⟩ dis hc)) srcI)) (shapeCast ⟨2, ![N, 1]⟩ dis hc)
      = Ideal.hostScatterAdd (dims wfs) (fun _ => (0 : EReal)) dstI
          (mulf (F := Ideal) (φ := .f32) (Host.gather (rowsDims N M D wfg) T srcI)
            (broadcastInDim ⟨2, ![M, D]⟩ ![0, 1] hb2 (broadcastInDim ⟨2, ![M, 1]⟩ ![0] hb1
              (mulf (F := Ideal) (φ := .f32) (Host.gather (vecDims N M wf1) dis srcI)
                (Host.gather (vecDims N M wf1) dis dstwI))))) := by
  funext i
  obtain ⟨p, q, rfl⟩ : ∃ (p : Fin N) (q : Fin D), i = ix2 p q := ⟨i 0, i 1, eq_ix2 i⟩
  rw [scaleCol_apply, shapeCast_col_apply]
  unfold Ideal.hostScatterAdd
  simp only [zero_add]
  -- a gathered entry of the scaled table
  have hL : ∀ j : (⟨2, ![M, D]⟩ : Shape).Idx,
      Host.gather (rowsDims N M D wfg) (scaleCol T (shapeCast ⟨2, ![N, 1]⟩ dis hc)) srcI j
        = T (ix2 (srcRow hN srcI j) (⟨(j 1).val, idx2_lt1 j⟩ : Fin D)) * dis (ix1 (srcRow hN srcI j)) := by
    intro j
    obtain ⟨r, q', rfl⟩ : ∃ (r : Fin M) (q' : Fin D), j = ix2 r q' := ⟨j 0, j 1, eq_ix2 j⟩
    rw [gather_rows_apply hN, scaleCol_apply, shapeCast_col_apply]
    rfl
  -- a gathered entry times the product of the two gathered scales, for an edge that lands on row p
  have hR : ∀ j ∈ Finset.univ.filter (fun j : (⟨2, ![M, D]⟩ : Shape).Idx => (dims wfs).resultIdx? j dstI = some (ix2 p q)),
      mulf (F := Ideal) (φ := .f32) (Host.gather (rowsDims N M D wfg) T srcI)
          (broadcastInDim ⟨2, ![M, D]⟩ ![0, 1] hb2 (broadcastInDim ⟨2, ![M, 1]⟩ ![0] hb1
            (mulf (F := Ideal) (φ := .f32) (Host.gather (vecDims N M wf1) dis srcI)
              (Host.gather (vecDims N M wf1) dis dstwI)))) j
        = T (ix2 (srcRow hN srcI j) (⟨(j 1).val, idx2_lt1 j⟩ : Fin D)) * (dis (ix1 (srcRow hN srcI j)) * dis (ix1 p)) := by
    intro j hj
    obtain ⟨r, q', rfl⟩ : ∃ (r : Fin M) (q' : Fin D), j = ix2 r q' := ⟨j 0, j 1, eq_ix2 j⟩
    have h := (resultIdx_iff wfs _ dstI _).mp (Finset.mem_filter.mp hj).2
    have hp : rowOf N hN (dstwI (ix2 r 0)) = p := hland r p h.1
    rw [mulf_apply, gather_rows_apply hN, bcastInDim_cols_apply, bcastInDim_col_apply, mulf_apply,
      gather_vec_apply hN, gather_vec_apply hN, hp]
    rfl
  calc (∑ j ∈ Finset.univ.filter (fun j : (⟨2, ![M, D]⟩ : Shape).Idx => (dims wfs).resultIdx? j dstI = some (ix2 p q)),
          Host.gather (rowsDims N M D wfg) (scaleCol T (shapeCast ⟨2, ![N, 1]⟩ dis hc)) srcI j) * dis (ix1 p)
      = (∑ j ∈ Finset.univ.filter (fun j : (⟨2, ![M, D]⟩ : Shape).Idx => (dims wfs).resultIdx? j dstI = some (ix2 p q)),
          T (ix2 (srcRow hN srcI j) (⟨(j 1).val, idx2_lt1 j⟩ : Fin D)) * dis (ix1 (srcRow hN srcI j))) * dis (ix1 p) := by
        rw [Finset.sum_congr rfl fun j _ => hL j]
    _ = ∑ j ∈ Finset.univ.filter (fun j : (⟨2, ![M, D]⟩ : Shape).Idx => (dims wfs).resultIdx? j dstI = some (ix2 p q)),
          T (ix2 (srcRow hN srcI j) (⟨(j 1).val, idx2_lt1 j⟩ : Fin D)) * (dis (ix1 (srcRow hN srcI j)) * dis (ix1 p)) :=
        sum_mul_of_isReal _ _ _ _ (fun j _ => hT _) (fun j _ => hd _) (hd _)
    _ = _ := Finset.sum_congr rfl fun j hj => (hR j hj).symm

/-- An index word that reads p, a row number, is not negative, so wrapping leaves it alone, and clamping into the
    table's rows gives p back: an edge that lands on row p has its wrapped destination word select row p. -/
theorem wrap_land (hN : 0 < N) (h0 : (⟨0, ![]⟩ : Shape).BroadcastsInDim ⟨1, ![M]⟩ ![])
    (hb1 : (⟨1, ![M]⟩ : Shape).BroadcastsInDim ⟨2, ![M, 1]⟩ ![0]) (cN : BitVec 32) (d : IVec ⟨1, ![M]⟩ 32)
    (r : Fin M) (p : Fin N)
    (h : (broadcastInDim ⟨2, ![M, 1]⟩ ![0] hb1 d (ix2 r 0)).toInt = (p.val : Int)) :
    rowOf N hN (broadcastInDim ⟨2, ![M, 1]⟩ ![0] hb1
      (select (cmpi .slt d (broadcastInDim ⟨1, ![M]⟩ ![] h0 (constantI ⟨0, ![]⟩ 32 0#32)))
        (addi d (broadcastInDim ⟨1, ![M]⟩ ![] h0 (constantI ⟨0, ![]⟩ 32 cN))) d) (ix2 r 0)) = p := by
  rw [bcastInDim_col_apply] at h ⊢
  rw [select_apply]
  have hs : cmpi .slt d (broadcastInDim ⟨1, ![M]⟩ ![] h0 (constantI ⟨0, ![]⟩ 32 0#32)) (ix1 r) = 0#1 := by
    show IntOp.cmpi .slt (d (ix1 r)) (broadcastInDim ⟨1, ![M]⟩ ![] h0 (constantI ⟨0, ![]⟩ 32 0#32) (ix1 r)) = 0#1
    rw [Cert.Lib.RowVector.bcastInDim_scalar_apply, constantI_apply]
    show BitVec.ofBool ((d (ix1 r)).slt 0#32) = 0#1
    have : (d (ix1 r)).slt 0#32 = false := by
      simp only [BitVec.slt, BitVec.toInt_zero, decide_eq_false_iff_not, not_lt]
      omega
    rw [this]; rfl
  rw [hs]
  show rowOf N hN (d (ix1 r)) = p
  apply Fin.ext
  show min (d (ix1 r)).toInt.toNat (N - 1) = p.val
  have := p.isLt
  omega

/-- The accumulation of reals onto zeros holds reals. -/
theorem isReal_scatter {s si su : Shape} (d : ScatterDims s si su) {w : Nat} (idx : IVec si w) (upd : su.Idx → EReal)
    (hu : ∀ j, IsReal (upd j)) (i : s.Idx) : IsReal (Ideal.hostScatterAdd d (fun _ => (0 : EReal)) idx upd i) := by
  unfold Ideal.hostScatterAdd
  exact isReal_zero.add (IsReal.sum _ fun j _ => hu j)

/-! ## The same facts in the programs' spelling, over shapes that stay variables -/

/-- A splat of the zero word is the zero array. -/
theorem zeros_eq {s : Shape} (h : (⟨0, ![]⟩ : Shape).BroadcastsInDim s ![]) :
    broadcastInDim s ![] h (constant (F := Ideal) ⟨0, ![]⟩ .f32 0x00000000#32) = fun _ => (0 : EReal) := by
  funext i
  rw [Cert.Lib.RowVector.bcastInDim_scalar_apply]
  exact Ideal.ofBits_zero_f32

/-- The convolution law with the accumulations written as the host's scatter onto a splat of zeros. -/
theorem conv_law_host (hN : 0 < N)
    (wfg : GatherDims.WF ⟨2, ![N, D]⟩ ⟨2, ![M, 1]⟩ ⟨2, ![M, D]⟩ [1] [0] [] [0] [] 1 ![1, D])
    (wfs : ScatterDims.WF ⟨2, ![N, D]⟩ ⟨2, ![M, 1]⟩ ⟨2, ![M, D]⟩ [1] [0] [0] 1)
    (wf1 : GatherDims.WF ⟨1, ![N]⟩ ⟨2, ![M, 1]⟩ ⟨1, ![M]⟩ [] [0] [] [0] [] 1 ![1])
    (h0 : (⟨0, ![]⟩ : Shape).BroadcastsInDim ⟨2, ![N, D]⟩ ![])
    (hb1 : (⟨1, ![M]⟩ : Shape).BroadcastsInDim ⟨2, ![M, 1]⟩ ![0])
    (hb2 : (⟨2, ![M, 1]⟩ : Shape).BroadcastsInDim ⟨2, ![M, D]⟩ ![0, 1])
    (hc : (⟨1, ![N]⟩ : Shape).ShapeCasts ⟨2, ![N, 1]⟩)
    (srcI dstI dstwI : IVec ⟨2, ![M, 1]⟩ 32)
    (hland : ∀ (r : Fin M) (p : Fin N), (dstI (ix2 r 0)).toInt = (p.val : Int) → rowOf N hN (dstwI (ix2 r 0)) = p)
    (T : FVec Ideal ⟨2, ![N, D]⟩ .f32) (dis : FVec Ideal ⟨1, ![N]⟩ .f32)
    (hT : ∀ i, IsReal (T i)) (hd : ∀ i, IsReal (dis i)) :
    scaleCol (Host.scatterAdd (F := Ideal) (φ := .f32) (dims wfs)
        (broadcastInDim ⟨2, ![N, D]⟩ ![] h0 (constant (F := Ideal) ⟨0, ![]⟩ .f32 0x00000000#32)) dstI
        (Host.gather (rowsDims N M D wfg) (scaleCol T (shapeCast ⟨2, ![N, 1]⟩ dis hc)) srcI)) (shapeCast ⟨2, ![N, 1]⟩ dis hc)
      = Host.scatterAdd (F := Ideal) (φ := .f32) (dims wfs)
          (broadcastInDim ⟨2, ![N, D]⟩ ![] h0 (constant (F := Ideal) ⟨0, ![]⟩ .f32 0x00000000#32)) dstI
          (mulf (F := Ideal) (φ := .f32) (Host.gather (rowsDims N M D wfg) T srcI)
            (broadcastInDim ⟨2, ![M, D]⟩ ![0, 1] hb2 (broadcastInDim ⟨2, ![M, 1]⟩ ![0] hb1
              (mulf (F := Ideal) (φ := .f32) (Host.gather (vecDims N M wf1) dis srcI)
                (Host.gather (vecDims N M wf1) dis dstwI))))) := by
  rw [zeros_eq]
  exact conv_law hN wfg wfs wf1 hb1 hb2 hc srcI dstI dstwI hland T dis hT hd

/-- The reference's convolution of a table of reals with real scales holds reals. -/
theorem isReal_conv_host (wfg : GatherDims.WF ⟨2, ![N, D]⟩ ⟨2, ![M, 1]⟩ ⟨2, ![M, D]⟩ [1] [0] [] [0] [] 1 ![1, D])
    (wfs : ScatterDims.WF ⟨2, ![N, D]⟩ ⟨2, ![M, 1]⟩ ⟨2, ![M, D]⟩ [1] [0] [0] 1)
    (wf1 : GatherDims.WF ⟨1, ![N]⟩ ⟨2, ![M, 1]⟩ ⟨1, ![M]⟩ [] [0] [] [0] [] 1 ![1])
    (h0 : (⟨0, ![]⟩ : Shape).BroadcastsInDim ⟨2, ![N, D]⟩ ![])
    (hb1 : (⟨1, ![M]⟩ : Shape).BroadcastsInDim ⟨2, ![M, 1]⟩ ![0])
    (hb2 : (⟨2, ![M, 1]⟩ : Shape).BroadcastsInDim ⟨2, ![M, D]⟩ ![0, 1])
    (srcI dstI dstwI : IVec ⟨2, ![M, 1]⟩ 32)
    (T : FVec Ideal ⟨2, ![N, D]⟩ .f32) (dis : FVec Ideal ⟨1, ![N]⟩ .f32)
    (hT : ∀ i, IsReal (T i)) (hd : ∀ i, IsReal (dis i)) (i : (⟨2, ![N, D]⟩ : Shape).Idx) :
    IsReal (Host.scatterAdd (F := Ideal) (φ := .f32) (dims wfs)
        (broadcastInDim ⟨2, ![N, D]⟩ ![] h0 (constant (F := Ideal) ⟨0, ![]⟩ .f32 0x00000000#32)) dstI
        (mulf (F := Ideal) (φ := .f32) (Host.gather (rowsDims N M D wfg) T srcI)
          (broadcastInDim ⟨2, ![M, D]⟩ ![0, 1] hb2 (broadcastInDim ⟨2, ![M, 1]⟩ ![0] hb1
            (mulf (F := Ideal) (φ := .f32) (Host.gather (vecDims N M wf1) dis srcI)
              (Host.gather (vecDims N M wf1) dis dstwI))))) i) := by
  rw [zeros_eq]
  refine isReal_scatter _ _ _ (fun j => ?_) i
  exact IsReal.mul (hT _) (IsReal.mul (hd _) (hd _))

/-- A count — ones accumulated onto zeros — is a real at every element. -/
theorem isReal_count {s si su : Shape} (d : ScatterDims s si su) {w : Nat} (idx : IVec si w)
    (h0 : (⟨0, ![]⟩ : Shape).BroadcastsInDim s ![]) (h1 : (⟨0, ![]⟩ : Shape).BroadcastsInDim su ![]) (i : s.Idx) :
    IsReal (Host.scatterAdd (F := Ideal) (φ := .f32) d
      (broadcastInDim s ![] h0 (constant (F := Ideal) ⟨0, ![]⟩ .f32 0x00000000#32)) idx
      (broadcastInDim su ![] h1 (constant (F := Ideal) ⟨0, ![]⟩ .f32 0x3F800000#32)) i) := by
  rw [zeros_eq]
  refine isReal_scatter _ _ _ (fun j => ?_) i
  rw [Cert.Lib.RowVector.bcastInDim_scalar_apply]
  show IsReal (Ideal.ofBits .f32 0x3F800000#32)
  rw [Ideal.ofBits_one_f32]; exact isReal_one

/-- Where the degree is a positive real its inverse square root is a real; elsewhere the other branch is taken. -/
theorem isReal_select_rsqrt (g z0 z1 : EReal) (hg : IsReal g) (hz0 : z0 = 0) (hz1 : IsReal z1) :
    IsReal (Scalar.select (Ideal.cmp .ogt g z0) (Ideal.rsqrt g) z1) := by
  obtain ⟨r, rfl⟩ := hg
  subst hz0
  unfold Scalar.select
  by_cases hr : 0 < r
  · have hrs : IsReal (Ideal.rsqrt (r : EReal)) := by
      rw [Ideal.rsqrt_coe, if_neg (not_lt.2 hr.le), if_neg hr.ne']
      exact isReal_coe _
    split_ifs <;> assumption
  · have hc : Ideal.cmp .ogt (r : EReal) 0 = 0#1 := by
      show BitVec.ofBool (decide ((0 : EReal) < (r : EReal))) = 0#1
      have : ¬ ((0 : EReal) < (r : EReal)) := by
        rw [show (0 : EReal) = ((0 : ℝ) : EReal) from rfl, EReal.coe_lt_coe_iff]; exact hr
      rw [decide_eq_false this]; rfl
    rw [hc, if_neg (by decide)]
    exact hz1

/-- The inverse square root of a real degree where it is positive, a zero splat elsewhere: a real at every element. -/
theorem isReal_scale {s : Shape} (G : FVec Ideal s .f32) (hG : ∀ i, IsReal (G i))
    (h0 : (⟨0, ![]⟩ : Shape).BroadcastsInDim s ![]) (i : s.Idx) :
    IsReal (select (cmpf (F := Ideal) .ogt G (broadcastInDim s ![] h0 (constant (F := Ideal) ⟨0, ![]⟩ .f32 0x00000000#32)))
      (Host.rsqrt (F := Ideal) G) (broadcastInDim s ![] h0 (id (constant (F := Ideal) ⟨0, ![]⟩ .f32 0x00000000#32))) i) := by
  rw [select_apply]
  show IsReal (Scalar.select (Ideal.cmp .ogt (G i) (broadcastInDim s ![] h0 (constant (F := Ideal) ⟨0, ![]⟩ .f32 0x00000000#32) i))
    (Ideal.rsqrt (G i)) (broadcastInDim s ![] h0 (id (constant (F := Ideal) ⟨0, ![]⟩ .f32 0x00000000#32)) i))
  rw [Cert.Lib.RowVector.bcastInDim_scalar_apply, Cert.Lib.RowVector.bcastInDim_scalar_apply]
  refine isReal_select_rsqrt _ _ _ (hG i) Ideal.ofBits_zero_f32 ?_
  show IsReal (Ideal.ofBits .f32 0x00000000#32)
  rw [Ideal.ofBits_zero_f32]; exact isReal_zero

end Cert.Gcn.Law

end
-- ==== Proof.LibGraphConv.lean ====
/-
  Graph-convolution layers on the extended reals: a propagation matrix A applied to a feature matrix H and a weight
  matrix W. A kernel may group the two products as (A·H)·W where the reference groups them as A·(H·W). Moving a factor
  into a sum is not a law of the extended reals (an infinity of each sign spoils it), but it is one over reals, so over
  arrays of reals the product of matrices is associative; and sums, products, bias additions and maxima with the zero
  word of reals are reals, so the property passes from layer to layer. An entry of a layer's result depends on one row
  of A, so a layer applied to a block of rows of A gives the same rows of the layer applied to A (`layer_at`,
  `proj_at`, `logSoftmax_layer_at`: the index inside the block and the index of the whole array as variables, the
  other operands equal by hypothesis). Nothing here mentions a program.
-/
import Mathlib.Algebra.BigOperators.Fin
import Mathlib.Data.EReal.Inv
import Idealize.ShloMosaic.PureOps.Ideal.Laws
import Idealize.ShloMosaic.Lib.ValueIdx
import proofs.«132974_j3470333575753_2_alg».proof.Proof.LibIdealSums
import proofs.«132974_j3470333575753_2_alg».proof.Proof.LibRealSums
import proofs.«132974_j3470333575753_2_alg».proof.Proof.LibMatProd
import proofs.«132974_j3470333575753_2_alg».proof.Proof.LibBiasRelu
import proofs.«132974_j3470333575753_2_alg».proof.Proof.LibDenseLayers
import proofs.«132974_j3470333575753_2_alg».proof.Proof.LibBlockReads
import proofs.«132974_j3470333575753_2_alg».proof.Proof.LibRowBlocks
import proofs.«132974_j3470333575753_2_alg».proof.Proof.LibInPlaceBodies
import proofs.«132974_j3470333575753_2_alg».proof.Proof.LibLogSoftmaxRows

open scoped BigOperators

noncomputable section

namespace Cert.Lib.GraphConv

open Idealize.ShloMosaic Idealize.ShloMosaic.ValueIdx Cert.Lib.IdealSums Cert.Lib.RealSums Cert.Lib.MatProd
  Cert.Lib.BiasRelu Cert.Layers

variable {m k n l : Nat}

/-- A real factor moves inside a finite sum of reals: c · Σ f = Σ c · f. -/
theorem mul_sum_of_isReal {ι : Type*} (s : Finset ι) (c : EReal) (f : ι → EReal) (hc : IsReal c)
    (hf : ∀ i ∈ s, IsReal (f i)) : c * ∑ i ∈ s, f i = ∑ i ∈ s, c * f i := by
  have h := sum_mul_of_isReal s f (fun _ => 1) c hf (fun _ _ => isReal_one) hc
  simp only [mul_one, one_mul] at h
  rw [mul_comm, h]
  exact Finset.sum_congr rfl fun i _ => mul_comm _ _

/-- Every entry of a product of two matrices of reals is a real. -/
theorem isReal_matProd (A : (⟨2, ![m, k]⟩ : Shape).Idx → EReal) (B : (⟨2, ![k, n]⟩ : Shape).Idx → EReal)
    (hA : ∀ i, IsReal (A i)) (hB : ∀ i, IsReal (B i)) (i : (⟨2, ![m, n]⟩ : Shape).Idx) : IsReal (matProd A B i) := by
  unfold matProd
  exact IsReal.sum _ fun c _ => (hA _).mul (hB _)

/-- The zero word is a real. -/
theorem isReal_zero_word : IsReal (Ideal.ofBits .f32 0x00000000#32) := by
  rw [Ideal.ofBits_zero_f32]; exact isReal_zero

/-- A bias row of reals added to a matrix of reals, clamped or not, has real entries. -/
theorem isReal_biasRelu (X : (⟨2, ![m, n]⟩ : Shape).Idx → EReal) (b : (⟨2, ![1, n]⟩ : Shape).Idx → EReal)
    (hX : ∀ i, IsReal (X i)) (hb : ∀ i, IsReal (b i)) (i : (⟨2, ![m, n]⟩ : Shape).Idx) : IsReal (biasRelu X b i) := by
  unfold biasRelu
  exact isReal_max ((hX i).add (hb _)) isReal_zero_word

theorem isReal_biasAdd (X : (⟨2, ![m, n]⟩ : Shape).Idx → EReal) (b : (⟨2, ![1, n]⟩ : Shape).Idx → EReal)
    (hX : ∀ i, IsReal (X i)) (hb : ∀ i, IsReal (b i)) (i : (⟨2, ![m, n]⟩ : Shape).Idx) : IsReal (biasAdd X b i) := by
  unfold biasAdd
  exact (hX i).add (hb _)

/-- A vector of reals as a row has real entries. -/
theorem isReal_asRow (v : (⟨1, ![n]⟩ : Shape).Idx → EReal) (hv : ∀ i, IsReal (v i)) (i : (⟨2, ![1, n]⟩ : Shape).Idx) :
    IsReal (Cert.Lib.RowVector.asRow v i) := hv _

/-- Over matrices of reals the product is associative: entry (p, q) of either grouping is the double sum over
    (d, c) of A(p, d) · H(d, c) · W(c, q), each factor moved into or out of the inner sum and the two sums exchanged. -/
theorem matProd_assoc (A : (⟨2, ![m, k]⟩ : Shape).Idx → EReal) (H : (⟨2, ![k, n]⟩ : Shape).Idx → EReal)
    (W : (⟨2, ![n, l]⟩ : Shape).Idx → EReal) (hA : ∀ i, IsReal (A i)) (hH : ∀ i, IsReal (H i)) (hW : ∀ i, IsReal (W i)) :
    matProd (matProd A H) W = matProd A (matProd H W) := by
  funext i
  obtain ⟨p, q, rfl⟩ : ∃ (p : Fin m) (q : Fin l), i = ix2 p q := ⟨i 0, i 1, eq_ix2 i⟩
  rw [matProd_apply, matProd_apply]
  calc ∑ c : Fin n, matProd A H (ix2 p c) * W (ix2 c q)
      = ∑ c : Fin n, ∑ d : Fin k, A (ix2 p d) * (H (ix2 d c) * W (ix2 c q)) :=
        Finset.sum_congr rfl fun c _ => by
          rw [matProd_apply]
          exact sum_mul_of_isReal _ _ _ _ (fun d _ => hA _) (fun d _ => hH _) (hW _)
    _ = ∑ d : Fin k, ∑ c : Fin n, A (ix2 p d) * (H (ix2 d c) * W (ix2 c q)) := Finset.sum_comm
    _ = ∑ d : Fin k, A (ix2 p d) * matProd H W (ix2 d q) :=
        Finset.sum_congr rfl fun d _ => by
          rw [matProd_apply]
          exact (mul_sum_of_isReal _ _ _ (hA _) fun c _ => (hH _).mul (hW _)).symm

/-! ## A loaded 1×n bias row beside an r×n block -/

/-- A 1×n row broadcast down the rows of an r×n block and added: the bias row added to every row. -/
theorem bias_row (M : FVec Ideal ⟨2, ![m, n]⟩ .f32) (row : FVec Ideal ⟨2, ![1, n]⟩ .f32)
    (hb : (⟨2, ![1, n]⟩ : Shape).Broadcasts ⟨2, ![m, n]⟩) :
    addf M (broadcastTo ⟨2, ![m, n]⟩ row hb) = biasAdd M row := by
  funext i
  obtain ⟨p, q, rfl⟩ : ∃ (p : Fin m) (q : Fin n), i = ix2 p q := ⟨i 0, i 1, eq_ix2 i⟩
  rw [addf_apply, Cert.Lib.BlockReads.broadcast_row_apply]
  rfl

/-- The same followed by the maximum with a splat of the zero word. -/
theorem bias_max_row (M : FVec Ideal ⟨2, ![m, n]⟩ .f32) (row : FVec Ideal ⟨2, ![1, n]⟩ .f32)
    (hb : (⟨2, ![1, n]⟩ : Shape).Broadcasts ⟨2, ![m, n]⟩) :
    maximumf (addf M (broadcastTo ⟨2, ![m, n]⟩ row hb))
      (broadcast ⟨2, ![m, n]⟩ (Scalar.ofBits (F := Ideal) .f32 0x00000000#32)) = biasRelu M row := by
  funext i
  obtain ⟨p, q, rfl⟩ : ∃ (p : Fin m) (q : Fin n), i = ix2 p q := ⟨i 0, i 1, eq_ix2 i⟩
  rw [maximumf_apply, addf_apply, Cert.Lib.BlockReads.broadcast_row_apply]
  rfl

/-! ## A block of rows of the propagation matrix gives the same rows of a layer -/

/-- max((A'·H')·W' + b', 0) at y is max((A·H)·W + b, 0) at i, when row (y 0) of A' is row (i 0) of A, the other
    operands are equal and y, i have the same column. -/
theorem layer_at {m' : Nat} (A : (⟨2, ![m, k]⟩ : Shape).Idx → EReal) (A' : (⟨2, ![m', k]⟩ : Shape).Idx → EReal)
    (H H' : (⟨2, ![k, n]⟩ : Shape).Idx → EReal) (W W' : (⟨2, ![n, l]⟩ : Shape).Idx → EReal)
    (b b' : (⟨2, ![1, l]⟩ : Shape).Idx → EReal) (y : (⟨2, ![m', l]⟩ : Shape).Idx) (i : (⟨2, ![m, l]⟩ : Shape).Idx)
    (hA : ∀ c : Fin k, A' (ix2 (⟨(y 0).val, idx2_lt0 y⟩ : Fin m') c) = A (ix2 (⟨(i 0).val, idx2_lt0 i⟩ : Fin m) c))
    (hH : H' = H) (hW : W' = W) (hb : b' = b) (hcol : (y 1).val = (i 1).val) :
    biasRelu (matProd (matProd A' H') W') b' y = biasRelu (matProd (matProd A H) W) b i := by
  subst hH hW hb
  refine Cert.Lib.InPlaceBodies.biasRelu_at _ _ _ y i (Cert.Lib.RowBlocks.matProd_rows _ _ _ y i (fun c => ?_) hcol) hcol
  exact matProd_block A A' H' H' _ c _ c hA fun _ => rfl

/-- The same layer followed by a projection: (max((A'·H')·W' + b', 0))·P' at y is the whole array's at i. -/
theorem proj_at {m' o : Nat} (A : (⟨2, ![m, k]⟩ : Shape).Idx → EReal) (A' : (⟨2, ![m', k]⟩ : Shape).Idx → EReal)
    (H H' : (⟨2, ![k, n]⟩ : Shape).Idx → EReal) (W W' : (⟨2, ![n, l]⟩ : Shape).Idx → EReal)
    (b b' : (⟨2, ![1, l]⟩ : Shape).Idx → EReal) (P P' : (⟨2, ![l, o]⟩ : Shape).Idx → EReal)
    (y : (⟨2, ![m', o]⟩ : Shape).Idx) (i : (⟨2, ![m, o]⟩ : Shape).Idx)
    (hA : ∀ c : Fin k, A' (ix2 (⟨(y 0).val, idx2_lt0 y⟩ : Fin m') c) = A (ix2 (⟨(i 0).val, idx2_lt0 i⟩ : Fin m) c))
    (hH : H' = H) (hW : W' = W) (hb : b' = b) (hP : P' = P) (hcol : (y 1).val = (i 1).val) :
    matProd (biasRelu (matProd (matProd A' H') W') b') P' y = matProd (biasRelu (matProd (matProd A H) W) b) P i := by
  subst hP
  refine Cert.Lib.RowBlocks.matProd_rows _ _ _ y i (fun c => ?_) hcol
  exact layer_at A A' H H' W W' b b' (ix2 _ c) (ix2 _ c) hA hH hW hb rfl

/-- The logarithm of the softmax of A'·Z' + b' along each row at y is the whole array's at i. -/
theorem logSoftmax_layer_at {m' : Nat} (A : (⟨2, ![m, k]⟩ : Shape).Idx → EReal) (A' : (⟨2, ![m', k]⟩ : Shape).Idx → EReal)
    (Z Z' : (⟨2, ![k, n]⟩ : Shape).Idx → EReal) (b b' : (⟨2, ![1, n]⟩ : Shape).Idx → EReal)
    (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hZ : Z' = Z) (hb : b' = b) (hcol : (y 1).val = (i 1).val) :
    Cert.Lib.LogSoftmaxRows.logSoftmaxK (biasAdd (matProd A' Z') b') y
      = Cert.Lib.LogSoftmaxRows.logSoftmaxK (biasAdd (matProd A Z) b) i := by
  subst hZ hb
  refine Cert.Lib.LogSoftmaxRows.logSoftmaxK_rows _ _ y i (fun q => ?_) hcol
  exact Cert.Lib.InPlaceBodies.biasAdd_at _ _ _ (ix2 _ q) (ix2 _ q)
    (Cert.Lib.RowBlocks.matProd_rows A A' Z' (ix2 _ q) (ix2 _ q) hA rfl) rfl

end Cert.Lib.GraphConv

end
-- ==== Proof.Bridge.lean ====
/-
  The two programs' results are one function of the arguments when the float arguments hold reals.
  Both are the logarithm of the softmax of (second convolution + bias) of the hidden layer, itself the zero-clamped
  (first convolution + bias) of the features. The kernel scales a table's rows by the per-node scale before gathering
  them along the edges and scales the accumulated rows afterwards; the reference multiplies each gathered row by the
  product of the scales at the edge's two ends. The convolution law makes the two equal, layer by layer, once the
  table gathered from holds reals: the product of real features and real weights, and then the product of the real
  hidden layer and real weights. The per-node scale is a real because the degree is a finite sum of ones.
-/
import Idealize.ShloMosaic.Lib.IdealHost
import proofs.«132974_j3470333575753_2_alg».proof.Proof.KernelValue
import proofs.«132974_j3470333575753_2_alg».proof.Proof.RefTerms
import proofs.«132974_j3470333575753_2_alg».proof.Proof.Law
import proofs.«132974_j3470333575753_2_alg».proof.Proof.LibGraphConv

open scoped BigOperators

noncomputable section

namespace Cert.Bridge

open Idealize.ShloMosaic Idealize.ShloMosaic.ValueIdx Cert.Lib.IdealSums Cert.Lib.RealSums Cert.Lib.MatProd
  Cert.Lib.BiasRelu Cert.Layers Cert.Lib.RowVector Cert.Lib.LogSoftmaxRows Cert.Lib.GraphConv Cert.Gcn Cert.Gcn.Law

/-! ## The per-node scale holds reals -/

theorem isReal_deg (d : IVec Cert.KernelIdeal.S1700000 32) (i : Cert.KernelIdeal.S100000.Idx) :
    IsReal (Cert.KernelIdeal.HostTerms.degOf (F := Ideal) d i) := by
  unfold Cert.KernelIdeal.HostTerms.degOf
  exact isReal_count _ _ _ _ i

theorem isReal_dis (d : IVec Cert.KernelIdeal.S1700000 32) (i : Cert.KernelIdeal.S100000.Idx) :
    IsReal (Cert.KernelIdeal.HostTerms.disOf (F := Ideal) d i) := by
  unfold Cert.KernelIdeal.HostTerms.disOf
  exact isReal_scale _ (isReal_deg d) _ i

/-! ## The index vectors and the scale are the same functions in both programs -/

theorem srcSl_eq (ei : IVec Cert.KernelIdeal.S2x1600000 32) :
    Cert.ReferenceIdeal.RefRun.srcSl ei = Cert.KernelIdeal.HostTerms.srcSl ei := rfl
theorem dstSl_eq (ei : IVec Cert.KernelIdeal.S2x1600000 32) :
    Cert.ReferenceIdeal.RefRun.dstSl ei = Cert.KernelIdeal.HostTerms.dstSl ei := rfl
theorem disOf_eq (d : IVec Cert.KernelIdeal.S1700000 32) :
    Cert.ReferenceIdeal.RefRun.disOf (F := Ideal) d = Cert.KernelIdeal.HostTerms.disOf (F := Ideal) d := rfl

/-! ## The convolution law at the two widths -/

theorem land (d : IVec Cert.KernelIdeal.S1700000 32) (r : Fin 1700000) (p : Fin 100000)
    (h : (Cert.KernelIdeal.HostTerms.colIdx d (ix2 r 0)).toInt = (p.val : Int)) :
    Cert.Lib.RowGather.rowOf 100000 (by decide) (Cert.ReferenceIdeal.RefRun.wrapIdx d (ix2 r 0)) = p :=
  wrap_land (N := 100000) (M := 1700000) (by decide) Cert.ReferenceIdeal.Facts₀.bcast_S_S1700000
    Cert.ReferenceIdeal.Facts₀.bcast_S1700000_S1700000x1_0 100000#32 d r p h

theorem law64 (T : FVec Ideal Cert.KernelIdeal.S100000x64 .f32) (s d : IVec Cert.KernelIdeal.S1700000 32)
    (dis : FVec Ideal Cert.KernelIdeal.S100000 .f32) (hT : ∀ i, IsReal (T i)) (hd : ∀ i, IsReal (dis i)) :
    scaleCol (Cert.KernelIdeal.HostTerms.agg64 (F := Ideal)
        (scaleCol T (shapeCast Cert.KernelIdeal.S100000x1 dis Cert.KernelIdeal.Facts₀.shapeCasts_S100000_S100000x1)) s d)
        (shapeCast Cert.KernelIdeal.S100000x1 dis Cert.KernelIdeal.Facts₀.shapeCasts_S100000_S100000x1)
      = Cert.ReferenceIdeal.RefRun.conv64 (F := Ideal) T s d dis := by
  unfold Cert.KernelIdeal.HostTerms.agg64 Cert.ReferenceIdeal.RefRun.conv64 Cert.ReferenceIdeal.RefRun.normOf
  exact conv_law_host (N := 100000) (M := 1700000) (D := 64) (by decide)
    Cert.KernelIdeal.gather_S100000x64_S1700000x1_S1700000x64_1_0_n_n_0_1_164.wf
    Cert.KernelIdeal.scatter_S100000x64_S1700000x1_S1700000x64_1_0_0_1.wf
    Cert.ReferenceIdeal.gather_S100000_S1700000x1_S1700000_n_0_n_n_0_1_1.wf
    Cert.KernelIdeal.Facts₀.bcast_S_S100000x64
    Cert.ReferenceIdeal.Facts₀.bcast_S1700000_S1700000x1_0 Cert.ReferenceIdeal.Facts₀.bcast_S1700000x1_S1700000x64_0_1
    Cert.KernelIdeal.Facts₀.shapeCasts_S100000_S100000x1
    (Cert.KernelIdeal.HostTerms.wrapIdx s) (Cert.KernelIdeal.HostTerms.colIdx d) (Cert.ReferenceIdeal.RefRun.wrapIdx d)
    (land d) T dis hT hd

theorem law2 (T : FVec Ideal Cert.KernelIdeal.S100000x2 .f32) (s d : IVec Cert.KernelIdeal.S1700000 32)
    (dis : FVec Ideal Cert.KernelIdeal.S100000 .f32) (hT : ∀ i, IsReal (T i)) (hd : ∀ i, IsReal (dis i)) :
    scaleCol (Cert.KernelIdeal.HostTerms.agg2 (F := Ideal)
        (scaleCol T (shapeCast Cert.KernelIdeal.S100000x1 dis Cert.KernelIdeal.Facts₀.shapeCasts_S100000_S100000x1)) s d)
        (shapeCast Cert.KernelIdeal.S100000x1 dis Cert.KernelIdeal.Facts₀.shapeCasts_S100000_S100000x1)
      = Cert.ReferenceIdeal.RefRun.conv2 (F := Ideal) T s d dis := by
  unfold Cert.KernelIdeal.HostTerms.agg2 Cert.ReferenceIdeal.RefRun.conv2 Cert.ReferenceIdeal.RefRun.normOf
  exact conv_law_host (N := 100000) (M := 1700000) (D := 2) (by decide)
    Cert.KernelIdeal.gather_S100000x2_S1700000x1_S1700000x2_1_0_n_n_0_1_12.wf
    Cert.KernelIdeal.scatter_S100000x2_S1700000x1_S1700000x2_1_0_0_1.wf
    Cert.ReferenceIdeal.gather_S100000_S1700000x1_S1700000_n_0_n_n_0_1_1.wf
    Cert.KernelIdeal.Facts₀.bcast_S_S100000x2
    Cert.ReferenceIdeal.Facts₀.bcast_S1700000_S1700000x1_0 Cert.ReferenceIdeal.Facts₀.bcast_S1700000x1_S1700000x2_0_1
    Cert.KernelIdeal.Facts₀.shapeCasts_S100000_S100000x1
    (Cert.KernelIdeal.HostTerms.wrapIdx s) (Cert.KernelIdeal.HostTerms.colIdx d) (Cert.ReferenceIdeal.RefRun.wrapIdx d)
    (land d) T dis hT hd

/-- A convolution of a table of reals with real scales holds reals. -/
theorem isReal_conv64 (T : FVec Ideal Cert.KernelIdeal.S100000x64 .f32) (s d : IVec Cert.KernelIdeal.S1700000 32)
    (dis : FVec Ideal Cert.KernelIdeal.S100000 .f32) (hT : ∀ i, IsReal (T i)) (hd : ∀ i, IsReal (dis i)) (i) :
    IsReal (Cert.ReferenceIdeal.RefRun.conv64 (F := Ideal) T s d dis i) := by
  unfold Cert.ReferenceIdeal.RefRun.conv64 Cert.ReferenceIdeal.RefRun.normOf
  exact isReal_conv_host (N := 100000) (M := 1700000) (D := 64)
    Cert.ReferenceIdeal.gather_S100000x64_S1700000x1_S1700000x64_1_0_n_n_0_1_164.wf
    Cert.ReferenceIdeal.scatter_S100000x64_S1700000x1_S1700000x64_1_0_0_1.wf
    Cert.ReferenceIdeal.gather_S100000_S1700000x1_S1700000_n_0_n_n_0_1_1.wf
    Cert.ReferenceIdeal.Facts₀.bcast_S_S100000x64
    Cert.ReferenceIdeal.Facts₀.bcast_S1700000_S1700000x1_0 Cert.ReferenceIdeal.Facts₀.bcast_S1700000x1_S1700000x64_0_1
    (Cert.ReferenceIdeal.RefRun.wrapIdx s) (Cert.ReferenceIdeal.RefRun.colIdx d) (Cert.ReferenceIdeal.RefRun.wrapIdx d) T dis hT hd i

/-! ## Both results in one spelling -/

/-- The kernel's result: the dense stages opened. -/
theorem kernelOut_eq (x : FVec Ideal Cert.KernelIdeal.S100000x512 .f32) (ei : IVec Cert.KernelIdeal.S2x1600000 32)
    (W1 : FVec Ideal Cert.KernelIdeal.S512x64 .f32) (b1 : FVec Ideal Cert.KernelIdeal.S64 .f32)
    (W2 : FVec Ideal Cert.KernelIdeal.S64x2 .f32) (b2 : FVec Ideal Cert.KernelIdeal.S2 .f32) :
    Cert.KernelIdeal.KernelValue.kernelOut x ei W1 b1 W2 b2
      = logSoftmax (biasAdd (scaleCol (Cert.KernelIdeal.HostTerms.agg2 (F := Ideal)
          (scaleCol (matProd (biasRelu (scaleCol (Cert.KernelIdeal.HostTerms.agg64 (F := Ideal)
              (scaleCol (matProd x W1)
                (shapeCast Cert.KernelIdeal.S100000x1 (Cert.KernelIdeal.HostTerms.disOf (F := Ideal) (Cert.KernelIdeal.HostTerms.dstSl ei)) Cert.KernelIdeal.Facts₀.shapeCasts_S100000_S100000x1))
              (Cert.KernelIdeal.HostTerms.srcSl ei) (Cert.KernelIdeal.HostTerms.dstSl ei))
            (shapeCast Cert.KernelIdeal.S100000x1 (Cert.KernelIdeal.HostTerms.disOf (F := Ideal) (Cert.KernelIdeal.HostTerms.dstSl ei)) Cert.KernelIdeal.Facts₀.shapeCasts_S100000_S100000x1))
            (asRow b1)) W2)
            (shapeCast Cert.KernelIdeal.S100000x1 (Cert.KernelIdeal.HostTerms.disOf (F := Ideal) (Cert.KernelIdeal.HostTerms.dstSl ei)) Cert.KernelIdeal.Facts₀.shapeCasts_S100000_S100000x1))
          (Cert.KernelIdeal.HostTerms.srcSl ei) (Cert.KernelIdeal.HostTerms.dstSl ei))
          (shapeCast Cert.KernelIdeal.S100000x1 (Cert.KernelIdeal.HostTerms.disOf (F := Ideal) (Cert.KernelIdeal.HostTerms.dstSl ei)) Cert.KernelIdeal.Facts₀.shapeCasts_S100000_S100000x1))
        (asRow b2)) := by
  unfold Cert.KernelIdeal.KernelValue.kernelOut layer3 layer2 layer1
  rw [shapeCast_eq_asRow, shapeCast_eq_asRow]

/-- The reference's result: products as sums, bias and clamp, the logarithm of the softmax, each read once. -/
theorem refOut_eq (x : FVec Ideal Cert.KernelIdeal.S100000x512 .f32) (ei : IVec Cert.KernelIdeal.S2x1600000 32)
    (W1 : FVec Ideal Cert.KernelIdeal.S512x64 .f32) (b1 : FVec Ideal Cert.KernelIdeal.S64 .f32)
    (W2 : FVec Ideal Cert.KernelIdeal.S64x2 .f32) (b2 : FVec Ideal Cert.KernelIdeal.S2 .f32) :
    Cert.ReferenceIdeal.RefRun.refOut (F := Ideal) x ei W1 b1 W2 b2
      = logSoftmax (biasAdd (Cert.ReferenceIdeal.RefRun.conv2 (F := Ideal)
          (matProd (biasRelu (Cert.ReferenceIdeal.RefRun.conv64 (F := Ideal) (matProd x W1)
              (Cert.ReferenceIdeal.RefRun.srcSl ei) (Cert.ReferenceIdeal.RefRun.dstSl ei)
              (Cert.ReferenceIdeal.RefRun.disOf (F := Ideal) (Cert.ReferenceIdeal.RefRun.dstSl ei))) (asRow b1)) W2)
          (Cert.ReferenceIdeal.RefRun.srcSl ei) (Cert.ReferenceIdeal.RefRun.dstSl ei)
          (Cert.ReferenceIdeal.RefRun.disOf (F := Ideal) (Cert.ReferenceIdeal.RefRun.dstSl ei))) (asRow b2)) := by
  have hid : Cert.ReferenceIdeal.RefRun.hidden (F := Ideal) x ei W1 b1
      = biasRelu (Cert.ReferenceIdeal.RefRun.conv64 (F := Ideal) (matProd x W1)
          (Cert.ReferenceIdeal.RefRun.srcSl ei) (Cert.ReferenceIdeal.RefRun.dstSl ei)
          (Cert.ReferenceIdeal.RefRun.disOf (F := Ideal) (Cert.ReferenceIdeal.RefRun.dstSl ei))) (asRow b1) := by
    unfold Cert.ReferenceIdeal.RefRun.hidden
    rw [show Host.dotGeneral (F := Ideal) Cert.ReferenceIdeal.dot_S100000x512_S512x64_S100000x64_1_0_0_1_n_n none x W1 = matProd x W1
      from dotGeneral_eq_matProd _ rfl rfl rfl rfl rfl rfl none .single x W1]
    exact Cert.Lib.BiasRelu.host_eq _ _ _ _ _
  have lg : Cert.ReferenceIdeal.RefRun.logits (F := Ideal) x ei W1 b1 W2 b2
      = biasAdd (Cert.ReferenceIdeal.RefRun.conv2 (F := Ideal)
          (matProd (Cert.ReferenceIdeal.RefRun.hidden (F := Ideal) x ei W1 b1) W2)
          (Cert.ReferenceIdeal.RefRun.srcSl ei) (Cert.ReferenceIdeal.RefRun.dstSl ei)
          (Cert.ReferenceIdeal.RefRun.disOf (F := Ideal) (Cert.ReferenceIdeal.RefRun.dstSl ei))) (asRow b2) := by
    unfold Cert.ReferenceIdeal.RefRun.logits
    rw [show Host.dotGeneral (F := Ideal) Cert.ReferenceIdeal.dot_S100000x64_S64x2_S100000x2_1_0_0_1_n_n none
        (Cert.ReferenceIdeal.RefRun.hidden (F := Ideal) x ei W1 b1) W2 = matProd (Cert.ReferenceIdeal.RefRun.hidden (F := Ideal) x ei W1 b1) W2
      from dotGeneral_eq_matProd _ rfl rfl rfl rfl rfl rfl none .single _ W2]
    exact host_bias _ _ _ _
  unfold Cert.ReferenceIdeal.RefRun.refOut
  rw [show Cert.ReferenceIdeal.RefRun.logSoftmaxHost (F := Ideal) (Cert.ReferenceIdeal.RefRun.logits (F := Ideal) x ei W1 b1 W2 b2)
      = logSoftmax (Cert.ReferenceIdeal.RefRun.logits (F := Ideal) x ei W1 b1 W2 b2) from host_eq _ _ _ _ _ _, lg, hid]

/-- With real features, weights and first bias the two programs' results are one array. -/
theorem out_eq (x : FVec Ideal Cert.KernelIdeal.S100000x512 .f32) (ei : IVec Cert.KernelIdeal.S2x1600000 32)
    (W1 : FVec Ideal Cert.KernelIdeal.S512x64 .f32) (b1 : FVec Ideal Cert.KernelIdeal.S64 .f32)
    (W2 : FVec Ideal Cert.KernelIdeal.S64x2 .f32) (b2 : FVec Ideal Cert.KernelIdeal.S2 .f32)
    (hx : ∀ i, IsReal (x i)) (hW1 : ∀ i, IsReal (W1 i)) (hb1 : ∀ i, IsReal (b1 i)) (hW2 : ∀ i, IsReal (W2 i)) :
    Cert.KernelIdeal.KernelValue.kernelOut x ei W1 b1 W2 b2 = Cert.ReferenceIdeal.RefRun.refOut (F := Ideal) x ei W1 b1 W2 b2 := by
  rw [kernelOut_eq, refOut_eq, srcSl_eq, dstSl_eq, disOf_eq]
  have hd := isReal_dis (Cert.KernelIdeal.HostTerms.dstSl ei)
  have hT1 : ∀ i, IsReal (matProd x W1 i) := isReal_matProd x W1 hx hW1
  rw [law64 (matProd x W1) _ _ _ hT1 hd]
  have hH : ∀ i, IsReal (biasRelu (Cert.ReferenceIdeal.RefRun.conv64 (F := Ideal) (matProd x W1)
      (Cert.KernelIdeal.HostTerms.srcSl ei) (Cert.KernelIdeal.HostTerms.dstSl ei)
      (Cert.KernelIdeal.HostTerms.disOf (F := Ideal) (Cert.KernelIdeal.HostTerms.dstSl ei))) (asRow b1) i) :=
    isReal_biasRelu _ _ (isReal_conv64 _ _ _ _ hT1 hd) (isReal_asRow b1 hb1)
  rw [law2 _ _ _ _ (isReal_matProd _ W2 hH hW2) hd]

end Cert.Bridge

end
-- ==== Proof.RealInputs.lean ====
/-
  The input check of this certificate says, array by array, that every entry's absolute value is below +∞, and joins
  the five answers by "and". Read on the extended reals: when the check is all ones, every entry of each of the five
  float arrays is a real number. First for the printed check over any five arrays, then for the arrays a device's
  memory holds under the precondition.
-/
import proofs.«132974_j3470333575753_2_alg».proof.Defs
import proofs.«132974_j3470333575753_2_alg».proof.Proof.LibIdealSums
import Idealize.ShloMosaic.Lib.ReduceAll
import Idealize.ShloMosaic.Lib.ValueIdx

namespace Cert.RealInputs

open Idealize.ShloMosaic Idealize.SL.Sem Cert.Lib.IdealSums

/-- When the printed check of five float arrays is all ones, every entry of each array is a real. -/
theorem fn_real [Cert.Pre_finite_inputs.Facts]
    (a0 : FVec Ideal Cert.Pre_finite_inputs.S100000x512 .f32) (a1 : IVec Cert.Pre_finite_inputs.S2x1600000 32)
    (a2 : FVec Ideal Cert.Pre_finite_inputs.S512x64 .f32) (a3 : FVec Ideal Cert.Pre_finite_inputs.S64 .f32)
    (a4 : FVec Ideal Cert.Pre_finite_inputs.S64x2 .f32) (a5 : FVec Ideal Cert.Pre_finite_inputs.S2 .f32)
    (h : Cert.Pre_finite_inputs.fn (F := Ideal) a0 a1 a2 a3 a4 a5 = fun _ => 1#1) :
    (∀ i, IsReal (a0 i)) ∧ (∀ i, IsReal (a2 i)) ∧ (∀ i, IsReal (a3 i)) ∧ (∀ i, IsReal (a4 i)) ∧ (∀ i, IsReal (a5 i)) := by
  -- the scalar shape has one index
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨fun i => ?_, fun i => ?_, fun i => ?_, fun i => ?_, fun i => ?_⟩
  · exact isReal_of_cmpf_abs (a0 i) (Host.reduce_andi_all _ _ _ _ _ h1 i)
  · exact isReal_of_cmpf_abs (a2 i) (Host.reduce_andi_all _ _ _ _ _ h2 i)
  · exact isReal_of_cmpf_abs (a3 i) (Host.reduce_andi_all _ _ _ _ _ h3 i)
  · exact isReal_of_cmpf_abs (a4 i) (Host.reduce_andi_all _ _ _ _ _ h4 i)
  · exact isReal_of_cmpf_abs (a5 i) (Host.reduce_andi_all _ _ _ _ _ h5 i)

/-- Under the precondition, every entry of each float argument array of every device is a real. -/
theorem real_inputs [Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i)) :=
  fn_real _ _ _ _ _ _ (h c)

end Cert.RealInputs
-- ==== Proof.lean ====
/-
  A two-layer graph convolution with symmetric normalisation and a final logarithm of the softmax: the kernel against
  its reference, on the extended reals.

  Write dis(p) for the per-node scale (the inverse square root of the in-degree counted with self-loops). For a table
  T of node features the reference's convolution is, at node p, the sum over the edges e into p of
  T(src e) · (dis(src e) · dis(p)). The kernel computes the same layer as three dense row-wise stages around two
  aggregations that carry no per-edge weight: it scales row p of T by dis(p) before the rows are gathered along the
  edges and scales the accumulated row p by dis(p) afterwards. Both are sums over the same edges, and dis(p) is their
  common factor; moving it into the sum is the distributive law, which on the extended reals needs the numbers to be
  reals. They are: the features, weights and first bias are finite by the precondition, the scale is the inverse square
  root of a positive count or zero, and every table gathered from is built from these by sums and products.
  The frames are the programs' generated frames (the reference's is its run with the result dropped); the idealization
  rewrote nothing.
-/
import proofs.«132974_j3470333575753_2_alg».proof.Defs
import proofs.«132974_j3470333575753_2_alg».proof.Proof.Gen.Kernel
import proofs.«132974_j3470333575753_2_alg».proof.Proof.Gen.Kernel.Frame
import proofs.«132974_j3470333575753_2_alg».proof.Proof.Gen.KernelIdeal
import proofs.«132974_j3470333575753_2_alg».proof.Proof.Gen.KernelIdeal.Frame
import proofs.«132974_j3470333575753_2_alg».proof.Proof.Gen.ReferenceIdeal
import proofs.«132974_j3470333575753_2_alg».proof.Proof.Gen.Pre_finite_inputs
import proofs.«132974_j3470333575753_2_alg».proof.Proof.KernelRun
import proofs.«132974_j3470333575753_2_alg».proof.Proof.KernelValue
import proofs.«132974_j3470333575753_2_alg».proof.Proof.RefRun
import proofs.«132974_j3470333575753_2_alg».proof.Proof.Bridge
import proofs.«132974_j3470333575753_2_alg».proof.Proof.RealInputs
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.ref_run (F := Ideal) m ρ)

theorem preserves : Cert.preserves_Kernel_KernelIdeal := trivial

/-- Both idealized programs end with their result buffer at one array: the kernel's run names its result as the three
    dense stages around the two aggregations, the reference's as its convolutions, and the two are equal when the
    float arguments hold reals. -/
theorem algebraic : Cert.algebraic_KernelIdeal_ReferenceIdeal := by
  intro m ρ m' ρ' hpre hagree
  refine ⟨fun c => Cert.KernelIdeal.KernelValue.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.kernel_value m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.RefRun.ref_run (F := Ideal) m' ρ')
    obtain ⟨hx, hW1, hb1, hW2, _⟩ := Cert.RealInputs.real_inputs m hpre c
    rw [(hagree c).1, (hagree c).2.1, (hagree c).2.2.1, (hagree c).2.2.2.1, (hagree c).2.2.2.2.1, (hagree c).2.2.2.2.2]
    exact (Cert.Bridge.out_eq _ _ _ _ _ _ hx hW1 hb1 hW2).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
